-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S100000x128 : Shape := ⟨2, ![100000, 128]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part3 {F : FTy → Type} [FloatOps F] (main_v45 : IVec S_ 1) (main_v50 : IVec S16384 1) : IVec S_ 1 :=
  let main_c_19 : IVec S_ 1 := constantI S_ 1 1#1
  let main_v51 : IVec S_ 1 := (fun x v => Host.reduce IntOp.andi x v reducesTo_S16384_S_d0 h_S_) main_v50 main_c_19
  let main_v52 : IVec S_ 1 := andi main_v45 main_v51
  main_v52

def fn_part2 {F : FTy → Type} [FloatOps F] (main_arg0 : IVec S16384 32) (main_arg1 : IVec S16384 32) (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 0#32
  let main_v39 : IVec S16384 32 := broadcastInDim S16384 ![] bcast_S_S16384 main_c_14
  let main_v40 : IVec S16384 1 := cmpi .sge main_arg0 main_v39
  let main_c_15 : IVec S_ 32 := constantI S_ 32 99999#32
  let main_v41 : IVec S16384 32 := broadcastInDim S16384 ![] bcast_S_S16384 main_c_15
  let main_v42 : IVec S16384 1 := cmpi .sle main_arg0 main_v41
  let main_v43 : IVec S16384 1 := andi main_v40 main_v42
  let main_c_16 : IVec S_ 1 := constantI S_ 1 1#1
  let main_v44 : IVec S_ 1 := (fun x v => Host.reduce IntOp.andi x v reducesTo_S16384_S_d0 h_S_) main_v43 main_c_16
  let main_v45 : IVec S_ 1 := andi main_v38 main_v44
  let main_c_17 : IVec S_ 32 := constantI S_ 32 0#32
  let main_v46 : IVec S16384 32 := broadcastInDim S16384 ![] bcast_S_S16384 main_c_17
  let main_v47 : IVec S16384 1 := cmpi .sge main_arg1 main_v46
  let main_c_18 : IVec S_ 32 := constantI S_ 32 99999#32
  let main_v48 : IVec S16384 32 := broadcastInDim S16384 ![] bcast_S_S16384 main_c_18
  let main_v49 : IVec S16384 1 := cmpi .sle main_arg1 main_v48
  let main_v50 : IVec S16384 1 := andi main_v47 main_v49
  fn_part3 (F := F) main_v45 main_v50

def fn_part1 {F : FTy → Type} [FloatOps F] (main_arg0 : IVec S16384 32) (main_arg1 : IVec S16384 32) (main_arg6 : FVec F S128x64 .f32) (main_arg7 : FVec F S64 .f32) (main_arg8 : FVec F S64x1 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg8
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg0 main_arg1 main_arg9 main_v33

def fn {F : FTy → Type} [FloatOps F] (main_arg0 : IVec S16384 32) (main_arg1 : IVec S16384 32) (main_arg2 : FVec F S100000x128 .f32) (main_arg3 : FVec F S100000x128 .f32) (main_arg4 : FVec F S256x128 .f32) (main_arg5 : FVec F S128 .f32) (main_arg6 : FVec F S128x64 .f32) (main_arg7 : FVec F S64 .f32) (main_arg8 : FVec F S64x1 .f32) (main_arg9 : FVec F S1 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg1 main_arg6 main_arg7 main_arg8 main_arg9 main_v13 main_v16
-- ==== Kernel.lean ====
abbrev S16384 : Shape := ⟨1, ![16384]⟩
abbrev S100000x128 : Shape := ⟨2, ![100000, 128]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S16384x256 : Shape := ⟨2, ![16384, 256]⟩
abbrev S512 : Shape := ⟨1, ![512]⟩
abbrev S512x128 : Shape := ⟨2, ![512, 128]⟩
abbrev S_ : Shape := ⟨0, ![]⟩
abbrev S4x1x4096 : Shape := ⟨3, ![4, 1, 4096]⟩
abbrev S4096x256 : Shape := ⟨2, ![4096, 256]⟩
abbrev S1x1x4096 : Shape := ⟨3, ![1, 1, 4096]⟩
abbrev S4096x128 : Shape := ⟨2, ![4096, 128]⟩
abbrev S1x128 : Shape := ⟨2, ![1, 128]⟩
abbrev S4096x64 : Shape := ⟨2, ![4096, 64]⟩
abbrev S1x64 : Shape := ⟨2, ![1, 64]⟩
abbrev S1x4096 : Shape := ⟨2, ![1, 4096]⟩

abbrev nBuf : Table → Nat
  | .hbm => 13
  | .local .tc .vmem => 10
  | .local .scVector .vmem => 3
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S16384x256, .f32⟩
  | .hbm, ⟨11, _⟩ => ⟨S4x1x4096, .f32⟩
  | .hbm, ⟨12, _⟩ => ⟨S16384, .f32⟩
  | .local .tc .vmem, ⟨0, _⟩ => ⟨S4096x256, .f32⟩
  | .local .tc .vmem, ⟨1, _⟩ => ⟨S4096x256, .f32⟩
  | .local .tc .vmem, ⟨2, _⟩ => ⟨S256x128, .f32⟩
  | .local .tc .vmem, ⟨3, _⟩ => ⟨S128, .f32⟩
  | .local .tc .vmem, ⟨4, _⟩ => ⟨S128x64, .f32⟩
  | .local .tc .vmem, ⟨5, _⟩ => ⟨S64, .f32⟩
  | .local .tc .vmem, ⟨6, _⟩ => ⟨S64x1, .f32⟩
  | .local .tc .vmem, ⟨7, _⟩ => ⟨S1, .f32⟩
  | .local .tc .vmem, ⟨8, _⟩ => ⟨S1x1x4096, .f32⟩
  | .local .tc .vmem, ⟨9, _⟩ => ⟨S1x1x4096, .f32⟩
  | .local .scVector .vmem, ⟨0, _⟩ => ⟨S512, .i32⟩
  | .local .scVector .vmem, ⟨1, _⟩ => ⟨S512, .i32⟩
  | .local .scVector .vmem, ⟨2, _⟩ => ⟨S512x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_arg2_scv : Ref sig .scVector := ⟨.hbm, 2, rfl⟩
abbrev main_arg3_scv : Ref sig .scVector := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 10, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg7_1 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_7_r2 : BitVec 32 := 0#32
  ![v2.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c128_i32_r3 : BitVec 32 := 128#32
  ![v2.toNat, 128]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x1x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S100000x128_S100000x128_0_0 : ∀ a, (![0, 0] : Fin 2 → Nat) a + S100000x128.size a ≤ S100000x128.size a
  gathers_S100000x128_S512x128 : S100000x128.Gathers 0 S512x128
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  inpos_S1_p0 : ∀ a, (![0] : Fin 1 → Nat) a < S1.size a
  shapeCasts_S1x4096_S1x1x4096 : S1x4096.ShapeCasts S1x1x4096
  inb_S1x1x4096_S1x1x4096_0_0_0 : ∀ a, (![0, 0, 0] : Fin 3 → Nat) a + S1x1x4096.size a ≤ S1x1x4096.size a
  h_S1x1x4096 : 0 < S1x1x4096.numel
  shapeCasts_S4x1x4096_S16384 : S4x1x4096.ShapeCasts S16384
  dot_S4096x256_S256x128_S4096x128_1_0_0_1_n_n_wf : DotDims.WF S4096x256 S256x128 S4096x128 [1] [0] [0] [1] [] []
  dot_S4096x128_S128x64_S4096x64_1_0_0_1_n_n_wf : DotDims.WF S4096x128 S128x64 S4096x64 [1] [0] [0] [1] [] []
  dot_S64x1_S4096x64_S1x4096_0_1_1_0_n_n_wf : DotDims.WF S64x1 S4096x64 S1x4096 [0] [1] [1] [0] [] []
  hcc0_scratch3 : 0 + S_.numel ≤ 15
  hcc0_scoped0 : 1 + S_.numel ≤ 15
  hcc0_scoped1 : 2 + S_.numel ≤ 15
  hcc0_scoped2 : 3 + S_.numel ≤ 15
  hcc0_scoped3 : 4 + S_.numel ≤ 15
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ a, (k0_off2 i) a + S512x128.size a ≤ S16384x256.size a
  k0_off3_inb : ∀ i : grid0.Coords, ∀ a, (k0_off3 i) a + S512x128.size a ≤ S16384x256.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x256.size a ≤ S16384x256.size a
  hwx1_0 : ∀ i : grid1.Coords, EltTy.bits .f32 = 32 ∨ (Rect.block (s := S16384x256) S4096x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x4096.size a ≤ S4x1x4096.size a
  hwx1_7 : ∀ i : grid1.Coords, EltTy.bits .f32 = 32 ∨ (Rect.block (s := S4x1x4096) S1x1x4096.size (cc1_transform_7 i) (hinb1_7 i)).WholeWords (EltTy.packing .f32)

variable [Facts₀]

abbrev cc0_scratch3 : DmaSems sig S_ := SemArray.consecutive 0 S_ hcc0_scratch3
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
abbrev cc0_scoped3 : DmaSems sig S_ := SemArray.consecutive 4 S_ hcc0_scoped3
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S64x1_S4096x64_S1x4096_0_1_1_0_n_n : DotDims S64x1 S4096x64 S1x4096 where
  lhsContracting := [0]
  rhsContracting := [1]
  lhsNonContracting := [1]
  rhsNonContracting := [0]
  lhsBatch := []
  rhsBatch := []
  wf := dot_S64x1_S4096x64_S1x4096_0_1_1_0_n_n_wf

abbrev win1_0 : Pipeline.Window sig grid1 :=
  Pipeline.Window.ofSpec (Memref.whole main_v0) S4096x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S1x1x4096.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S16384 : Shape := ⟨1, ![16384]⟩
abbrev S100000x128 : Shape := ⟨2, ![100000, 128]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x128 : Shape := ⟨2, ![16384, 128]⟩
abbrev S16384x256 : Shape := ⟨2, ![16384, 256]⟩
abbrev S1x128 : Shape := ⟨2, ![1, 128]⟩
abbrev S16384x64 : Shape := ⟨2, ![16384, 64]⟩
abbrev S1x64 : Shape := ⟨2, ![1, 64]⟩

abbrev nBuf : Space → Nat
  | .hbm => 76
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S1x1, .i32⟩
  | .hbm, ⟨23, _⟩ => ⟨S16384x1, .i32⟩
  | .hbm, ⟨24, _⟩ => ⟨S16384x1, .i1⟩
  | .hbm, ⟨25, _⟩ => ⟨S16384x1, .i1⟩
  | .hbm, ⟨26, _⟩ => ⟨S_, .i1⟩
  | .hbm, ⟨27, _⟩ => ⟨S16384, .i1⟩
  | .hbm, ⟨28, _⟩ => ⟨S16384x128, .f32⟩
  | .hbm, ⟨29, _⟩ => ⟨S16384x128, .i1⟩
  | .hbm, ⟨30, _⟩ => ⟨S_, .f32⟩
  | .hbm, ⟨31, _⟩ => ⟨S16384x128, .f32⟩
  | .hbm, ⟨32, _⟩ => ⟨S16384x128, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384x128, .f32⟩
  | .hbm, ⟨52, _⟩ => ⟨S16384x128, .i1⟩
  | .hbm, ⟨53, _⟩ => ⟨S_, .f32⟩
  | .hbm, ⟨54, _⟩ => ⟨S16384x128, .f32⟩
  | .hbm, ⟨55, _⟩ => ⟨S16384x128, .f32⟩
  | .hbm, ⟨56, _⟩ => ⟨S16384x256, .f32⟩
  | .hbm, ⟨57, _⟩ => ⟨S16384x128, .f32⟩
  | .hbm, ⟨58, _⟩ => ⟨S1x128, .f32⟩
  | .hbm, ⟨59, _⟩ => ⟨S16384x128, .f32⟩
  | .hbm, ⟨60, _⟩ => ⟨S16384x128, .f32⟩
  | .hbm, ⟨61, _⟩ => ⟨S_, .f32⟩
  | .hbm, ⟨62, _⟩ => ⟨S16384x128, .f32⟩
  | .hbm, ⟨63, _⟩ => ⟨S16384x128, .f32⟩
  | .hbm, ⟨64, _⟩ => ⟨S16384x64, .f32⟩
  | .hbm, ⟨65, _⟩ => ⟨S1x64, .f32⟩
  | .hbm, ⟨66, _⟩ => ⟨S16384x64, .f32⟩
  | .hbm, ⟨67, _⟩ => ⟨S16384x64, .f32⟩
  | .hbm, ⟨68, _⟩ => ⟨S_, .f32⟩
  | .hbm, ⟨69, _⟩ => ⟨S16384x64, .f32⟩
  | .hbm, ⟨70, _⟩ => ⟨S16384x64, .f32⟩
  | .hbm, ⟨71, _⟩ => ⟨S16384x1, .f32⟩
  | .hbm, ⟨72, _⟩ => ⟨S1x1, .f32⟩
  | .hbm, ⟨73, _⟩ => ⟨S16384x1, .f32⟩
  | .hbm, ⟨74, _⟩ => ⟨S16384x1, .f32⟩
  | .hbm, ⟨75, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_v2 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_call2_cst : Ref sig .tc := ⟨.hbm, 61, rfl⟩
abbrev main_call2_v0 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_call3_cst : Ref sig .tc := ⟨.hbm, 68, rfl⟩
abbrev main_call3_v0 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  concatenates_S16384x128_S16384x128_S16384x256_d1 : Shape.Concatenates [S16384x128, S16384x128] S16384x256 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  shapeCasts_S16384x1_S16384 : S16384x1.ShapeCasts S16384
  gather_S100000x128_S16384x1_S16384x128_1_0_n_n_0_1_1128_wf : GatherDims.WF S100000x128 S16384x1 S16384x128 [1] [0] [] [0] [] 1 ![1, 128]
  dot_S16384x256_S256x128_S16384x128_1_0_0_1_n_n_wf : DotDims.WF S16384x256 S256x128 S16384x128 [1] [0] [0] [1] [] []
  dot_S16384x128_S128x64_S16384x64_1_0_0_1_n_n_wf : DotDims.WF S16384x128 S128x64 S16384x64 [1] [0] [0] [1] [] []
  dot_S16384x64_S64x1_S16384x1_1_0_0_1_n_n_wf : DotDims.WF S16384x64 S64x1 S16384x1 [1] [0] [0] [1] [] []

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.ScBody.lean ====
import proofs.«201248_g17051020165207_cont_7to1_1438_30_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«201248_g17051020165207_cont_7to1_1438_30_alg».proof.Proof.Gen.KernelIdeal
import proofs.«201248_g17051020165207_cont_7to1_1438_30_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-!
  The SparseCore call of the kernel, one tile at a time.

  Tile `(c, s)` of the two SparseCores' sixteen tiles each handles batch rows `512 * (2 s + c)` to
  `512 * (2 s + c) + 511`: it copies those 512 user words and 512 item words into its two index buffers, gathers the
  user table's rows the first list names into its row buffer and copies that out to columns 0 to 127 of its rows of the
  gathered array, then does the same with the item table and columns 128 to 255. Every copy is waited for before the
  next one starts, so the row buffer is never read or written while a copy on it is pending. Both gathers need every
  list word to name a table row: that is what the precondition gives (`PreOK`).

  A tile holds: its 512 words of each id array, a thirty-second share of each table (every tile reads both tables
  whole), and its two 512 × 128 pieces of the gathered array; it hands all of them back, the two pieces at contents
  satisfying `GA` and `GB`, predicates the caller chooses (trivial for a frame; the gathered rows for the value).
-/

/-! ## The program as the launch theorem reads it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pallas_call's staging cells' rounds, the transfers' counters -/

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

abbrev uLoc (d : Dev nD) : Loc nD τ sig := (SparseCore.T d).loc main_arg0
abbrev iLoc (d : Dev nD) : Loc nD τ sig := (SparseCore.T d).loc main_arg1
abbrev tuLoc (d : Dev nD) : Loc nD τ sig := (SparseCore.T d).loc main_arg2
abbrev tiLoc (d : Dev nD) : Loc nD τ sig := (SparseCore.T d).loc main_arg3
abbrev xLoc (d : Dev nD) : Loc nD τ sig := (SparseCore.T d).loc main_v0

local notation "uV" => (Memref.whole Cert.KernelIdeal.main_arg0_scv : Memref Cert.KernelIdeal.sig Kind.scVector Space.hbm Cert.KernelIdeal.S16384 EltTy.i32)
local notation "iV" => (Memref.whole Cert.KernelIdeal.main_arg1_scv : Memref Cert.KernelIdeal.sig Kind.scVector Space.hbm Cert.KernelIdeal.S16384 EltTy.i32)
local notation "tuV" => (Memref.whole Cert.KernelIdeal.main_arg2_scv : Memref Cert.KernelIdeal.sig Kind.scVector Space.hbm Cert.KernelIdeal.S100000x128 EltTy.f32)
local notation "tiV" => (Memref.whole Cert.KernelIdeal.main_arg3_scv : Memref Cert.KernelIdeal.sig Kind.scVector Space.hbm Cert.KernelIdeal.S100000x128 EltTy.f32)
local notation "xV" => (Memref.whole Cert.KernelIdeal.main_v0_scv : Memref Cert.KernelIdeal.sig Kind.scVector Space.hbm Cert.KernelIdeal.S16384x256 EltTy.f32)
local notation "suV" => (Memref.whole Cert.KernelIdeal.cc0_scratch0 : Memref Cert.KernelIdeal.sig Kind.scVector Space.vmem Cert.KernelIdeal.S512 EltTy.i32)
local notation "siV" => (Memref.whole Cert.KernelIdeal.cc0_scratch1 : Memref Cert.KernelIdeal.sig Kind.scVector Space.vmem Cert.KernelIdeal.S512 EltTy.i32)
local notation "rV" => (Memref.whole Cert.KernelIdeal.cc0_scratch2 : Memref Cert.KernelIdeal.sig Kind.scVector Space.vmem Cert.KernelIdeal.S512x128 EltTy.f32)

/-! ## A tile's pieces, spelt as its program slices them -/

/-- The 512 id words of tile `L`: words `512 * (2 * L 1 + L 0)` onwards of the user ids, -/
abbrev uSl (L : grid0.Coords) : Memref sig .scVector .hbm S512 .i32 := (uV).slice (Rect.unit (s := S16384) (k0_off1 L) S512.size (k0_off1_inb L)) (fun _ => rfl)
/-- and of the item ids. -/
abbrev iSl (L : grid0.Coords) : Memref sig .scVector .hbm S512 .i32 := (iV).slice (Rect.unit (s := S16384) (k0_off1 L) S512.size (k0_off1_inb L)) (fun _ => rfl)
/-- The tile's 512 rows of the gathered array: columns 0 to 127, -/
abbrev xSlA (L : grid0.Coords) : Memref sig .scVector .hbm S512x128 .f32 := (xV).slice (Rect.unit (s := S16384x256) (k0_off2 L) S512x128.size (k0_off2_inb L)) (fun _ => rfl)
/-- and columns 128 to 255. -/
abbrev xSlB (L : grid0.Coords) : Memref sig .scVector .hbm S512x128 .f32 := (xV).slice (Rect.unit (s := S16384x256) (k0_off3 L) S512x128.size (k0_off3_inb L)) (fun _ => rfl)
/-- Each table whole, as the gather addresses it. -/
abbrev tuAll : Memref sig .scVector .hbm S100000x128 .f32 := (tuV).slice (Rect.unit (s := S100000x128) ![0, 0] S100000x128.size inb_S100000x128_S100000x128_0_0) (fun _ => rfl)
abbrev tiAll : Memref sig .scVector .hbm S100000x128 .f32 := (tiV).slice (Rect.unit (s := S100000x128) ![0, 0] S100000x128.size inb_S100000x128_S100000x128_0_0) (fun _ => rfl)

abbrev cV (L : grid0.Coords) : Fin τ.nSC := (L 0).castLE hcore0
abbrev jV (L : grid0.Coords) : Fin τ.nSub := (L 1).castLE hsub0

variable [FloatOps F]

/-- What the proof asks of the launch memory: every id word names a table row. -/
def PreOK : Prop := ∀ (d : Dev nD), (∀ j, (m (uLoc d) j).toNat < 100000) ∧ (∀ j, (m (iLoc d) j).toNat < 100000)

/-! ## Shares: a share halved `n` times has `2 ^ n` leaves -/

omit [FloatOps F] in
/-- Leaf `i` of share `q` halved `n` times over: the left half holds the leaves below `2 ^ (n - 1)`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by have := i.isLt; omega⟩

/-- Tile `(c, s)`'s share of a table: the full share halved five times, leaf `16 c + s`. -/
def tileShare (L : grid0.Coords) : PosShare TreeShare :=
  leaf 5 fullShare ⟨16 * (L 0).val + (L 1).val, by
    have h0 : (L 0).val < 2 := (L 0).isLt
    have h1 : (L 1).val < 16 := (L 1).isLt
    have : (2 : ℕ) ^ 5 = 32 := by norm_num
    omega⟩

/-! ## What a tile is handed and hands back -/

section Tile

variable (d : Dev nD) (L : grid0.Coords)
variable (GA GB : (d : Dev nD) → grid0.Coords → Buf (Elt F) (xLoc d) → Prop)

abbrev uPts : sProp 𝕄 := uLoc d ↦[(uSl L).view.set]{fullShare} m (uLoc d)
abbrev iPts : sProp 𝕄 := iLoc d ↦[(iSl L).view.set]{fullShare} m (iLoc d)
abbrev tuPts : sProp 𝕄 := tuLoc d ↦{tileShare L} m (tuLoc d)
abbrev tiPts : sProp 𝕄 := tiLoc d ↦{tileShare L} m (tiLoc d)
abbrev xAPts (f : Buf (Elt F) (xLoc d)) : sProp 𝕄 := xLoc d ↦[(xSlA L).view.set]{fullShare} f
abbrev xBPts (f : Buf (Elt F) (xLoc d)) : sProp 𝕄 := xLoc d ↦[(xSlB L).view.set]{fullShare} f

/-- Handed to the tile: its id words, its shares of the tables, its two pieces of the gathered array as the launch left them. -/
def goRes : sProp 𝕄 := iprop(uPts m d L ∗ iPts m d L ∗ tuPts m d L ∗ tiPts m d L ∗ xAPts d L (m (xLoc d)) ∗ xBPts d L (m (xLoc d)))
/-- Handed back: the same, the two pieces at contents of which `GA` and `GB` hold. -/
def tdRes : sProp 𝕄 :=
  iprop(uPts m d L ∗ iPts m d L ∗ tuPts m d L ∗ tiPts m d L ∗ (∃ f, ⌜GA d L f⌝ ∗ xAPts d L f) ∗ (∃ f, ⌜GB d L f⌝ ∗ xBPts d L f))

/-! ## The values the run names, written out -/

/-- The list-in-range fact as the run meets it: whatever the index buffer held before, once the tile's words are copied in, every word read back is below the table's row count. -/
abbrev ListOK (sc : Memref sig .scVector .vmem S512 .i32) (src : Memref sig .scVector .hbm S512 .i32) (g : Buf (Elt F) (src.view.loc (V d (cV L) (jV L)))) : Prop :=
  ∀ (f : Buf (Elt F) (sc.view.loc (V d (cV L) (jV L)))) x,
    (sc.view.read (Elt F) (View.write (Elt F) sc.view f (src.view.read (Elt F) g) Finset.univ) x).toNat < S100000x128.size gathers_S100000x128_S512x128.axis

/-- The rows the first gather lands: row `k` is the user table's row named by word `k` of the tile's user words. -/
def rawGU (fsu : Buf (Elt F) ((V d (cV L) (jV L)).loc cc0_scratch0)) (h : ListOK d L suV (uSl L) (m (uLoc d))) : S512x128.Idx → Elt F .f32 :=
  SparseCore.gatherPayload gathers_S100000x128_S512x128 ((tuAll).view.read (Elt F) (m (tuLoc d)))
    (SparseCore.rows ((suV).view.read (Elt F) (View.write (Elt F) (suV).view fsu (ReadAs.same.apply ((uSl L).view.read (Elt F) (m (uLoc d)))) Finset.univ)) rfl (h fsu))
/-- and the second: the item table's rows named by the tile's item words. -/
def rawGI (fsi : Buf (Elt F) ((V d (cV L) (jV L)).loc cc0_scratch1)) (h : ListOK d L siV (iSl L) (m (iLoc d))) : S512x128.Idx → Elt F .f32 :=
  SparseCore.gatherPayload gathers_S100000x128_S512x128 ((tiAll).view.read (Elt F) (m (tiLoc d)))
    (SparseCore.rows ((siV).view.read (Elt F) (View.write (Elt F) (siV).view fsi (ReadAs.same.apply ((iSl L).view.read (Elt F) (m (iLoc d)))) Finset.univ)) rfl (h fsi))
/-- What the first copy-out carries: the row buffer read back after the first gather. -/
def rawA (fsu : Buf (Elt F) ((V d (cV L) (jV L)).loc cc0_scratch0)) (fr : Buf (Elt F) ((V d (cV L) (jV L)).loc cc0_scratch2)) (h : ListOK d L suV (uSl L) (m (uLoc d))) : S512x128.Idx → Elt F .f32 :=
  ReadAs.same.apply ((rV).view.read (Elt F) ((rV).view.writes (Elt F) fr [⟨Rect.whole _, rawGU m d L fsu h⟩]))
/-- What the second carries: the row buffer read back after the second gather landed over the first. -/
def rawB (fsu : Buf (Elt F) ((V d (cV L) (jV L)).loc cc0_scratch0)) (fsi : Buf (Elt F) ((V d (cV L) (jV L)).loc cc0_scratch1)) (fr : Buf (Elt F) ((V d (cV L) (jV L)).loc cc0_scratch2)) (h : ListOK d L suV (uSl L) (m (uLoc d))) (h' : ListOK d L siV (iSl L) (m (iLoc d))) : S512x128.Idx → Elt F .f32 :=
  ReadAs.same.apply ((rV).view.read (Elt F) ((rV).view.writes (Elt F) fr [⟨Rect.whole _, rawGI m d L fsi h'⟩, ⟨Rect.whole _, rawGU m d L fsu h⟩]))

/-- Under the precondition the user list is in range: a whole write read back whole is the payload, the tile's words. -/
theorem listOK_u (hpre : PreOK m) : ListOK d L suV (uSl L) (m (uLoc d)) := by
  intro f x
  rw [View.write_whole_univ]
  simp only [Memref.view_whole, View.read_whole]
  rw [show ∀ j, (uSl L).view.read (Elt F) (m (uLoc d)) j = m (uLoc d) ((uSl L).view.emb j) from fun j => (View.read_apply _ _).trans (cast_eq _ _)]
  exact (hpre d).1 _
theorem listOK_i (hpre : PreOK m) : ListOK d L siV (iSl L) (m (iLoc d)) := by
  intro f x
  rw [View.write_whole_univ]
  simp only [Memref.view_whole, View.read_whole]
  rw [show ∀ j, (iSl L).view.read (Elt F) (m (iLoc d)) j = m (iLoc d) ((iSl L).view.emb j) from fun j => (View.read_apply _ _).trans (cast_eq _ _)]
  exact (hpre d).2 _

/-! ## The tile's own cells and buffers among its scoped storage -/

abbrev cell (s : DmaSems sig S_) : GSem nD τ sig := (V d (cV L) (jV L), .dma s.sem)

end Tile

section TileRun

variable [FloatOps F]
variable (d : Dev nD) (L : grid0.Coords)
variable (GA GB : (d : Dev nD) → grid0.Coords → Buf (Elt F) (xLoc d) → Prop)

omit [FloatOps F] in
theorem pts_u (f : Buf (Elt F) (uLoc d)) :
    ((uSl L).view.loc (V d (cV L) (jV L)) ↦[(uSl L).view.set]{fullShare} f : sProp 𝕄) = uLoc d ↦[(uSl L).view.set]{fullShare} f := rfl
omit [FloatOps F] in
theorem pts_i (f : Buf (Elt F) (iLoc d)) :
    ((iSl L).view.loc (V d (cV L) (jV L)) ↦[(iSl L).view.set]{fullShare} f : sProp 𝕄) = iLoc d ↦[(iSl L).view.set]{fullShare} f := rfl
omit [FloatOps F] in
theorem pts_tu (q : PosShare TreeShare) (f : Buf (Elt F) (tuLoc d)) :
    ((tuV).view.loc (V d (cV L) (jV L)) ↦{q} f : sProp 𝕄) = tuLoc d ↦{q} f := rfl
omit [FloatOps F] in
theorem pts_ti (q : PosShare TreeShare) (f : Buf (Elt F) (tiLoc d)) :
    ((tiV).view.loc (V d (cV L) (jV L)) ↦{q} f : sProp 𝕄) = tiLoc d ↦{q} f := rfl
omit [FloatOps F] in
theorem pts_xA (f : Buf (Elt F) (xLoc d)) :
    ((xSlA L).view.loc (V d (cV L) (jV L)) ↦[(xSlA L).view.set]{fullShare} f : sProp 𝕄) = xLoc d ↦[(xSlA L).view.set]{fullShare} f := rfl
omit [FloatOps F] in
theorem pts_xB (f : Buf (Elt F) (xLoc d)) :
    ((xSlB L).view.loc (V d (cV L) (jV L)) ↦[(xSlB L).view.set]{fullShare} f : sProp 𝕄) = xLoc d ↦[(xSlB L).view.set]{fullShare} f := rfl

omit [FloatOps F] in
theorem pts_su (f : Buf (Elt F) ((V d (cV L) (jV L)).loc cc0_scratch0)) :
    ((suV).view.loc (V d (cV L) (jV L)) ↦{fullShare} f : sProp 𝕄) = (V d (cV L) (jV L)).loc cc0_scratch0 ↦{fullShare} f := rfl
omit [FloatOps F] in
theorem pts_si (f : Buf (Elt F) ((V d (cV L) (jV L)).loc cc0_scratch1)) :
    ((siV).view.loc (V d (cV L) (jV L)) ↦{fullShare} f : sProp 𝕄) = (V d (cV L) (jV L)).loc cc0_scratch1 ↦{fullShare} f := rfl
omit [FloatOps F] in
theorem pts_r (f : Buf (Elt F) ((V d (cV L) (jV L)).loc cc0_scratch2)) :
    ((rV).view.loc (V d (cV L) (jV L)) ↦{fullShare} f : sProp 𝕄) = (V d (cV L) (jV L)).loc cc0_scratch2 ↦{fullShare} f := rfl

/-- The tile's five DMA cells at zero and the rest of its scoped cells. -/
theorem ownSems0_V :
    (ownSems0 (V d (cV L) (jV L)) : sProp 𝕄)
      = iprop(semVal (cell d L cc0_scratch3) 0 ∗ semVal (cell d L cc0_scoped0) 0 ∗ semVal (cell d L cc0_scoped1) 0 ∗ semVal (cell d L cc0_scoped2) 0 ∗ semVal (cell d L cc0_scoped3) 0
          ∗ bigSep ((((((ownCells (V d (cV L) (jV L))).erase (cell d L cc0_scratch3)).erase (cell d L cc0_scoped0)).erase (cell d L cc0_scoped1)).erase (cell d L cc0_scoped2)).erase (cell d L cc0_scoped3)) fun g => semVal g 0) := by
  unfold SparseCore.Cfg.ownSems0
  rw [SparseCore.bigSep_erase' ((mem_ownCells (g := cell d L cc0_scratch3)).mpr ⟨rfl, by
      show (SemLoc.dma cc0_scratch3.sem : SemLoc sig).isScoped .scVector = true; decide⟩),
    SparseCore.bigSep_erase' (Finset.mem_erase.mpr ⟨by simp [cell]; decide, (mem_ownCells (g := cell d L cc0_scoped0)).mpr ⟨rfl, by
      show (SemLoc.dma cc0_scoped0.sem : SemLoc sig).isScoped .scVector = true; decide⟩⟩),
    SparseCore.bigSep_erase' (Finset.mem_erase.mpr ⟨by simp [cell]; decide, Finset.mem_erase.mpr ⟨by simp [cell]; decide,
      (mem_ownCells (g := cell d L cc0_scoped1)).mpr ⟨rfl, by show (SemLoc.dma cc0_scoped1.sem : SemLoc sig).isScoped .scVector = true; decide⟩⟩⟩),
    SparseCore.bigSep_erase' (Finset.mem_erase.mpr ⟨by simp [cell]; decide, Finset.mem_erase.mpr ⟨by simp [cell]; decide, Finset.mem_erase.mpr ⟨by simp [cell]; decide,
      (mem_ownCells (g := cell d L cc0_scoped2)).mpr ⟨rfl, by show (SemLoc.dma cc0_scoped2.sem : SemLoc sig).isScoped .scVector = true; decide⟩⟩⟩⟩),
    SparseCore.bigSep_erase' (Finset.mem_erase.mpr ⟨by simp [cell]; decide, Finset.mem_erase.mpr ⟨by simp [cell]; decide, Finset.mem_erase.mpr ⟨by simp [cell]; decide, Finset.mem_erase.mpr ⟨by simp [cell]; decide,
      (mem_ownCells (g := cell d L cc0_scoped3)).mpr ⟨rfl, by show (SemLoc.dma cc0_scoped3.sem : SemLoc sig).isScoped .scVector = true; decide⟩⟩⟩⟩⟩)]

omit [FloatOps F] in
/-- The three scratch buffers are among the tile's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

set_option maxHeartbeats 4000000 in
/-- The task on tile `(L 0, L 1)`: two index fetches, two gathers, two copy-outs, each waited for in turn. -/
theorem tile_body (hF : (K (F := F)).Facts) (hpre : PreOK m) (O : CellTallies nD τ sig (HIx 1)) (W : Waits sig (HIx 1)) (hO : ∀ g, O g none = 0)
    (hGA : ∀ fsu fr h, GA d L ((xSlA L).view.writes (Elt F) (m (xLoc d)) [⟨Rect.whole S512x128, rawA m d L fsu fr h⟩]))
    (hGB : ∀ fsu fsi fr h h', GB d L ((xSlB L).view.writes (Elt F) (m (xLoc d)) [⟨Rect.whole S512x128, rawB m d L fsu fsi fr h h'⟩])) :
    iprop(levAts (K (F := F)).L (K (F := F)).lev ∗ emp ∗ goRes m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L tuV (Memref.isWhole_whole _) tiV (Memref.isWhole_whole _) uV (Memref.isWhole_whole _) iV (Memref.isWhole_whole _) xV (Memref.isWhole_whole _)
            suV (Memref.isWhole_whole _) siV (Memref.isWhole_whole _) rV (Memref.isWhole_whole _) cc0_scratch3 cc0_scoped0 cc0_scoped1 cc0_scoped2 cc0_scoped3)
          fun _ => iprop(tdRes m d L GA GB
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__gather_body_eq_skeleton]; unfold cc0__gather_body_skel
  rw [(K (F := F)).scopedBufs_V hF d (cV L) (jV L), SparseCore.Cfg.scopedSems0_V (Val := Elt F) d (cV L) (jV L), ownSems0_V, ownBufs_V]
  unfold goRes tdRes
  iintro ⟨#Hlv, -, ⟨Hu, Hi, Htu, Hti, HxA, HxB⟩, ⟨⟨%fsu, Hsu⟩, ⟨%fsi, Hsi⟩, ⟨%fr, Hr⟩, Hbufs⟩, ⟨Hs3, Hc0, Hc1, Hc2, Hc3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hu' := (Entails.of_eq (pts_u (F := F) d L _).symm) $$ Hu
  ihave Hi' := (Entails.of_eq (pts_i (F := F) d L _).symm) $$ Hi
  ihave Htu' := (Entails.of_eq (pts_tu (F := F) d L _ _).symm) $$ Htu
  ihave Hti' := (Entails.of_eq (pts_ti (F := F) d L _ _).symm) $$ Hti
  ihave HxA' := (Entails.of_eq (pts_xA (F := F) d L _).symm) $$ HxA
  ihave HxB' := (Entails.of_eq (pts_xB (F := F) d L _).symm) $$ HxB
  ihave Hsu' := (Entails.of_eq (pts_su (F := F) d L _).symm) $$ Hsu
  ihave Hsi' := (Entails.of_eq (pts_si (F := F) d L _).symm) $$ Hsi
  ihave Hr' := (Entails.of_eq (pts_r (F := F) d L _).symm) $$ Hr
  have hinU : ∀ (f : Buf (Elt F) ((V d (cV L) (jV L)).loc cc0_scratch0)) x, ((suV).view.read (Elt F) (View.write (Elt F) (suV).view f ((uSl L).view.read (Elt F) (m (uLoc d))) Finset.univ) x).toNat < S100000x128.size gathers_S100000x128_S512x128.axis := listOK_u m d L hpre
  have hinI : ∀ (f : Buf (Elt F) ((V d (cV L) (jV L)).loc cc0_scratch1)) x, ((siV).view.read (Elt F) (View.write (Elt F) (siV).view f ((iSl L).view.read (Elt F) (m (iLoc d))) Finset.univ) x).toNat < S100000x128.size gathers_S100000x128_S512x128.axis := listOK_i m d L hpre
  sl_exec
  sl_step
  isplitl [Hu' Hi' Htu' Hti' HxA' HxB']
  · isplitl [Hu']; · iexact Hu'
    isplitl [Hi']; · iexact Hi'
    isplitl [Htu']; · iexact Htu'
    isplitl [Hti']; · iexact Hti'
    isplitl [HxA']
    · iexists _; isplitr
      · ipureintro; exact hGA fsu fr hinU
      · iexact HxA'
    · iexists _; isplitr
      · ipureintro; exact hGB fsu fsi fr hinU hinI
      · iexact HxB'
  isplitl [Hsu' Hsi' Hr' Hbufs]
  · isplitl [Hsu']; · iexists _; iexact Hsu'
    isplitl [Hsi']; · iexists _; iexact Hsi'
    isplitl [Hr']; · iexists _; iexact Hr'
    iexact Hbufs
  isplitl [Hs3 Hc0 Hc1 Hc2 Hc3 Hsems]
  · isplitl [Hs3]; · iexact Hs3
    isplitl [Hc0]; · iexact Hc0
    isplitl [Hc1]; · iexact Hc1
    isplitl [Hc2]; · iexact Hc2
    isplitl [Hc3]; · iexact Hc3
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end TileRun

end Cert.KernelIdeal.Sc

end
-- ==== Proof.ScTiles.lean ====
/-
  The SparseCore call as a whole, and @main around it.

  The call's operands are dealt tile by tile: SparseCore `c` is handed, for each of its sixteen tiles `s`, the tile's 512
  words of each id array (words `512 * (2 s + c)` onwards), a thirty-second share of each table, and the tile's two
  512 × 128 pieces of the gathered array; what a SparseCore is handed is exactly what its tiles are handed, so the split
  among the tiles is the identity. The sixty-four pieces of the gathered array are pairwise disjoint and cover it, as the
  thirty-two word ranges cover each id array: whole arrays go in, whole arrays come out, the gathered one at contents
  that satisfy `GA` and `GB` piece by piece.
-/
import proofs.«201248_g17051020165207_cont_7to1_1438_30_alg».proof.Proof.ScBody

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)
variable (GA GB : (d : Dev nD) → grid0.Coords → Buf (Elt F) (xLoc d) → Prop)

local notation "uV" => (Memref.whole Cert.KernelIdeal.main_arg0_scv : Memref Cert.KernelIdeal.sig Kind.scVector Space.hbm Cert.KernelIdeal.S16384 EltTy.i32)
local notation "iV" => (Memref.whole Cert.KernelIdeal.main_arg1_scv : Memref Cert.KernelIdeal.sig Kind.scVector Space.hbm Cert.KernelIdeal.S16384 EltTy.i32)
local notation "tuV" => (Memref.whole Cert.KernelIdeal.main_arg2_scv : Memref Cert.KernelIdeal.sig Kind.scVector Space.hbm Cert.KernelIdeal.S100000x128 EltTy.f32)
local notation "tiV" => (Memref.whole Cert.KernelIdeal.main_arg3_scv : Memref Cert.KernelIdeal.sig Kind.scVector Space.hbm Cert.KernelIdeal.S100000x128 EltTy.f32)
local notation "xV" => (Memref.whole Cert.KernelIdeal.main_v0_scv : Memref Cert.KernelIdeal.sig Kind.scVector Space.hbm Cert.KernelIdeal.S16384x256 EltTy.f32)
local notation "suV" => (Memref.whole Cert.KernelIdeal.cc0_scratch0 : Memref Cert.KernelIdeal.sig Kind.scVector Space.vmem Cert.KernelIdeal.S512 EltTy.i32)
local notation "siV" => (Memref.whole Cert.KernelIdeal.cc0_scratch1 : Memref Cert.KernelIdeal.sig Kind.scVector Space.vmem Cert.KernelIdeal.S512 EltTy.i32)
local notation "rV" => (Memref.whole Cert.KernelIdeal.cc0_scratch2 : Memref Cert.KernelIdeal.sig Kind.scVector Space.vmem Cert.KernelIdeal.S512x128 EltTy.f32)

/-! ## Tiles by their coordinates -/

/-- The grid point of SparseCore `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

/-- The grid point of tile `i` of SparseCore `c` of the call's grid. -/
abbrev Lt (c : Fin ((K (F := F)).nCore 0)) (i : Fin ((K (F := F)).nSub 0)) : grid0.Coords := coordsV ⟨c.val, c.isLt⟩ ⟨i.val, i.isLt⟩

/-! ## What the handshakes carry -/

/-- A SparseCore is handed its sixteen tiles' operands and hands back their results; a tile its own. -/
def P : (K (F := F)).Pay (nD := nD) (Val := Elt F) (Name := ℕ) (U := UU) where
  st := fun q d c => match q with | 0 => bigSep Finset.univ fun i : Fin ((K (F := F)).nSub 0) => goRes m d (Lt c i)
  dn := fun q d c => match q with | 0 => bigSep Finset.univ fun i : Fin ((K (F := F)).nSub 0) => tdRes m d (Lt c i) GA GB
  go := fun q d c i => match q with | 0 => goRes m d (Lt c i)
  td := fun q d c i => match q with | 0 => tdRes m d (Lt c i) GA GB
  x := fun _ _ => iprop(emp)

instance goRes_storable (d : Dev nD) (L : grid0.Coords) : BI.Storable (upEmb : UEmb _ 𝕄) (goRes (F := F) m d L) := by
  unfold goRes; infer_instance
instance tdRes_storable (d : Dev nD) (L : grid0.Coords) : BI.Storable (upEmb : UEmb _ 𝕄) (tdRes (F := F) m d L GA GB) := by
  unfold tdRes; infer_instance

instance P_storable : (P (F := F) m GA GB).IsStorable where
  st q d c := match q with
    | 0 => (inferInstance : BI.Storable (upEmb : UEmb _ 𝕄) (bigSep Finset.univ fun i : Fin ((K (F := F)).nSub 0) => goRes m d (Lt c i)))
  dn q d c := match q with
    | 0 => (inferInstance : BI.Storable (upEmb : UEmb _ 𝕄) (bigSep Finset.univ fun i : Fin ((K (F := F)).nSub 0) => tdRes m d (Lt c i) GA GB))
  go q d c i := match q with
    | 0 => (inferInstance : BI.Storable (upEmb : UEmb _ 𝕄) (goRes m d (Lt c i)))
  td q d c i := match q with
    | 0 => (inferInstance : BI.Storable (upEmb : UEmb _ 𝕄) (tdRes m d (Lt c i) GA GB))

/-! ## The obligation -/

theorem defs₀_vector (c : Fin τ.nSC) (s : Fin τ.nSub) :
    defs₀ (F := F) (.scVector c s) 0 ()
      = SparseCore.onTile hcore0 hsub0 (fun c s => cc0__gather_body (coordsV c s)
          tuV (Memref.isWhole_whole _) tiV (Memref.isWhole_whole _) uV (Memref.isWhole_whole _) iV (Memref.isWhole_whole _) xV (Memref.isWhole_whole _)
          suV (Memref.isWhole_whole _) siV (Memref.isWhole_whole _) rV (Memref.isWhole_whole _) cc0_scratch3 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What each tile's two pieces must be shown to satisfy, from the values its run names. -/
def Leaves : Prop :=
  ∀ (d : Dev nD) (L : grid0.Coords),
    (∀ fsu fr h, GA d L ((xSlA L).view.writes (Elt F) (m (xLoc d)) [⟨Rect.whole S512x128, rawA m d L fsu fr h⟩]))
    ∧ (∀ fsu fsi fr h h', GB d L ((xSlB L).view.writes (Elt F) (m (xLoc d)) [⟨Rect.whole S512x128, rawB m d L fsu fsi fr h h'⟩]))

set_option maxRecDepth 16384 in
theorem tileObl (hF : (K (F := F)).Facts) (hpre : PreOK m) (hG : Leaves m GA GB) : (K (F := F)).TileObl (D (F := F)) 𝒱 (P m GA GB) v₀ 0 := by
  intro d c i O W hO _ _
  simp only [show (P m GA GB).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) GA GB hF hpre O W hO (hG d _).1 (hG d _).2).trans (wp_mono frame _ _ fun _ => obl_post)

/-! ## A SparseCore's operands are its tiles' -/

theorem vecSplit : (K (F := F)).VecSplit' (P m GA GB) 0 := by
  intro d c
  show (bigSep Finset.univ fun i : Fin ((K (F := F)).nSub 0) => goRes m d (Lt c i)) ⊢ |={Set.univ}=> iprop(
      (bigSep Finset.univ fun i : Fin ((K (F := F)).nSub 0) => goRes m d (Lt c i))
      ∗ ((bigSep Finset.univ fun i : Fin ((K (F := F)).nSub 0) => tdRes m d (Lt c i) GA GB)
          -∗ bigSep Finset.univ fun i : Fin ((K (F := F)).nSub 0) => tdRes m d (Lt c i) GA GB))
  iintro H; imodintro
  isplitl [H]; · iexact H
  iintro H; iexact H

/-! ## The pieces cover their arrays

Word `j` of an id array lies in tile `(c, s)`'s range exactly when `512 * (2 s + c) ≤ j < 512 * (2 s + c) + 512`; entry
`(r, l)` of the gathered array lies in the tile's first piece when `r` is in that range and `l < 128`, in its second when
`128 ≤ l`. Distinct tiles have distinct `2 s + c`, so the ranges are pairwise disjoint, and every `j < 16384` lies in the
range of `s = j / 1024`, `c = j / 512 mod 2`. -/

section Pieces

omit [FloatOps F]

theorem mem_uSl (L : grid0.Coords) (j : S16384.Idx) :
    j ∈ (uSl L).view.set ↔ 1024 * (L 1).val + 512 * (L 0).val ≤ (j 0).val ∧ (j 0).val < 1024 * (L 1).val + 512 * (L 0).val + 512 := by
  show j ∈ ((View.whole main_arg0_scv).slice (Rect.unit (s := S16384) (k0_off1 L) S512.size (k0_off1_inb L))).set ↔ _
  rw [View.set_slice_whole, Rect.mem_set_unit]
  simp only [k0_off1_eq]
  constructor
  · intro h; exact h 0
  · intro h a; match a with | ⟨0, _⟩ => exact h
theorem mem_iSl (L : grid0.Coords) (j : S16384.Idx) :
    j ∈ (iSl L).view.set ↔ 1024 * (L 1).val + 512 * (L 0).val ≤ (j 0).val ∧ (j 0).val < 1024 * (L 1).val + 512 * (L 0).val + 512 := by
  show j ∈ ((View.whole main_arg1_scv).slice (Rect.unit (s := S16384) (k0_off1 L) S512.size (k0_off1_inb L))).set ↔ _
  rw [View.set_slice_whole, Rect.mem_set_unit]
  simp only [k0_off1_eq]
  constructor
  · intro h; exact h 0
  · intro h a; match a with | ⟨0, _⟩ => exact h
theorem mem_xSlA (L : grid0.Coords) (j : S16384x256.Idx) :
    j ∈ (xSlA L).view.set ↔ (1024 * (L 1).val + 512 * (L 0).val ≤ (j 0).val ∧ (j 0).val < 1024 * (L 1).val + 512 * (L 0).val + 512) ∧ (j 1).val < 128 := by
  show j ∈ ((View.whole main_v0_scv).slice (Rect.unit (s := S16384x256) (k0_off2 L) S512x128.size (k0_off2_inb L))).set ↔ _
  rw [View.set_slice_whole, Rect.mem_set_unit]
  simp only [k0_off2_eq]
  constructor
  · intro h; exact ⟨h 0, by have := (h 1).2; simpa using this⟩
  · intro h a; match a with
    | ⟨0, _⟩ => exact h.1
    | ⟨1, _⟩ => exact ⟨Nat.zero_le _, by have := h.2; simpa using this⟩
theorem mem_xSlB (L : grid0.Coords) (j : S16384x256.Idx) :
    j ∈ (xSlB L).view.set ↔ (1024 * (L 1).val + 512 * (L 0).val ≤ (j 0).val ∧ (j 0).val < 1024 * (L 1).val + 512 * (L 0).val + 512) ∧ 128 ≤ (j 1).val := by
  show j ∈ ((View.whole main_v0_scv).slice (Rect.unit (s := S16384x256) (k0_off3 L) S512x128.size (k0_off3_inb L))).set ↔ _
  rw [View.set_slice_whole, Rect.mem_set_unit]
  simp only [k0_off3_eq]
  constructor
  · intro h; exact ⟨h 0, (h 1).1⟩
  · intro h a; match a with
    | ⟨0, _⟩ => exact h.1
    | ⟨1, _⟩ => exact ⟨h.2, by have := (j 1).isLt; show (j 1).val < 128 + 128; exact this⟩

/-- The tiles, as pairs. -/
abbrev Tile : Type := Fin (grid0.bound 0) × Fin (grid0.bound 1)
abbrev Lp (t : Tile) : grid0.Coords := coordsV t.1 t.2

theorem Lp0 (t : Tile) : (Lp t 0).val = t.1.val := rfl
theorem Lp1 (t : Tile) : (Lp t 1).val = t.2.val := rfl
theorem b0 : grid0.bound 0 = 2 := rfl
theorem b1 : grid0.bound 1 = 16 := rfl

theorem tile_eq_of {t t' : Tile} (h : 1024 * t.2.val + 512 * t.1.val = 1024 * t'.2.val + 512 * t'.1.val) : t = t' := by
  have h1 : t.1.val < 2 := t.1.isLt; have h2 : t'.1.val < 2 := t'.1.isLt
  exact Prod.ext (Fin.ext (by omega)) (Fin.ext (by omega))

/-- Tile `t`'s user words and item words, as sets of indices of the id arrays. -/
def uSet (t : Tile) : Finset S16384.Idx := by exact (uSl (Lp t)).view.set
def iSet (t : Tile) : Finset S16384.Idx := by exact (iSl (Lp t)).view.set

theorem uSl_disjoint : ∀ t ∈ (Finset.univ : Finset Tile), ∀ t' ∈ (Finset.univ : Finset Tile), t ≠ t' → Disjoint (uSet t) (uSet t') := by
  intro t _ t' _ hne
  refine Finset.disjoint_left.mpr fun j h h' => hne (tile_eq_of ?_)
  change j ∈ (uSl (Lp t)).view.set at h; change j ∈ (uSl (Lp t')).view.set at h'
  rw [mem_uSl, Lp0, Lp1] at h h'
  have h1 : t.1.val < 2 := t.1.isLt; have h2 : t'.1.val < 2 := t'.1.isLt
  omega
theorem iSl_disjoint : ∀ t ∈ (Finset.univ : Finset Tile), ∀ t' ∈ (Finset.univ : Finset Tile), t ≠ t' → Disjoint (iSet t) (iSet t') := by
  intro t _ t' _ hne
  refine Finset.disjoint_left.mpr fun j h h' => hne (tile_eq_of ?_)
  change j ∈ (iSl (Lp t)).view.set at h; change j ∈ (iSl (Lp t')).view.set at h'
  rw [mem_iSl, Lp0, Lp1] at h h'
  have h1 : t.1.val < 2 := t.1.isLt; have h2 : t'.1.val < 2 := t'.1.isLt
  omega

/-- The tile whose range holds row `r`. -/
def tileOf (r : ℕ) (hr : r < 16384) : Tile := (⟨r / 512 % 2, show r / 512 % 2 < 2 by omega⟩, ⟨r / 1024, show r / 1024 < 16 by omega⟩)
theorem tileOf_range (r : ℕ) (hr : r < 16384) :
    1024 * (tileOf r hr).2.val + 512 * (tileOf r hr).1.val ≤ r ∧ r < 1024 * (tileOf r hr).2.val + 512 * (tileOf r hr).1.val + 512 := by
  show 1024 * (r / 1024) + 512 * (r / 512 % 2) ≤ r ∧ r < 1024 * (r / 1024) + 512 * (r / 512 % 2) + 512
  omega

theorem uSl_cover : (Finset.univ : Finset Tile).biUnion uSet = Finset.univ := by
  refine Finset.eq_univ_iff_forall.mpr fun j => Finset.mem_biUnion.mpr ⟨tileOf (j 0).val (j 0).isLt, Finset.mem_univ _, ?_⟩
  exact (mem_uSl (Lp (tileOf (j 0).val (j 0).isLt)) j).mpr (by rw [Lp0, Lp1]; exact tileOf_range _ _)
theorem iSl_cover : (Finset.univ : Finset Tile).biUnion iSet = Finset.univ := by
  refine Finset.eq_univ_iff_forall.mpr fun j => Finset.mem_biUnion.mpr ⟨tileOf (j 0).val (j 0).isLt, Finset.mem_univ _, ?_⟩
  exact (mem_iSl (Lp (tileOf (j 0).val (j 0).isLt)) j).mpr (by rw [Lp0, Lp1]; exact tileOf_range _ _)

/-- A tile's two pieces of the gathered array, as one family over `Tile × Bool`. -/
def xPiece (p : Tile × Bool) : Finset S16384x256.Idx := if p.2 then (xSlB (Lp p.1)).view.set else (xSlA (Lp p.1)).view.set

theorem mem_xPiece (t : Tile) (b : Bool) (j : S16384x256.Idx) :
    j ∈ xPiece (t, b) ↔ (1024 * t.2.val + 512 * t.1.val ≤ (j 0).val ∧ (j 0).val < 1024 * t.2.val + 512 * t.1.val + 512) ∧ (if b then 128 ≤ (j 1).val else (j 1).val < 128) := by
  cases b
  · exact mem_xSlA (Lp t) j
  · exact mem_xSlB (Lp t) j

theorem xPiece_disjoint : ∀ p ∈ (Finset.univ : Finset (Tile × Bool)), ∀ p' ∈ (Finset.univ : Finset (Tile × Bool)), p ≠ p' → Disjoint (xPiece p) (xPiece p') := by
  rintro ⟨t, b⟩ _ ⟨t', b'⟩ _ hne
  refine Finset.disjoint_left.mpr fun j h h' => ?_
  rw [mem_xPiece] at h h'
  have key : 1024 * t.2.val + 512 * t.1.val = 1024 * t'.2.val + 512 * t'.1.val → b = b' → False := fun e e' => hne (by rw [tile_eq_of e, e'])
  have h1 : t.1.val < 2 := t.1.isLt; have h2 : t'.1.val < 2 := t'.1.isLt
  cases b <;> cases b' <;> simp only [Bool.false_eq_true, if_false, if_true] at h h'
  · exact key (by omega) rfl
  · omega
  · omega
  · exact key (by omega) rfl

theorem xPiece_cover : (Finset.univ : Finset (Tile × Bool)).biUnion xPiece = Finset.univ := by
  refine Finset.eq_univ_iff_forall.mpr fun j => ?_
  by_cases hl : (j 1).val < 128
  · refine Finset.mem_biUnion.mpr ⟨(tileOf (j 0).val (j 0).isLt, false), Finset.mem_univ _, ?_⟩
    rw [mem_xPiece]; exact ⟨tileOf_range _ _, by simpa using hl⟩
  · refine Finset.mem_biUnion.mpr ⟨(tileOf (j 0).val (j 0).isLt, true), Finset.mem_univ _, ?_⟩
    rw [mem_xPiece]; exact ⟨tileOf_range _ _, by simp only [if_true]; omega⟩

end Pieces

end Cert.KernelIdeal.Sc

end
-- ==== Proof.TcBody.lean ====
/-
  The dense layers' body on the TensorCore, run once on whole staging buffers.

  The body reads its seven operand blocks whole (a block of gathered rows, three weight matrices and three bias
  vectors), reads the result block (a value it does not use), and writes the result block whole with one store.
  What it leaves in the result buffer is therefore one function of the seven blocks it read: the store's value,
  laid over the whole buffer. The operand buffers are left as found.
-/
import proofs.«201248_g17051020165207_cont_7to1_1438_30_alg».proof.Proof.Gen.KernelIdeal.Launch
import proofs.«201248_g17051020165207_cont_7to1_1438_30_alg».proof.Proof.Gen.KernelIdeal.Skeleton
import proofs.«201248_g17051020165207_cont_7to1_1438_30_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.TcRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The whole-block rectangles the body reads and writes through -/

abbrev rX : Rect S4096x256 := Rect.unit (s := S4096x256) ![0, 0] S4096x256.size inb_S4096x256_S4096x256_0_0
abbrev rW1 : Rect S256x128 := Rect.unit (s := S256x128) ![0, 0] S256x128.size inb_S256x128_S256x128_0_0
abbrev rB1 : Rect S128 := Rect.unit (s := S128) ![0] S128.size inb_S128_S128_0
abbrev rW2 : Rect S128x64 := Rect.unit (s := S128x64) ![0, 0] S128x64.size inb_S128x64_S128x64_0_0
abbrev rB2 : Rect S64 := Rect.unit (s := S64) ![0] S64.size inb_S64_S64_0
abbrev rW3 : Rect S64x1 := Rect.unit (s := S64x1) ![0, 0] S64x1.size inb_S64x1_S64x1_0_0
abbrev rB3 : Rect S1 := Rect.unit (s := S1) ![0] S1.size inb_S1_S1_0
abbrev rOut : Rect S1x1x4096 := Rect.unit (s := S1x1x4096) ![0, 0, 0] S1x1x4096.size inb_S1x1x4096_S1x1x4096_0_0_0

/-- The result buffer after the body, from the seven operand blocks: the one store's value laid over the buffer. -/
def outBlk (x0 : Vec F S4096x256 .f32) (x1 : Vec F S256x128 .f32) (x2 : Vec F S128 .f32) (x3 : Vec F S128x64 .f32)
    (x4 : Vec F S64 .f32) (x5 : Vec F S64x1 .f32) (x6 : Vec F S1 .f32) : Vec F S1x1x4096 .f32 :=
  View.canon [⟨rOut, k1_pay1 (View.ld x0 rX) (View.ld x1 rW1) (View.ld x2 rB1) (View.ld x3 rW2) (View.ld x4 rB2) (View.ld x5 rW3) (View.ld x6 rB3)⟩]

/-- The one store covers the result buffer. -/
theorem cover_out (p0 : Vec F S1x1x4096 .f32) (y : S1x1x4096.Idx) :
    ∃ pc ∈ ([⟨rOut, p0⟩] : List (View.Piece (Elt F) S1x1x4096 .f32)), y ∈ pc.1.set :=
  View.cover_of_tiled [⟨rOut, p0⟩] S1x1x4096.size (by rfl) y

variable (𝒱₀ : Variants)

set_option maxHeartbeats 1000000 in
/-- The body on whole staging buffers, the operands' at contents `x0 … x6` and the result's at anything, runs to the
    continuation holding the operands' as they were and the result's at `outBlk` of them. -/
theorem sound_kernel (c : Dev nD) (E : Set Name) (i : grid1.Coords)
    (arg1 : Memref sig .tc .vmem S4096x256 .f32) (harg1 : arg1.IsWhole) (arg2 : Memref sig .tc .vmem S256x128 .f32) (harg2 : arg2.IsWhole)
    (arg3 : Memref sig .tc .vmem S128 .f32) (harg3 : arg3.IsWhole) (arg4 : Memref sig .tc .vmem S128x64 .f32) (harg4 : arg4.IsWhole)
    (arg5 : Memref sig .tc .vmem S64 .f32) (harg5 : arg5.IsWhole) (arg6 : Memref sig .tc .vmem S64x1 .f32) (harg6 : arg6.IsWhole)
    (arg7 : Memref sig .tc .vmem S1 .f32) (harg7 : arg7.IsWhole) (arg8 : Memref sig .tc .vmem S1x1x4096 .f32) (harg8 : arg8.IsWhole)
    (x0 : Vec F S4096x256 .f32) (x1 : Vec F S256x128 .f32) (x2 : Vec F S128 .f32) (x3 : Vec F S128x64 .f32)
    (x4 : Vec F S64 .f32) (x5 : Vec F S64x1 .f32) (x6 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outBlk x0 x1 x2 x3 x4 x5 x6)) -∗ K ⟨⟩))
      ⊢ wp frame (wpE (defs₀ (F := F)) 𝒱₀ c none) E (cc1__mlp_body i arg1 harg1 arg2 harg2 arg3 harg3 arg4 harg4 arg5 harg5 arg6 harg6 arg7 harg7 arg8 harg8) K := by
  simp only [cc1__mlp_body_eq_skeleton]; unfold cc1__mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

end Cert.KernelIdeal.TcRegion

end
-- ==== Proof.TcDat.lean ====
/-
  The proof data of the dense layers' region, at the contents `V` the region finds in the TensorCore's buffers.

  At grid point `t` the body finds, in the staging buffer of each of its seven operands, that operand's block at
  `t` — rows `4096 t … 4096 t + 4095` of the gathered array, and each weight or bias array whole — whether or not the
  block was fetched at that very point (a block that is not refetched has not moved). It leaves those as found and
  the result's staging buffer at the store's value. Nothing is owed at any point, and the body touches neither
  semaphores nor the buffers no window stages.
-/
import proofs.«201248_g17051020165207_cont_7to1_1438_30_alg».proof.Proof.TcBody

set_option maxRecDepth 16384

noncomputable section

namespace Cert.KernelIdeal.TcRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An operand's staging buffer holds its block at every point, fetched there or not -/

theorem before_in0_of {c : Dev nD} (dat : Dat τ (Elt F) Ix Name U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1_of {c : Dev nD} (dat : Dat τ (Elt F) Ix Name U Lvl cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2_of {c : Dev nD} (dat : Dat τ (Elt F) Ix Name U Lvl cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3_of {c : Dev nD} (dat : Dat τ (Elt F) Ix Name U Lvl cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4_of {c : Dev nD} (dat : Dat τ (Elt F) Ix Name U Lvl cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in5_of {c : Dev nD} (dat : Dat τ (Elt F) Ix Name U Lvl cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_in6_of {c : Dev nD} (dat : Dat τ (Elt F) Ix Name U Lvl cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

variable (B : Dev nD → Set (SemLoc sig × Ix))

variable (Name U Lvl) in
/-- The arrays as the region finds them; after the body at point `t` each operand's buffer at its block and the
    result's at the store's value; the invariant is the scoped buffers no window stages, untouched; full shares;
    nothing owed; the recorded waits within `B c`. -/
def dat (c : Dev nD) : Dat τ (Elt F) Ix Name U Lvl cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outBlk (iblk V c 0 t) (iblk V c 1 t) (iblk V c 2 t) (iblk V c 3 t) (iblk V c 4 t) (iblk V c 5 t) (iblk V c 6 t)
  Φ _ := Pipeline.scopedRest spec1 c
  q _ := fullShare
  owed _ := 0
  recorded _ := B c

theorem A_eq (c : Dev nD) (w : Fin cfg1.W) : (dat Name U Lvl V B c).A w = V c (Pipeline.arrRef spec1 w) := by
  dsimp only [dat]
theorem after_0 (c : Dev nD) (t : Fin cfg1.N) : (dat Name U Lvl V B c).after 0 t = iblk V c 0 t := by dsimp only [dat]
theorem after_1 (c : Dev nD) (t : Fin cfg1.N) : (dat Name U Lvl V B c).after 1 t = iblk V c 1 t := by dsimp only [dat]
theorem after_2 (c : Dev nD) (t : Fin cfg1.N) : (dat Name U Lvl V B c).after 2 t = iblk V c 2 t := by dsimp only [dat]
theorem after_3 (c : Dev nD) (t : Fin cfg1.N) : (dat Name U Lvl V B c).after 3 t = iblk V c 3 t := by dsimp only [dat]
theorem after_4 (c : Dev nD) (t : Fin cfg1.N) : (dat Name U Lvl V B c).after 4 t = iblk V c 4 t := by dsimp only [dat]
theorem after_5 (c : Dev nD) (t : Fin cfg1.N) : (dat Name U Lvl V B c).after 5 t = iblk V c 5 t := by dsimp only [dat]
theorem after_6 (c : Dev nD) (t : Fin cfg1.N) : (dat Name U Lvl V B c).after 6 t = iblk V c 6 t := by dsimp only [dat]
theorem after_7 (c : Dev nD) (t : Fin cfg1.N) : (dat Name U Lvl V B c).after 7 t
    = outBlk (iblk V c 0 t) (iblk V c 1 t) (iblk V c 2 t) (iblk V c 3 t) (iblk V c 4 t) (iblk V c 5 t) (iblk V c 6 t) := by dsimp only [dat]
theorem owed_eq (c : Dev nD) (t : Fin (cfg1.N + 1)) : (dat Name U Lvl V B c).owed t = 0 := rfl
theorem share_eq (c : Dev nD) (w : Fin cfg1.W) : (dat Name U Lvl V B c).share w = fullShare := (dat Name U Lvl V B c).share_full (fun _ => rfl) w

theorem before_0 (c : Dev nD) (t : Fin cfg1.N) (d) : (dat Name U Lvl V B c).before 0 t d = iblk V c 0 t :=
  before_in0_of V (dat Name U Lvl V B c) (A_eq V B c 0) (after_0 V B c) t d
theorem before_1 (c : Dev nD) (t : Fin cfg1.N) (d) : (dat Name U Lvl V B c).before 1 t d = iblk V c 1 t :=
  before_in1_of V (dat Name U Lvl V B c) (A_eq V B c 1) (after_1 V B c) t d
theorem before_2 (c : Dev nD) (t : Fin cfg1.N) (d) : (dat Name U Lvl V B c).before 2 t d = iblk V c 2 t :=
  before_in2_of V (dat Name U Lvl V B c) (A_eq V B c 2) (after_2 V B c) t d
theorem before_3 (c : Dev nD) (t : Fin cfg1.N) (d) : (dat Name U Lvl V B c).before 3 t d = iblk V c 3 t :=
  before_in3_of V (dat Name U Lvl V B c) (A_eq V B c 3) (after_3 V B c) t d
theorem before_4 (c : Dev nD) (t : Fin cfg1.N) (d) : (dat Name U Lvl V B c).before 4 t d = iblk V c 4 t :=
  before_in4_of V (dat Name U Lvl V B c) (A_eq V B c 4) (after_4 V B c) t d
theorem before_5 (c : Dev nD) (t : Fin cfg1.N) (d) : (dat Name U Lvl V B c).before 5 t d = iblk V c 5 t :=
  before_in5_of V (dat Name U Lvl V B c) (A_eq V B c 5) (after_5 V B c) t d
theorem before_6 (c : Dev nD) (t : Fin cfg1.N) (d) : (dat Name U Lvl V B c).before 6 t d = iblk V c 6 t :=
  before_in6_of V (dat Name U Lvl V B c) (A_eq V B c 6) (after_6 V B c) t d

/-! ## The body obligation -/

variable (𝒱₀ : Variants) (ι : Ix)

/-- What the body is called with at point `t`, the windows one by one, -/
def bodyPre (c : Dev nD) (t : Fin cfg1.N) : sProp 𝕄 :=
  iprop((dat Name U Lvl V B c).Φ t.castSucc ∗ (dat Name U Lvl V B c).owesAt ι t.castSucc
    ∗ (∃ d, owns (c : Thread nD τ) (st1_0 t) fullShare ((dat Name U Lvl V B c).before 0 t d))
    ∗ (∃ d, owns (c : Thread nD τ) (st1_1 t) fullShare ((dat Name U Lvl V B c).before 1 t d))
    ∗ (∃ d, owns (c : Thread nD τ) (st1_2 t) fullShare ((dat Name U Lvl V B c).before 2 t d))
    ∗ (∃ d, owns (c : Thread nD τ) (st1_3 t) fullShare ((dat Name U Lvl V B c).before 3 t d))
    ∗ (∃ d, owns (c : Thread nD τ) (st1_4 t) fullShare ((dat Name U Lvl V B c).before 4 t d))
    ∗ (∃ d, owns (c : Thread nD τ) (st1_5 t) fullShare ((dat Name U Lvl V B c).before 5 t d))
    ∗ (∃ d, owns (c : Thread nD τ) (st1_6 t) fullShare ((dat Name U Lvl V B c).before 6 t d))
    ∗ (∃ d, owns (c : Thread nD τ) (st1_7 t) fullShare ((dat Name U Lvl V B c).before 7 t d)))

/-- and what it returns. -/
def bodyPost (c : Dev nD) (t : Fin cfg1.N) : sProp 𝕄 :=
  iprop((dat Name U Lvl V B c).Φ t.succ ∗ (dat Name U Lvl V B c).owesAt ι t.succ
    ∗ owns (c : Thread nD τ) (st1_0 t) fullShare ((dat Name U Lvl V B c).after 0 t)
    ∗ owns (c : Thread nD τ) (st1_1 t) fullShare ((dat Name U Lvl V B c).after 1 t)
    ∗ owns (c : Thread nD τ) (st1_2 t) fullShare ((dat Name U Lvl V B c).after 2 t)
    ∗ owns (c : Thread nD τ) (st1_3 t) fullShare ((dat Name U Lvl V B c).after 3 t)
    ∗ owns (c : Thread nD τ) (st1_4 t) fullShare ((dat Name U Lvl V B c).after 4 t)
    ∗ owns (c : Thread nD τ) (st1_5 t) fullShare ((dat Name U Lvl V B c).after 5 t)
    ∗ owns (c : Thread nD τ) (st1_6 t) fullShare ((dat Name U Lvl V B c).after 6 t)
    ∗ owns (c : Thread nD τ) (st1_7 t) fullShare ((dat Name U Lvl V B c).after 7 t))

/-- The body at any point: the operands' buffers hold their blocks, so the body's triple applies; the invariant and
    what the core owes pass through unread. -/
theorem sound_body (c : Dev nD) (t : Fin cfg1.N) :
    bodyPre V B ι c t ⊢ wp frame (wpE (defs₀ (F := F)) 𝒱₀ c none) Set.univ (bodyAt1 t) (fun _ => (bodyPost V B ι c t : sProp 𝕄)) := by
  unfold bodyPre bodyPost bodyAt1
  simp only [before_0, before_1, before_2, before_3, before_4, before_5, before_6]
  rw [show (dat Name U Lvl V B c).Φ t.succ = (dat Name U Lvl V B c).Φ t.castSucc from rfl,
    show (dat Name U Lvl V B c).owesAt ι t.succ = (dat Name U Lvl V B c).owesAt ι t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel 𝒱₀ c Set.univ (grid1.coords t) _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dat Name U Lvl V B c) (defs₀ (F := F)) 𝒱₀ ι Set.univ := fun t => by
  rw [bigSep_W1, bigSep_W1]
  exact sound_body V B 𝒱₀ ι c t

end Cert.KernelIdeal.TcRegion

end
-- ==== Proof.TcOut.lean ====
/-
  The result array of the dense layers' region, as one function of the arrays the region finds.

  Grid point `t` reads rows `4096 t … 4096 t + 4095` of the gathered array and the six weight and bias arrays whole,
  and writes plane `t` of the result `[4, 1, 4096]`. The four planes tile the result, so after the last point the
  result at `(t, 0, q)` is the body's value at `(0, 0, q)` on the rows of plane `t`.
-/
import proofs.«201248_g17051020165207_cont_7to1_1438_30_alg».proof.Proof.TcDat
import Idealize.ShloMosaic.Lib.Pipeline.Value
import Idealize.ShloMosaic.Lib.ValueIdx

set_option maxRecDepth 16384

noncomputable section

namespace Cert.KernelIdeal.TcRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

open Idealize.ShloMosaic.ValueIdx

variable (V : (c : Dev nD) → (b : Ref sig .tc) → Buf (Elt F) ((c : Thread nD τ).loc b))

/-- Rows `4096 t … 4096 t + 4095` of a `[16384, 256]` array. -/
def rowsBlk (X : S16384x256.Idx → Elt F .f32) (t : Fin 4) : Vec F S4096x256 .f32 :=
  fun y => X (ix2 (⟨4096 * t.val + (y 0).val, by have := idx2_lt0 y; have := t.isLt; omega⟩ : Fin 16384) (⟨(y 1).val, idx2_lt1 y⟩ : Fin 256))

/-- The result array after the region: plane `i 0` is the body's value on rows `4096 (i 0) …` of the gathered array. -/
def out1 (c : Dev nD) : S4x1x4096.Idx → Elt F .f32 := fun i =>
  k1_pay1 (rowsBlk (V c main_v0) (⟨(i 0).val, (i 0).isLt⟩ : Fin 4)) (V c main_arg4) (V c main_arg5) (V c main_arg6) (V c main_arg7)
    (V c main_arg8) (V c main_arg9) (ix3 (0 : Fin 1) (0 : Fin 1) (⟨(i 2).val, (i 2).isLt⟩ : Fin 4096))

theorem out1_apply (c : Dev nD) (t : Fin 4) (q : Fin 4096) :
    out1 V c (ix3 t (0 : Fin 1) q)
      = k1_pay1 (rowsBlk (V c main_v0) t) (V c main_arg4) (V c main_arg5) (V c main_arg6) (V c main_arg7) (V c main_arg8) (V c main_arg9)
          (ix3 (0 : Fin 1) (0 : Fin 1) q) := rfl

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The windows' index maps over the grid: the gathered array's and the result's blocks move with the point along
    their first axis, every other block index is zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 3) = t.val ∧ win1_7.index t (1 : Fin 3) = 0 ∧ win1_7.index t (2 : Fin 3) = 0 :=
  (by decide +kernel : ∀ t : Fin grid1.N, _)

/-- A grid point as a number below four. -/
def pt (t : Fin cfg1.N) : Fin 4 := Fin.cast N_1 t

/-- The gathered array's block at point `t` is its rows `4096 t …`. -/
theorem iblk0_eq (c : Dev nD) (t : Fin cfg1.N) : iblk V c 0 t = rowsBlk (V c main_v0) (pt t) := by
  obtain ⟨h0_0, h0_1, h1_0, h1_1, h2_0, h3_0, h3_1, h4_0, h5_0, h5_1, h6_0, h7_0, h7_1, h7_2⟩ := idx_facts t
  funext y
  show V c main_v0 (((cfg1.win 0).blk t).view.emb y) = V c main_v0 (ix2 (⟨4096 * (pt t).val + (y 0).val, _⟩ : Fin 16384) (⟨(y 1).val, _⟩ : Fin 256))
  refine congrArg (V c main_v0) ?_
  funext a; apply Fin.ext
  match a with
    | ⟨0, _⟩ => show win1_0.index t (0 : Fin 2) * 4096 + 1 * (y 0).val = 4096 * t.val + (y 0).val; omega
    | ⟨1, _⟩ => show win1_0.index t (1 : Fin 2) * 256 + 1 * (y 1).val = (y 1).val; omega

/-- Operand 1's block at any point is its whole array. -/
theorem iblk1_eq (c : Dev nD) (t : Fin cfg1.N) : iblk V c 1 t = V c main_arg4 := by
  obtain ⟨h0_0, h0_1, h1_0, h1_1, h2_0, h3_0, h3_1, h4_0, h5_0, h5_1, h6_0, h7_0, h7_1, h7_2⟩ := idx_facts t
  funext y
  show V c main_arg4 (((cfg1.win 1).blk t).view.emb y) = V c main_arg4 y
  refine congrArg (V c main_arg4) ?_
  funext a; apply Fin.ext
  match a with
    | ⟨0, _⟩ => show win1_1.index t (0 : Fin 2) * 256 + 1 * (y 0).val = (y 0).val; omega
    | ⟨1, _⟩ => show win1_1.index t (1 : Fin 2) * 128 + 1 * (y 1).val = (y 1).val; omega

/-- Operand 2's block at any point is its whole array. -/
theorem iblk2_eq (c : Dev nD) (t : Fin cfg1.N) : iblk V c 2 t = V c main_arg5 := by
  obtain ⟨h0_0, h0_1, h1_0, h1_1, h2_0, h3_0, h3_1, h4_0, h5_0, h5_1, h6_0, h7_0, h7_1, h7_2⟩ := idx_facts t
  funext y
  show V c main_arg5 (((cfg1.win 2).blk t).view.emb y) = V c main_arg5 y
  refine congrArg (V c main_arg5) ?_
  funext a; apply Fin.ext
  match a with
    | ⟨0, _⟩ => show win1_2.index t (0 : Fin 1) * 128 + 1 * (y 0).val = (y 0).val; omega

/-- Operand 3's block at any point is its whole array. -/
theorem iblk3_eq (c : Dev nD) (t : Fin cfg1.N) : iblk V c 3 t = V c main_arg6 := by
  obtain ⟨h0_0, h0_1, h1_0, h1_1, h2_0, h3_0, h3_1, h4_0, h5_0, h5_1, h6_0, h7_0, h7_1, h7_2⟩ := idx_facts t
  funext y
  show V c main_arg6 (((cfg1.win 3).blk t).view.emb y) = V c main_arg6 y
  refine congrArg (V c main_arg6) ?_
  funext a; apply Fin.ext
  match a with
    | ⟨0, _⟩ => show win1_3.index t (0 : Fin 2) * 128 + 1 * (y 0).val = (y 0).val; omega
    | ⟨1, _⟩ => show win1_3.index t (1 : Fin 2) * 64 + 1 * (y 1).val = (y 1).val; omega

/-- Operand 4's block at any point is its whole array. -/
theorem iblk4_eq (c : Dev nD) (t : Fin cfg1.N) : iblk V c 4 t = V c main_arg7 := by
  obtain ⟨h0_0, h0_1, h1_0, h1_1, h2_0, h3_0, h3_1, h4_0, h5_0, h5_1, h6_0, h7_0, h7_1, h7_2⟩ := idx_facts t
  funext y
  show V c main_arg7 (((cfg1.win 4).blk t).view.emb y) = V c main_arg7 y
  refine congrArg (V c main_arg7) ?_
  funext a; apply Fin.ext
  match a with
    | ⟨0, _⟩ => show win1_4.index t (0 : Fin 1) * 64 + 1 * (y 0).val = (y 0).val; omega

/-- Operand 5's block at any point is its whole array. -/
theorem iblk5_eq (c : Dev nD) (t : Fin cfg1.N) : iblk V c 5 t = V c main_arg8 := by
  obtain ⟨h0_0, h0_1, h1_0, h1_1, h2_0, h3_0, h3_1, h4_0, h5_0, h5_1, h6_0, h7_0, h7_1, h7_2⟩ := idx_facts t
  funext y
  show V c main_arg8 (((cfg1.win 5).blk t).view.emb y) = V c main_arg8 y
  refine congrArg (V c main_arg8) ?_
  funext a; apply Fin.ext
  match a with
    | ⟨0, _⟩ => show win1_5.index t (0 : Fin 2) * 64 + 1 * (y 0).val = (y 0).val; omega
    | ⟨1, _⟩ => show win1_5.index t (1 : Fin 2) * 1 + 1 * (y 1).val = (y 1).val; omega

/-- Operand 6's block at any point is its whole array. -/
theorem iblk6_eq (c : Dev nD) (t : Fin cfg1.N) : iblk V c 6 t = V c main_arg9 := by
  obtain ⟨h0_0, h0_1, h1_0, h1_1, h2_0, h3_0, h3_1, h4_0, h5_0, h5_1, h6_0, h7_0, h7_1, h7_2⟩ := idx_facts t
  funext y
  show V c main_arg9 (((cfg1.win 6).blk t).view.emb y) = V c main_arg9 y
  refine congrArg (V c main_arg9) ?_
  funext a; apply Fin.ext
  match a with
    | ⟨0, _⟩ => show win1_6.index t (0 : Fin 1) * 1 + 1 * (y 0).val = (y 0).val; omega

/-- The body's value depends on the gathered rows and the index only through their values. -/
theorem pay_congr {a0 a0' : Vec F S4096x256 .f32} (a1 : Vec F S256x128 .f32) (a2 : Vec F S128 .f32) (a3 : Vec F S128x64 .f32)
    (a4 : Vec F S64 .f32) (a5 : Vec F S64x1 .f32) (a6 : Vec F S1 .f32) {j j' : S1x1x4096.Idx} (h0 : a0 = a0') (hj : j = j') :
    k1_pay1 a0 a1 a2 a3 a4 a5 a6 j = k1_pay1 a0' a1 a2 a3 a4 a5 a6 j' := by subst h0 hj; rfl

variable (B : Dev nD → Set (SemLoc sig × Ix))

/-- What point `t` writes back is plane `t` of `out1`. -/
theorem flushed_eq (c : Dev nD) (t : Fin cfg1.N) :
    (dat Name U Lvl V B c).flushed 7 t = ((cfg1.win 7).blk t).view.read (Elt F) (out1 V c) := by
  obtain ⟨h0_0, h0_1, h1_0, h1_1, h2_0, h3_0, h3_1, h4_0, h5_0, h5_1, h6_0, h7_0, h7_1, h7_2⟩ := idx_facts t
  show (cfg1.win 7).cut (grid1.coords t) ((dat Name U Lvl V B c).after 7 t) = _
  rw [after_7]
  unfold outBlk
  rw [View.canon_unit_zero hz3]
  simp only [View.ld_unit_zero (S := S4096x256) hz2, View.ld_unit_zero (S := S256x128) hz2, View.ld_unit_zero (S := S128) hz1,
    View.ld_unit_zero (S := S128x64) hz2, View.ld_unit_zero (S := S64) hz1, View.ld_unit_zero (S := S64x1) hz2, View.ld_unit_zero (S := S1) hz1]
  rw [iblk0_eq, iblk1_eq, iblk2_eq, iblk3_eq, iblk4_eq, iblk5_eq, iblk6_eq]
  funext j
  have hj0 : (j 0).val < 1 := (j 0).isLt
  have hj1 : (j 1).val < 1 := (j 1).isLt
  have hj2 : (j 2).val < 4096 := (j 2).isLt
  show k1_pay1 (rowsBlk (V c main_v0) (pt t)) (V c main_arg4) (V c main_arg5) (V c main_arg6) (V c main_arg7) (V c main_arg8) (V c main_arg9) j
    = k1_pay1 (rowsBlk (V c main_v0) (⟨((((cfg1.win 7).blk t).view.emb j) 0).val, _⟩ : Fin 4)) (V c main_arg4) (V c main_arg5) (V c main_arg6) (V c main_arg7)
        (V c main_arg8) (V c main_arg9) (ix3 (0 : Fin 1) (0 : Fin 1) (⟨((((cfg1.win 7).blk t).view.emb j) 2).val, _⟩ : Fin 4096))
  refine pay_congr _ _ _ _ _ _ (congrArg (rowsBlk (V c main_v0)) (Fin.ext ?_)) ?_
  · show t.val = win1_7.index t (0 : Fin 3) * 1 + 1 * (j 0).val; omega
  · funext a; apply Fin.ext
    match a with
      | ⟨0, _⟩ => show (j 0).val = 0; omega
      | ⟨1, _⟩ => show (j 1).val = 0; omega
      | ⟨2, _⟩ => show (j 2).val = win1_7.index t (2 : Fin 3) * 4096 + 1 * (j 2).val; omega

/-- An index of the result is in point `t`'s block iff each coordinate is in the block's range on its axis. -/
theorem mem_blk (t : Fin cfg1.N) (i : S4x1x4096.Idx) :
    i ∈ ((cfg1.win 7).blk t).view.set ↔ ∀ a : Fin 3, win1_7.index t a * S1x1x4096.size a ≤ (i a).val ∧ (i a).val < win1_7.index t a * S1x1x4096.size a + S1x1x4096.size a := by
  show i ∈ ((View.whole main_v1).slice (win1_7.rect t)).set ↔ _
  rw [View.set_slice_whole, Rect.mem_set_unit]
  exact Iff.rfl

/-- Every index of the result is in the block of the point its first coordinate names. -/
theorem covered (i : S4x1x4096.Idx) : ∃ t : Fin cfg1.N, (cfg1.win 7).flush t = true ∧ i ∈ ((cfg1.win 7).blk t).view.set := by
  have hi0 : (i 0).val < 4 := (i 0).isLt
  have hi1 : (i 1).val < 1 := (i 1).isLt
  have hi2 : (i 2).val < 4096 := (i 2).isLt
  let t : Fin cfg1.N := Fin.cast N_1.symm (⟨(i 0).val, hi0⟩ : Fin 4)
  obtain ⟨h0_0, h0_1, h1_0, h1_1, h2_0, h3_0, h3_1, h4_0, h5_0, h5_1, h6_0, h7_0, h7_1, h7_2⟩ := idx_facts t
  have ht : t.val = (i 0).val := rfl
  refine ⟨t, flush1_7 t, ?_⟩
  rw [mem_blk]
  intro a
  match a with
    | ⟨0, _⟩ => show win1_7.index t (0 : Fin 3) * 1 ≤ (i 0).val ∧ (i 0).val < win1_7.index t (0 : Fin 3) * 1 + 1; omega
    | ⟨1, _⟩ => show win1_7.index t (1 : Fin 3) * 1 ≤ (i 1).val ∧ (i 1).val < win1_7.index t (1 : Fin 3) * 1 + 1; omega
    | ⟨2, _⟩ => show win1_7.index t (2 : Fin 3) * 4096 ≤ (i 2).val ∧ (i 2).val < win1_7.index t (2 : Fin 3) * 4096 + 4096; omega

/-- The result array after the last point is `out1`. -/
theorem arrAt_out (c : Dev nD) : (dat Name U Lvl V B c).arrAt 7 cfg1.N = out1 V c :=
  (dat Name U Lvl V B c).arrAt_eq_of_cover 7 (out1 V c) (fun t _ => flushed_eq V B c t) covered

/-- An operand array is never written. -/
theorem arrAt_in (c : Dev nD) (w : Fin cfg1.W) (hw : (cfg1.win w).isOut = false) (n : Nat) :
    (dat Name U Lvl V B c).arrAt w n = V c (Pipeline.arrRef spec1 w) :=
  ((dat Name U Lvl V B c).arrAt_in w hw n).trans (A_eq V B c w)

end Cert.KernelIdeal.TcRegion

end
-- ==== Proof.TcRegion.lean ====
/-
  The dense layers' region as one step of the TensorCore's program.

  Entered holding the eight arrays its windows stage — the gathered array, the six weight and bias arrays and the
  result array — whole at the contents `V`, with the core owing nothing, the region returns them with the result
  array at `out1 V` and every other array as it was, the core still owing nothing; the waits the pipeline made on
  its own staging cells are added to the bound on the core's recorded waits.
-/
import proofs.«201248_g17051020165207_cont_7to1_1438_30_alg».proof.Proof.TcOut

set_option maxRecDepth 16384

noncomputable section

namespace Cert.KernelIdeal.TcRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : (c : Dev nD) → (b : Ref sig .tc) → Buf (Elt F) ((c : Thread nD τ).loc b))
variable (B : Dev nD → Set (SemLoc sig × Ix))

/-- No table is prefetched: the one admissible family. -/
abbrev adm : (p : Fin 1) → (pcfgs (F := F) p).Adm := fun p => (cfgs p).toPCfg_adm

variable (Name U Lvl) in
/-- The one pipeline's proof data, at the region's entry contents. -/
def pdats : (p : Fin 1) → (c : Dev nD) → Dat τ (Elt F) Ix Name U Lvl (Pipeline.pin (pcfgs (F := F)) adm p) c
  | ⟨0, _⟩ => fun c => dat Name U Lvl V B c

/-- The eight windows' arrays, each whole at its contents under `V`, the result array at `X`. -/
def held (c : Dev nD) (X : Buf (Elt F) ((c : Thread nD τ).loc main_v1)) : sProp 𝕄 :=
  iprop((((c : Thread nD τ).loc main_v0) ↦{fullShare} V c main_v0) ∗ (((c : Thread nD τ).loc main_arg4) ↦{fullShare} V c main_arg4)
    ∗ (((c : Thread nD τ).loc main_arg5) ↦{fullShare} V c main_arg5) ∗ (((c : Thread nD τ).loc main_arg6) ↦{fullShare} V c main_arg6)
    ∗ (((c : Thread nD τ).loc main_arg7) ↦{fullShare} V c main_arg7) ∗ (((c : Thread nD τ).loc main_arg8) ↦{fullShare} V c main_arg8)
    ∗ (((c : Thread nD τ).loc main_arg9) ↦{fullShare} V c main_arg9) ∗ (((c : Thread nD τ).loc main_v1) ↦{fullShare} X))

/-- The pipeline's arrays, at any contents, one by one. -/
theorem arrays_chain (c : Dev nD) (G : (w : Fin 8) → Buf (Elt F) ((c : Thread nD τ).loc (Pipeline.arrRef spec1 w))) :
    ((pdats Name U Lvl V B 0 c).arrays G : sProp 𝕄)
      = iprop((((c : Thread nD τ).loc main_v0) ↦{fullShare} G 0) ∗ (((c : Thread nD τ).loc main_arg4) ↦{fullShare} G 1)
        ∗ (((c : Thread nD τ).loc main_arg5) ↦{fullShare} G 2) ∗ (((c : Thread nD τ).loc main_arg6) ↦{fullShare} G 3)
        ∗ (((c : Thread nD τ).loc main_arg7) ↦{fullShare} G 4) ∗ (((c : Thread nD τ).loc main_arg8) ↦{fullShare} G 5)
        ∗ (((c : Thread nD τ).loc main_arg9) ↦{fullShare} G 6) ∗ (((c : Thread nD τ).loc main_v1) ↦{fullShare} G 7)) := by
  rw [Pipeline.arrays_eq (Pipeline.pin (pcfgs (F := F)) adm) (pdats Name U Lvl V B) 0 c launch1.arr_whole (fun w => share_eq V B c w) G, bigSep_W1]

/-- At entry the arrays are at `V`. -/
theorem entry_arrays (c : Dev nD) :
    (held V c (V c main_v1) : sProp 𝕄) ⊢ (pdats Name U Lvl V B 0 c).arrays ((pdats Name U Lvl V B 0 c).arrAt · 0) := by
  rw [arrays_chain]; exact BI.Entails.refl _

/-- At exit the operand arrays are as entered and the result array is `out1`. -/
theorem exit_arrays (c : Dev nD) :
    ((pdats Name U Lvl V B 0 c).arrays ((pdats Name U Lvl V B 0 c).arrAt · cfg1.N) : sProp 𝕄) ⊢ held V c (out1 V c) := by
  have h0 : (pdats Name U Lvl V B 0 c).arrAt 0 cfg1.N = V c main_v0 := arrAt_in V B c 0 rfl _
  have h1 : (pdats Name U Lvl V B 0 c).arrAt 1 cfg1.N = V c main_arg4 := arrAt_in V B c 1 rfl _
  have h2 : (pdats Name U Lvl V B 0 c).arrAt 2 cfg1.N = V c main_arg5 := arrAt_in V B c 2 rfl _
  have h3 : (pdats Name U Lvl V B 0 c).arrAt 3 cfg1.N = V c main_arg6 := arrAt_in V B c 3 rfl _
  have h4 : (pdats Name U Lvl V B 0 c).arrAt 4 cfg1.N = V c main_arg7 := arrAt_in V B c 4 rfl _
  have h5 : (pdats Name U Lvl V B 0 c).arrAt 5 cfg1.N = V c main_arg8 := arrAt_in V B c 5 rfl _
  have h6 : (pdats Name U Lvl V B 0 c).arrAt 6 cfg1.N = V c main_arg9 := arrAt_in V B c 6 rfl _
  have h7 : (pdats Name U Lvl V B 0 c).arrAt 7 cfg1.N = out1 V c := arrAt_out V B c
  rw [arrays_chain, h0, h1, h2, h3, h4, h5, h6, h7]; exact BI.Entails.refl _

variable (𝒱₀ : Variants) (ι : Ix) (L : GSem nD τ sig → Finset Ix) (lv : GSem nD τ sig → Ix → Lvl)

set_option backward.isDefEq.respectTransparency.types false in
/-- The region over the thread state "the eight arrays, nothing owed". -/
def regionSeg : Pipeline.RegionSeg (pcfgs (F := F)) adm (pdats Name U Lvl V B) ι defs₀ 𝒱₀ L lv 0 where
  win := launch1.win.to₀
  block_pos := launch1.block_pos
  stage_whole := launch1.stage_whole
  K := PEmpty
  osem k := k.elim
  ho := Pipeline.OwnSemFacts.none _
  hbody c := (body_obligation V B 𝒱₀ ι c).loose
  hwaits := Pipeline.hwaits_of_owed_zero _ _ _ _ L lv 0 fun _ _ => rfl
  pre c := iprop(held V c (V c main_v1) ∗ Pipeline.owesWithin c 0 (B c))
  post c := iprop(held V c (out1 V c) ∗ Pipeline.owesWithin c 0 (B c ∪ cfg1.waitPairs ι))
  X _ := iprop(emp)
  Y _ := iprop(emp)
  Z _ := iprop(emp)
  hentry c := by
    iintro ⟨⟨Ha, HO⟩, -, -⟩
    imodintro
    isplitl [Ha]; · iapply (entry_arrays V B c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iempintro
  hin c := by
    rw [show (pdats Name U Lvl V B 0 c).Φ 0 = Pipeline.scopedRest spec1 c from rfl]
    iintro ⟨-, -, Hr⟩
    iexact Hr
  hout c := by
    rw [Pipeline.ownSems0_none, show (pdats Name U Lvl V B 0 c).Φ (Fin.last _) = Pipeline.scopedRest spec1 c from rfl]
    iintro Hr
    isplitr; · iempintro
    isplitr; · iempintro
    iexact Hr
  hexit c := by
    iintro ⟨Ha, HO, -, -⟩
    imodintro
    isplitl [Ha]; · iapply (exit_arrays V B c); iexact Ha
    unfold Pipeline.Dat.owesAt Pipeline.owesWithin
    icases HO with ⟨%W, %hW, HO⟩; iexists W; isplitr; · ipureintro; exact hW
    iexact HO

/-- The region's step on core `c`: from the boundary, the eight arrays at `V`, the core owing nothing, the level
    facts and the pipeline's ghost state, the call runs to the boundary and the arrays with the result at `out1 V`. -/
theorem region_wp [Infinite Name]
    (EP : Emb (URounds (GSem nD τ sig) Unit) (MT nD τ sig Ix (Elt F) Name U Lvl)) [EP.LandsIn (upEmb : UEmb _ (MT nD τ sig Ix (Elt F) Name U Lvl))]
    (c : Dev nD) {α : Type} (k : PUnit → Prog (TpuEff nD τ sig (Elt F) (Pipeline.Sig Λ₀ (Fin 1) fun p => (pcfgs (F := F) p).Adm) .tc) α) (Q : α → sProp 𝕄) :
    iprop((iprop(boundary (c : Thread nD τ) ∗ held V c (out1 V c) ∗ Pipeline.owesWithin c 0 (B c ∪ cfg1.waitPairs ι))
            -∗ wp frame (wpE (Pipeline.defs (pcfgs (F := F)) defs₀) (Variants.lift 𝒱₀) (c : Thread nD τ) none) Set.univ (k ⟨⟩) Q)
        ∗ boundary (c : Thread nD τ) ∗ (held V c (V c main_v1) ∗ Pipeline.owesWithin c 0 (B c)) ∗ levAts L lv
        ∗ Pipeline.cellsGhost (Pipeline.pin (pcfgs (F := F)) adm) EP 0 c ∗ Pipeline.toksInit (Pipeline.pin (pcfgs (F := F)) adm) EP 0 c)
      ⊢ wp frame (wpE (Pipeline.defs (pcfgs (F := F)) defs₀) (Variants.lift 𝒱₀) (c : Thread nD τ) none) Set.univ (.op (.customCall (Pipeline.entry 0) ()) k) Q :=
  Pipeline.RegionSeg.wp (pcfgs (F := F)) adm (pdats Name U Lvl V B) ι cellOf_inj EP defs₀ 𝒱₀ L lv (regionSeg V B 𝒱₀ ι L lv) c none
    (fun _ h => absurd h (Option.not_mem_none _)) k Q

end Cert.KernelIdeal.TcRegion

end
-- ==== Proof.ScMain.lean ====
/-
  @main on the TensorCore, the launch element, and the program's run.

  @main hands the whole arrays to the SparseCore call (split tile by tile, joined again at its end), runs the dense
  layers' pallas_call on the gathered array as one region step, and reshapes its [4, 1, 4096] result to [16384]. What is
  kept for the claim: the ten argument arrays as they were, and the result array as a named function of the gathered
  array, of which `GA` and `GB` hold piece by piece.
-/
import proofs.«201248_g17051020165207_cont_7to1_1438_30_alg».proof.Proof.ScTiles
import proofs.«201248_g17051020165207_cont_7to1_1438_30_alg».proof.Proof.TcRegion

noncomputable section

namespace Cert.KernelIdeal.Sc

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)
variable (GA GB : (d : Dev nD) → grid0.Coords → Buf (Elt F) (xLoc d) → Prop)

/-! ## Shares of a table -/

section Shares

omit [FloatOps F]

/-- The two halves of the leaves one level down. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its `2 ^ n` leaves' at once: the two halves, each by induction. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- Tile `(c, s)` is leaf `16 c + s`. -/
def tileEquiv : Tile ≃ Fin (2 ^ 5) where
  toFun t := ⟨16 * t.1.val + t.2.val, by
    have h1 : t.1.val < 2 := t.1.isLt
    have h2 : t.2.val < 16 := t.2.isLt
    have : (2 : ℕ) ^ 5 = 32 := by norm_num
    omega⟩
  invFun k := (⟨k.val / 16, show k.val / 16 < 2 by have h := k.isLt; have e : (2 : ℕ) ^ 5 = 32 := (by norm_num); omega⟩, ⟨k.val % 16, show k.val % 16 < 16 by omega⟩)
  left_inv t := by
    have h2 : t.2.val < 16 := t.2.isLt
    exact Prod.ext (Fin.ext (show (16 * t.1.val + t.2.val) / 16 = t.1.val by omega)) (Fin.ext (show (16 * t.1.val + t.2.val) % 16 = t.2.val by omega))
  right_inv k := Fin.ext (show 16 * (k.val / 16) + k.val % 16 = k.val by omega)

theorem tileShare_eq (t : Tile) : tileShare (Lp t) = leaf 5 fullShare (tileEquiv t) := rfl

/-- A table whole is its thirty-two tiles' shares. -/
theorem table_split {ℓ : Loc nD τ sig} (f : Buf (Elt F) ℓ) :
    (ℓ ↦{fullShare} f : sProp 𝕄) = bigSep Finset.univ fun t : Tile => ℓ ↦{tileShare (Lp t)} f := by
  rw [pointsTo_leaves Finset.univ f 5 fullShare, bigSep_univ_equiv tileEquiv]
  exact bigSep_congr fun t _ => by rw [tileShare_eq]

end Shares

/-! ## Whole arrays, tile by tile -/

section Whole

omit [FloatOps F] in
theorem bigSep_bool (Φ : Bool → sProp 𝕄) : bigSep Finset.univ Φ = iprop(Φ false ∗ Φ true) := by
  rw [show (Finset.univ : Finset Bool) = {false, true} by decide, bigSep_insert (by decide), bigSep_singleton]; rfl

/-- The tiles' pieces as sets of indices of the arrays they are pieces of. -/
def uSetD (d : Dev nD) (t : Tile) : Finset (Idx (uLoc d)) := (uSl (Lp t)).view.set
def iSetD (d : Dev nD) (t : Tile) : Finset (Idx (iLoc d)) := (iSl (Lp t)).view.set
def xPieceD (d : Dev nD) (p : Tile × Bool) : Finset (Idx (xLoc d)) := if p.2 then (xSlB (Lp p.1)).view.set else (xSlA (Lp p.1)).view.set

omit [FloatOps F] in
theorem uSetD_disjoint (d : Dev nD) : ∀ t ∈ (Finset.univ : Finset Tile), ∀ t' ∈ (Finset.univ : Finset Tile), t ≠ t' → Disjoint (uSetD d t) (uSetD d t') := by
  intro t _ t' _ hne
  refine Finset.disjoint_left.mpr fun j h h' => hne (tile_eq_of ?_)
  have e := (mem_uSl (Lp t) j).mp h
  have e' := (mem_uSl (Lp t') j).mp h'
  rw [Lp0, Lp1] at e e'
  have h1 : t.1.val < 2 := t.1.isLt; have h2 : t'.1.val < 2 := t'.1.isLt
  omega
omit [FloatOps F] in
theorem iSetD_disjoint (d : Dev nD) : ∀ t ∈ (Finset.univ : Finset Tile), ∀ t' ∈ (Finset.univ : Finset Tile), t ≠ t' → Disjoint (iSetD d t) (iSetD d t') := by
  intro t _ t' _ hne
  refine Finset.disjoint_left.mpr fun j h h' => hne (tile_eq_of ?_)
  have e := (mem_iSl (Lp t) j).mp h
  have e' := (mem_iSl (Lp t') j).mp h'
  rw [Lp0, Lp1] at e e'
  have h1 : t.1.val < 2 := t.1.isLt; have h2 : t'.1.val < 2 := t'.1.isLt
  omega
omit [FloatOps F] in
theorem uSetD_cover (d : Dev nD) : (Finset.univ : Finset Tile).biUnion (uSetD d) = Finset.univ :=
  Finset.eq_univ_iff_forall.mpr fun j => Finset.mem_biUnion.mpr ⟨tileOf (j 0).val (j 0).isLt, Finset.mem_univ _,
    (mem_uSl (Lp (tileOf (j 0).val (j 0).isLt)) j).mpr (by rw [Lp0, Lp1]; exact tileOf_range _ _)⟩
omit [FloatOps F] in
theorem iSetD_cover (d : Dev nD) : (Finset.univ : Finset Tile).biUnion (iSetD d) = Finset.univ :=
  Finset.eq_univ_iff_forall.mpr fun j => Finset.mem_biUnion.mpr ⟨tileOf (j 0).val (j 0).isLt, Finset.mem_univ _,
    (mem_iSl (Lp (tileOf (j 0).val (j 0).isLt)) j).mpr (by rw [Lp0, Lp1]; exact tileOf_range _ _)⟩

omit [FloatOps F] in
theorem mem_xPieceD (d : Dev nD) (t : Tile) (b : Bool) (j : Idx (xLoc d)) :
    j ∈ xPieceD d (t, b) ↔ (1024 * t.2.val + 512 * t.1.val ≤ (j 0).val ∧ (j 0).val < 1024 * t.2.val + 512 * t.1.val + 512) ∧ (if b then 128 ≤ (j 1).val else (j 1).val < 128) := by
  cases b
  · exact mem_xSlA (Lp t) j
  · exact mem_xSlB (Lp t) j
omit [FloatOps F] in
theorem xPieceD_disjoint (d : Dev nD) : ∀ p ∈ (Finset.univ : Finset (Tile × Bool)), ∀ p' ∈ (Finset.univ : Finset (Tile × Bool)), p ≠ p' → Disjoint (xPieceD d p) (xPieceD d p') := by
  rintro ⟨t, b⟩ _ ⟨t', b'⟩ _ hne
  refine Finset.disjoint_left.mpr fun j h h' => ?_
  rw [mem_xPieceD] at h h'
  have key : 1024 * t.2.val + 512 * t.1.val = 1024 * t'.2.val + 512 * t'.1.val → b = b' → False := fun e e' => hne (by rw [tile_eq_of e, e'])
  have h1 : t.1.val < 2 := t.1.isLt; have h2 : t'.1.val < 2 := t'.1.isLt
  cases b <;> cases b' <;> simp only [Bool.false_eq_true, if_false, if_true] at h h'
  · exact key (by omega) rfl
  · omega
  · omega
  · exact key (by omega) rfl
omit [FloatOps F] in
theorem xPieceD_cover (d : Dev nD) : (Finset.univ : Finset (Tile × Bool)).biUnion (xPieceD d) = Finset.univ := by
  refine Finset.eq_univ_iff_forall.mpr fun j => ?_
  by_cases hl : (j 1).val < 128
  · refine Finset.mem_biUnion.mpr ⟨(tileOf (j 0).val (j 0).isLt, false), Finset.mem_univ _, ?_⟩
    rw [mem_xPieceD]; exact ⟨tileOf_range _ _, by simpa using hl⟩
  · refine Finset.mem_biUnion.mpr ⟨(tileOf (j 0).val (j 0).isLt, true), Finset.mem_univ _, ?_⟩
    rw [mem_xPieceD]; exact ⟨tileOf_range _ _, by simp only [if_true]; omega⟩

omit [FloatOps F] in
theorem u_split (d : Dev nD) (f : Buf (Elt F) (uLoc d)) :
    (uLoc d ↦{fullShare} f : sProp 𝕄) = bigSep Finset.univ fun t : Tile => uLoc d ↦[(uSl (Lp t)).view.set]{fullShare} f := by
  rw [← uSetD_cover d, pointsTo_biUnion Finset.univ (uSetD d) (uSetD_disjoint d)]; rfl
omit [FloatOps F] in
theorem i_split (d : Dev nD) (f : Buf (Elt F) (iLoc d)) :
    (iLoc d ↦{fullShare} f : sProp 𝕄) = bigSep Finset.univ fun t : Tile => iLoc d ↦[(iSl (Lp t)).view.set]{fullShare} f := by
  rw [← iSetD_cover d, pointsTo_biUnion Finset.univ (iSetD d) (iSetD_disjoint d)]; rfl
omit [FloatOps F] in
theorem x_split (d : Dev nD) (f : Buf (Elt F) (xLoc d)) :
    (xLoc d ↦{fullShare} f : sProp 𝕄) = bigSep Finset.univ fun t : Tile => iprop(xAPts d (Lp t) f ∗ xBPts d (Lp t) f) := by
  rw [← xPieceD_cover d, pointsTo_biUnion Finset.univ (xPieceD d) (xPieceD_disjoint d), bigSep_univ_prod]
  exact bigSep_congr fun t _ => by rw [bigSep_bool]; rfl

/-- The two predicates as one family over the pieces. -/
def Gp (d : Dev nD) (p : Tile × Bool) (f : Buf (Elt F) (xLoc d)) : Prop := if p.2 then GB d (Lp p.1) f else GA d (Lp p.1) f

/-- What a tile leaves is invariant under a change of the array off the tile's piece. -/
def Local : Prop :=
  (∀ d L (f f' : Buf (Elt F) (xLoc d)), (∀ i ∈ (xSlA L).view.set, f' i = f i) → GA d L f → GA d L f')
  ∧ (∀ d L (f f' : Buf (Elt F) (xLoc d)), (∀ i ∈ (xSlB L).view.set, f' i = f i) → GB d L f → GB d L f')

set_option maxRecDepth 65536 in
/-- The sixty-four pieces, each at contents of which its predicate holds, are the whole gathered array at contents of
    which every tile's two predicates hold. -/
theorem x_join [∀ e, Nonempty (Elt F e)] (hl : Local GA GB) (d : Dev nD) :
    (bigSep Finset.univ fun t : Tile => iprop((∃ f, ⌜GA d (Lp t) f⌝ ∗ xAPts d (Lp t) f) ∗ (∃ f, ⌜GB d (Lp t) f⌝ ∗ xBPts d (Lp t) f)) : sProp 𝕄)
      ⊢ iprop(∃ g, ⌜∀ t : Tile, GA d (Lp t) g ∧ GB d (Lp t) g⌝ ∗ xLoc d ↦{fullShare} g) := by
  have e : (bigSep Finset.univ fun t : Tile => iprop((∃ f, ⌜GA d (Lp t) f⌝ ∗ xAPts d (Lp t) f) ∗ (∃ f, ⌜GB d (Lp t) f⌝ ∗ xBPts d (Lp t) f)) : sProp 𝕄)
      = bigSep Finset.univ fun p : Tile × Bool => iprop(∃ f, ⌜Gp GA GB d p f⌝ ∗ xLoc d ↦[xPieceD d p]{fullShare} f) := by
    refine Eq.trans ?_ (bigSep_univ_prod _).symm
    exact bigSep_congr fun t _ => by rw [bigSep_bool]; rfl
  rw [e]
  refine (bigSep_exists_pi Finset.univ (fun (p : Tile × Bool) (f : Buf (Elt F) (xLoc d)) => iprop(⌜Gp GA GB d p f⌝ ∗ xLoc d ↦[xPieceD d p]{fullShare} f))).trans ?_
  iintro ⟨%fs, H⟩
  ihave H' := (bigSep_pure_sep Finset.univ (fun p => Gp GA GB d p (fs p)) (fun p => (xLoc d ↦[xPieceD d p]{fullShare} fs p : sProp 𝕄))) $$ H
  icases H' with ⟨%hG, H⟩
  have : Nonempty (Buf (Elt F) (xLoc d)) := ⟨fs (tileOf 0 (by omega), false)⟩
  ihave H'' := (pointsTo_biUnion_join (ℓ := xLoc d) (q := fullShare) (Val := Elt F) Finset.univ (xPieceD d) fs (fs (tileOf 0 (by omega), false)) (xPieceD_disjoint d)) $$ H
  icases H'' with ⟨%g, %hg, Hg⟩
  rw [xPieceD_cover d]
  iexists g
  isplitr
  · ipureintro
    intro t
    refine ⟨hl.1 d (Lp t) (fs (t, false)) g (fun i hi => hg (t, false) (Finset.mem_univ _) i ?_) (hG (t, false) (Finset.mem_univ _)),
      hl.2 d (Lp t) (fs (t, true)) g (fun i hi => hg (t, true) (Finset.mem_univ _) i ?_) (hG (t, true) (Finset.mem_univ _))⟩
    · exact hi
    · exact hi
  · iexact Hg

end Whole

/-! ## The launch element: the handshakes' cells and the pallas_call's staging cells -/

section Launch

/-- The pallas_call's staging cells live in the second component of the resource algebra. -/
abbrev EP : Emb (UR sig nD τ) (MT nD τ sig (HIx 1) (Elt F) ℕ UU ℕ) := ((Emb.inl : Emb (UR sig nD τ) (UR sig nD τ × Counters)).trans embR)

instance EP_landsIn : (EP (F := F)).LandsIn (upEmb : UEmb _ 𝕄) := by unfold EP; infer_instance

abbrev pcs := Pipeline.pin (pcfgs (F := F)) (TcRegion.adm (F := F))

def u₀ : UU := (initOf (K (F := F)).hsCells (K (F := F)).hsToks, (initOf (Pipeline.cells (pcs (F := F)) cellOf_inj) (Pipeline.launchToks (pcs (F := F)) cellOf_inj), 1))

/-- What @main starts from beside the handshakes: the staging cells' ghost state and launch tokens. -/
abbrev Gd (d : Dev nD) : sProp 𝕄 := iprop(Pipeline.cellsGhost (pcs (F := F)) EP 0 d ∗ Pipeline.toksInit (pcs (F := F)) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m GA GB).x q thr) := by
  unfold u₀
  iintro Hu
  ihave H := (ownU_pair (initOf (K (F := F)).hsCells (K (F := F)).hsToks) _) $$ Hu
  icases H with ⟨HH, HR⟩
  ihave H2 := (own_pair_emb embR _ _) $$ HR
  icases H2 with ⟨HP, -⟩
  imod (Pipeline.fund_ghost (pcs (F := F)) (EP (F := F)) cellOf_inj) $$ HP with ⟨Hg, Ht⟩
  imodintro
  isplitl [HH]; · iexact HH
  isplitl [Hg Ht]
  · rw [bigSep_sep']
    isplitl [Hg]
    · ihave Hg' := (Entails.of_eq (bigSep_congr (s := Finset.univ) fun (d : Dev nD) _ => bigSep_univ_of_subsingleton (0 : Fin 1) (Φ := fun p => (Pipeline.cellsGhost (pcs (F := F)) (EP (F := F)) p d : sProp 𝕄)))) $$ Hg
      iexact Hg'
    · ihave Ht' := (Entails.of_eq (bigSep_congr (s := Finset.univ) fun (d : Dev nD) _ => bigSep_univ_of_subsingleton (0 : Fin 1) (Φ := fun p => (Pipeline.toksInit (pcs (F := F)) (EP (F := F)) p d : sProp 𝕄)))) $$ Ht
      iexact Ht'
  rw [show (bigSep Finset.univ fun thr : Thread nD τ => bigSep Finset.univ fun q : Fin 1 => (P (F := F) m GA GB).x q thr) = bigSep Finset.univ fun _ => iprop(emp) from
    bigSep_congr fun _ _ => bigSep_univ_of_subsingleton (0 : Fin 1), bigSep_emp']
  iempintro

end Launch

/-! ## @main on the TensorCore -/

section Main

variable [∀ e, Nonempty (Elt F e)]

abbrev aLoc (b : Ref sig .tc) (d : Dev nD) : Loc nD τ sig := (SparseCore.T d).loc b

/-- The gathered array `g` of device `d`, read at any device (there is one). -/
def gAt (d : Dev nD) (g : Buf (Elt F) (xLoc d)) (c : Dev nD) : Buf (Elt F) (xLoc c) :=
  cast (congrArg (fun c' => Buf (Elt F) (xLoc c')) (Subsingleton.elim d c)) g
omit [FloatOps F] [∀ e, Nonempty (Elt F e)] in
theorem gAt_self (d : Dev nD) (g : Buf (Elt F) (xLoc d)) : gAt d g d = g := cast_eq _ _

/-- The arrays as the pallas_call finds them: the launch's, the gathered array at `g`. -/
def Vof (d : Dev nD) (g : Buf (Elt F) (xLoc d)) : (c : Dev nD) → (b : Ref sig .tc) → Buf (Elt F) ((c : Thread nD τ).loc b) :=
  fun c => Function.update (fun b => m ((c : Thread nD τ).loc b)) main_v0 (gAt d g c)

omit [FloatOps F] [∀ e, Nonempty (Elt F e)] in
theorem Vof_v0 (d : Dev nD) (g : Buf (Elt F) (xLoc d)) : Vof m d g d main_v0 = g := by
  unfold Vof; rw [Function.update_self, gAt_self]
omit [FloatOps F] [∀ e, Nonempty (Elt F e)] in
theorem Vof_ne (d : Dev nD) (g : Buf (Elt F) (xLoc d)) (c : Dev nD) (b : Ref sig .tc) (h : b ≠ main_v0) : Vof m d g c b = m ((c : Thread nD τ).loc b) := by
  unfold Vof; exact Function.update_of_ne h _ _

/-- What follows the SparseCore call, in the pallas_calls' own signature. -/
def tailP : Prog (TpuEff nD τ sig (Elt F) (ΛP (F := F)) .tc) PUnit := do
  Prog.lift (.customCall (Pipeline.entry 0) ())
  hlo rfl (StableHlo.reshape main_v1 main_v2 rfl shapeCasts_S4x1x4096_S16384) (fun _ => .ret ⟨⟩)
  pure ⟨⟩

theorem main_eq (d : Dev nD) : main (F := F) d = ((K (F := F)).run d 0 >>= fun _ => SparseCore.liftProg (Q := 1) (tailP (F := F))) := rfl

/-- The final reshape. -/
abbrev opR : HloOp τ sig (Elt F) := StableHlo.reshape main_v1 main_v2 rfl shapeCasts_S4x1x4096_S16384
abbrev v1' : DevRef τ sig := Proc.devRef .tc (main_v1 : Ref sig .tc)
abbrev v2' : DevRef τ sig := Proc.devRef .tc (main_v2 : Ref sig .tc)

/-- The device's valuation before the reshape: the launch's, the pallas_call's result at `o`. -/
def Fv (d : Dev nD) (o : Buf (Elt F) (aLoc main_v1 d)) : Valuation τ sig (Elt F) := Function.update (fun b => m (d, b)) v1' o

/-- The result array, as a function of the gathered array. -/
def Rv (d : Dev nD) (g : Buf (Elt F) (xLoc d)) : Buf (Elt F) (aLoc main_v2 d) :=
  (opR (F := F)).result (Fv m d (TcRegion.out1 (Vof m d g) d)) v2'

omit [FloatOps F] [∀ e, Nonempty (Elt F e)] in
theorem unscopedBufs_eq (d : Dev nD) (W : (b : Ref sig .tc) → Buf (Elt F) ((d.tc : Thread nD τ).loc b)) :
    (unscopedBufs d W : sProp 𝕄)
      = iprop((aLoc main_arg0 d ↦{fullShare} W main_arg0) ∗ (aLoc main_arg1 d ↦{fullShare} W main_arg1) ∗ (aLoc main_arg2 d ↦{fullShare} W main_arg2) ∗ (aLoc main_arg3 d ↦{fullShare} W main_arg3)
        ∗ (aLoc main_arg4 d ↦{fullShare} W main_arg4) ∗ (aLoc main_arg5 d ↦{fullShare} W main_arg5) ∗ (aLoc main_arg6 d ↦{fullShare} W main_arg6) ∗ (aLoc main_arg7 d ↦{fullShare} W main_arg7)
        ∗ (aLoc main_arg8 d ↦{fullShare} W main_arg8) ∗ (aLoc main_arg9 d ↦{fullShare} W main_arg9) ∗ (aLoc main_v0 d ↦{fullShare} W main_v0) ∗ (aLoc main_v1 d ↦{fullShare} W main_v1)
        ∗ aLoc main_v2 d ↦{fullShare} W main_v2) := by
  unfold unscopedBufs
  rw [show (Finset.univ.filter fun b : Ref sig .tc => ¬ b.isScoped) = {main_arg0, main_arg1, main_arg2, main_arg3, main_arg4, main_arg5, main_arg6, main_arg7, main_arg8, main_arg9, main_v0, main_v1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] [∀ e, Nonempty (Elt F e)] in
theorem opBufs_eq (d : Dev nD) (W : Valuation τ sig (Elt F)) :
    (bigSep (opR (F := F)).bufs (fun b => ((d, b) : Loc nD τ sig) ↦{fullShare} W b) : sProp 𝕄)
      = iprop((aLoc main_v1 d ↦{fullShare} W v1') ∗ aLoc main_v2 d ↦{fullShare} W v2') := by
  show bigSep ({v1', v2'} : Finset (DevRef τ sig)) (fun b => ((d, b) : Loc nD τ sig) ↦{fullShare} W b) = _
  rw [SparseCore.bigSep_insert' (by decide), bigSep_singleton]

/-- The call's operands, all tiles at once, are the five whole arrays; -/
theorem st_eq (d : Dev nD) :
    (bigSep Finset.univ fun c : Fin ((K (F := F)).nCore 0) => (P m GA GB).st 0 d c)
      = iprop((uLoc d ↦{fullShare} m (uLoc d)) ∗ (iLoc d ↦{fullShare} m (iLoc d)) ∗ (tuLoc d ↦{fullShare} m (tuLoc d)) ∗ (tiLoc d ↦{fullShare} m (tiLoc d)) ∗ xLoc d ↦{fullShare} m (xLoc d)) := by
  have e : (bigSep Finset.univ fun c : Fin ((K (F := F)).nCore 0) => (P m GA GB).st 0 d c) = bigSep Finset.univ fun t : Tile => goRes m d (Lp t) :=
    (bigSep_univ_prod (fun t : Tile => goRes m d (Lp t))).symm
  rw [e]
  unfold goRes uPts iPts tuPts tiPts
  rw [bigSep_sep', bigSep_sep', bigSep_sep', bigSep_sep', ← u_split, ← i_split, ← table_split, ← table_split, ← x_split]
/-- its results the same, the gathered array piece by piece. -/
theorem dn_eq (d : Dev nD) :
    (bigSep Finset.univ fun c : Fin ((K (F := F)).nCore 0) => (P m GA GB).dn 0 d c)
      = iprop((uLoc d ↦{fullShare} m (uLoc d)) ∗ (iLoc d ↦{fullShare} m (iLoc d)) ∗ (tuLoc d ↦{fullShare} m (tuLoc d)) ∗ (tiLoc d ↦{fullShare} m (tiLoc d))
          ∗ bigSep Finset.univ fun t : Tile => iprop((∃ f, ⌜GA d (Lp t) f⌝ ∗ xAPts d (Lp t) f) ∗ (∃ f, ⌜GB d (Lp t) f⌝ ∗ xBPts d (Lp t) f))) := by
  have e : (bigSep Finset.univ fun c : Fin ((K (F := F)).nCore 0) => (P m GA GB).dn 0 d c) = bigSep Finset.univ fun t : Tile => tdRes m d (Lp t) GA GB :=
    (bigSep_univ_prod (fun t : Tile => tdRes m d (Lp t) GA GB)).symm
  rw [e]
  unfold tdRes uPts iPts tuPts tiPts
  rw [bigSep_sep', bigSep_sep', bigSep_sep', bigSep_sep', ← u_split, ← i_split, ← table_split, ← table_split]

end Main

section MainObligation

variable [∀ e, Nonempty (Elt F e)]

/-- The recorded waits the TensorCore may carry past the pallas_call: those at or below level 8. -/
def Bw (d : Dev nD) : Set (SemLoc sig × HIx 1) := {p | (K (F := F)).lev (SparseCore.T d, p.1) p.2 ≤ 8}

/-- What @main leaves the claim: the ten arguments as they were, the result array a named function of a gathered array of
    which every tile's predicates hold. -/
def FIN (d : Dev nD) : sProp 𝕄 :=
  iprop((aLoc main_arg0 d ↦{fullShare} m (aLoc main_arg0 d)) ∗ (aLoc main_arg1 d ↦{fullShare} m (aLoc main_arg1 d)) ∗ (aLoc main_arg2 d ↦{fullShare} m (aLoc main_arg2 d))
    ∗ (aLoc main_arg3 d ↦{fullShare} m (aLoc main_arg3 d)) ∗ (aLoc main_arg4 d ↦{fullShare} m (aLoc main_arg4 d)) ∗ (aLoc main_arg5 d ↦{fullShare} m (aLoc main_arg5 d))
    ∗ (aLoc main_arg6 d ↦{fullShare} m (aLoc main_arg6 d)) ∗ (aLoc main_arg7 d ↦{fullShare} m (aLoc main_arg7 d)) ∗ (aLoc main_arg8 d ↦{fullShare} m (aLoc main_arg8 d))
    ∗ (aLoc main_arg9 d ↦{fullShare} m (aLoc main_arg9 d))
    ∗ ∃ g, ⌜∀ t : Tile, GA d (Lp t) g ∧ GB d (Lp t) g⌝ ∗ aLoc main_v2 d ↦{fullShare} Rv m d g)

set_option maxHeartbeats 4000000 in
set_option maxRecDepth 16384 in
/-- @main on device `d`'s TensorCore: the SparseCore call on the whole arrays, the pallas_call as one region step on the
    gathered array, the reshape. -/
theorem hmain (hl : Local GA GB) (κ : GSem nD τ sig → ℕ) (d : Dev nD) :
    iprop((K (F := F)).ctx EH (P m GA GB) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m GA GB d) := by
  unfold SparseCore.Cfg.tcRes
  rw [unscopedBufs_eq, main_eq, wp_bind]
  iintro ⟨#Hctx, Hst, ⟨Hb, ⟨H0, H1, H2, H3, H4, H5, H6, H7, H8, H9, Hx, Hv1, Hv2⟩, -, -⟩, ⟨Hcg, Hti⟩⟩
  ihave Hlev := (SparseCore.Cfg.ctx_levAts κ) $$ Hctx
  iapply ((K (F := F)).wp_run (D (F := F)) 𝒱 (EH := EH) (P := P m GA GB) κ d 0) $$ [Hst H0 H1 H2 H3 Hx Hb H4 H5 H6 H7 H8 H9 Hv1 Hv2 Hcg Hti]
  isplitr; · iexact Hctx
  isplitl [Hst]; · iexact Hst
  isplitl [H0 H1 H2 H3 Hx]
  · rw [st_eq]
    isplitl [H0]; · iexact H0
    isplitl [H1]; · iexact H1
    isplitl [H2]; · iexact H2
    isplitl [H3]; · iexact H3
    iexact Hx
  iintro ⟨Hst, Hdn⟩
  ihave Hdn' := (Entails.of_eq (dn_eq m GA GB d)) $$ Hdn
  icases Hdn' with ⟨H0, H1, H2, H3, Hx⟩
  ihave Hx' := (x_join GA GB hl d) $$ Hx
  icases Hx' with ⟨%g, %hg, Hx⟩
  -- the rest of @main, in the pallas_calls' own signature
  iapply ((K (F := F)).wp_liftProg (D (F := F)) 𝒱 (SparseCore.T d) Set.univ none (tailP (F := F)) _)
  unfold tailP
  simp only [bind_assoc, wp_bind, wp_pure]
  unfold SparseCore.Cfg.tcSt
  icases Hst with ⟨⟨%W, %hW, HO⟩, Hrest⟩
  rw [(K (F := F)).Otc_end d (le_refl 1)]
  iapply (TcRegion.region_wp (Vof m d g) (Bw (F := F)) 𝒱₀ (none : HIx 1) (K (F := F)).L (K (F := F)).lev (EP (F := F)) d _ _) $$ [Hb Hx H4 H5 H6 H7 H8 H9 Hv1 HO Hcg Hti H0 H1 H2 H3 Hv2 Hrest]
  isplitr [Hb Hx H4 H5 H6 H7 H8 H9 Hv1 HO Hcg Hti]
  swap
  · isplitl [Hb]; · iexact Hb
    isplitl [Hx H4 H5 H6 H7 H8 H9 Hv1 HO]
    · isplitl [Hx H4 H5 H6 H7 H8 H9 Hv1]
      · unfold TcRegion.held
        rw [Vof_v0, Vof_ne m d g d main_arg4 (by decide), Vof_ne m d g d main_arg5 (by decide), Vof_ne m d g d main_arg6 (by decide), Vof_ne m d g d main_arg7 (by decide),
          Vof_ne m d g d main_arg8 (by decide), Vof_ne m d g d main_arg9 (by decide), Vof_ne m d g d main_v1 (by decide)]
        isplitl [Hx]; · iexact Hx
        isplitl [H4]; · iexact H4
        isplitl [H5]; · iexact H5
        isplitl [H6]; · iexact H6
        isplitl [H7]; · iexact H7
        isplitl [H8]; · iexact H8
        isplitl [H9]; · iexact H9
        iexact Hv1
      · unfold Pipeline.owesWithin
        iexists W; isplitr
        · ipureintro; exact fun p hp => hW p hp
        · iexact HO
    isplitr; · iexact Hlev
    isplitl [Hcg]; · iexact Hcg
    iexact Hti
  iintro ⟨Hb, Hheld, HO⟩
  unfold TcRegion.held
  rw [Vof_v0, Vof_ne m d g d main_arg4 (by decide), Vof_ne m d g d main_arg5 (by decide), Vof_ne m d g d main_arg6 (by decide), Vof_ne m d g d main_arg7 (by decide),
    Vof_ne m d g d main_arg8 (by decide), Vof_ne m d g d main_arg9 (by decide)]
  icases Hheld with ⟨Hx, H4, H5, H6, H7, H8, H9, Hv1⟩
  -- the reshape
  rw [wp_ret]; imodintro
  iapply (wp_hlo 𝒱 (SparseCore.T d) none Set.univ (op := opR (F := F)) (q := fun _ => fullShare) (F := Fv m d (TcRegion.out1 (Vof m d g) d)) (fun _ _ => rfl)) $$ [Hb Hv1 Hv2]
  · isplitl [Hb]; · iexact Hb
    rw [opBufs_eq]
    isplitl [Hv1]
    · rw [show Fv m d (TcRegion.out1 (Vof m d g) d) v1' = TcRegion.out1 (Vof m d g) d from Function.update_self _ _ _]; iexact Hv1
    · rw [show Fv m d (TcRegion.out1 (Vof m d g) d) v2' = m (aLoc main_v2 d) from Function.update_of_ne (show v2' ≠ v1' by decide) _ _]; iexact Hv2
  rw [opBufs_eq]
  iintro ⟨Hb, -, Hv2⟩
  rw [wp_ret]; imodintro; imodintro
  isplitl [HO Hrest]
  · isplitl [HO]
    · unfold Pipeline.owesWithin
      icases HO with ⟨%W', %hW', HO⟩
      iexists W'; isplitr
      · ipureintro
        intro p hp
        rcases hW' hp with h | ⟨w, s, rfl⟩
        · exact h
        · show (K (F := F)).lev _ none ≤ 8 * 1
          rw [SparseCore.Cfg.lev_none]; omega
      · iexact HO
    · iexact Hrest
  unfold FIN
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists g; isplitr
  · ipureintro; exact hg
  · iexact Hv2

end MainObligation

/-! ## The program's run -/

section Run

variable [∀ e, Nonempty (Elt F e)]

/-- What the claim reads of device `d`'s final state. -/
def fq (d : Dev nD) (s' : Phys nD τ sig (Elt F)) : Prop :=
  (∃ g, (∀ t : Tile, GA d (Lp t) g ∧ GB d (Lp t) g) ∧ s'.mem.mem (aLoc main_v2 d) = Rv m d g)
  ∧ s'.mem.mem (aLoc main_arg0 d) = m (aLoc main_arg0 d) ∧ s'.mem.mem (aLoc main_arg1 d) = m (aLoc main_arg1 d) ∧ s'.mem.mem (aLoc main_arg2 d) = m (aLoc main_arg2 d)
  ∧ s'.mem.mem (aLoc main_arg3 d) = m (aLoc main_arg3 d) ∧ s'.mem.mem (aLoc main_arg4 d) = m (aLoc main_arg4 d) ∧ s'.mem.mem (aLoc main_arg5 d) = m (aLoc main_arg5 d)
  ∧ s'.mem.mem (aLoc main_arg6 d) = m (aLoc main_arg6 d) ∧ s'.mem.mem (aLoc main_arg7 d) = m (aLoc main_arg7 d) ∧ s'.mem.mem (aLoc main_arg8 d) = m (aLoc main_arg8 d)
  ∧ s'.mem.mem (aLoc main_arg9 d) = m (aLoc main_arg9 d)

omit [FloatOps F] [∀ e, Nonempty (Elt F e)] in
/-- A whole buffer held at `f` beside the state interpretation: the memory holds `f` there. -/
theorem agree_whole (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

set_option maxRecDepth 16384 in
theorem hfin (d : Dev nD) (s' : Phys nD τ sig (Elt F)) : iprop(FIN m GA GB d ∗ SI s') ⊢ (⌜fq m GA GB d s'⌝ : sProp 𝕄) := by
  unfold FIN
  iintro ⟨⟨H0, H1, H2, H3, H4, H5, H6, H7, H8, H9, %g, %hg, Hv2⟩, HSI⟩
  ihave A := (agree_whole s' _ _) $$ [HSI H0]; · isplitl [HSI] <;> iassumption
  icases A with ⟨%e0, HSI⟩
  ihave A := (agree_whole s' _ _) $$ [HSI H1]; · isplitl [HSI] <;> iassumption
  icases A with ⟨%e1, HSI⟩
  ihave A := (agree_whole s' _ _) $$ [HSI H2]; · isplitl [HSI] <;> iassumption
  icases A with ⟨%e2, HSI⟩
  ihave A := (agree_whole s' _ _) $$ [HSI H3]; · isplitl [HSI] <;> iassumption
  icases A with ⟨%e3, HSI⟩
  ihave A := (agree_whole s' _ _) $$ [HSI H4]; · isplitl [HSI] <;> iassumption
  icases A with ⟨%e4, HSI⟩
  ihave A := (agree_whole s' _ _) $$ [HSI H5]; · isplitl [HSI] <;> iassumption
  icases A with ⟨%e5, HSI⟩
  ihave A := (agree_whole s' _ _) $$ [HSI H6]; · isplitl [HSI] <;> iassumption
  icases A with ⟨%e6, HSI⟩
  ihave A := (agree_whole s' _ _) $$ [HSI H7]; · isplitl [HSI] <;> iassumption
  icases A with ⟨%e7, HSI⟩
  ihave A := (agree_whole s' _ _) $$ [HSI H8]; · isplitl [HSI] <;> iassumption
  icases A with ⟨%e8, HSI⟩
  ihave A := (agree_whole s' _ _) $$ [HSI H9]; · isplitl [HSI] <;> iassumption
  icases A with ⟨%e9, HSI⟩
  ihave A := (agree_whole s' _ _) $$ [HSI Hv2]; · isplitl [HSI] <;> iassumption
  icases A with ⟨%ev, -⟩
  ipureintro
  exact ⟨⟨g, hg, ev⟩, e0, e1, e2, e3, e4, e5, e6, e7, e8, e9⟩

/-- The run's post: on every device, the result array is the named function of a gathered array of which every tile's
    predicates hold, and the ten arguments are as they were. -/
def QC : PUnit × MemSt nD τ sig (Elt F) → Prop := fun r => ∀ c : Dev nD,
  (∃ g, (∀ t : Tile, GA c (Lp t) g ∧ GB c (Lp t) g) ∧ r.2.mem (aLoc main_v2 c) = Rv m c g)
  ∧ r.2.mem (aLoc main_arg0 c) = m (aLoc main_arg0 c) ∧ r.2.mem (aLoc main_arg1 c) = m (aLoc main_arg1 c) ∧ r.2.mem (aLoc main_arg2 c) = m (aLoc main_arg2 c)
  ∧ r.2.mem (aLoc main_arg3 c) = m (aLoc main_arg3 c) ∧ r.2.mem (aLoc main_arg4 c) = m (aLoc main_arg4 c) ∧ r.2.mem (aLoc main_arg5 c) = m (aLoc main_arg5 c)
  ∧ r.2.mem (aLoc main_arg6 c) = m (aLoc main_arg6 c) ∧ r.2.mem (aLoc main_arg7 c) = m (aLoc main_arg7 c) ∧ r.2.mem (aLoc main_arg8 c) = m (aLoc main_arg8 c)
  ∧ r.2.mem (aLoc main_arg9 c) = m (aLoc main_arg9 c)

/-- Every weakly fair execution of the kernel's threads terminates, nothing faulting, in a state the post describes. -/
theorem run_main (hpre : PreOK m) (hG : Leaves m GA GB) (hl : Local GA GB) :
    θ_run (Cert.KernelIdeal.defs (F := F)) (Cert.KernelIdeal.threads (F := F)) ⟨m, fun _ => 0, ρ⟩ (QC m GA GB) :=
  SparseCore.Cfg.θ_run_sc (K := K (F := F)) (D := D (F := F)) (𝒱 := 𝒱) (EH := EH) (P := P m GA GB) facts v₀
    (fun q hq => match q with | 0 => nomatch hq)
    (fun q _ => match q with | 0 => tileObl m GA GB facts hpre hG)
    (fun q _ => match q with | 0 => SparseCore.Cfg.VecSplit.of_plain (vecSplit m GA GB))
    m ρ main (fun d => Gd (F := F) d) (FIN m GA GB) (u₀ (F := F)) (sep_elim_left.trans (hu₀ m GA GB)) (hmain m ρ GA GB hl) (fq m GA GB) (hfin m GA GB) (QC m GA GB) (fun _ h => h)

end Run

end Cert.KernelIdeal.Sc

end
-- ==== Proof.ScBBody.lean ====
import proofs.«201248_g17051020165207_cont_7to1_1438_30_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«201248_g17051020165207_cont_7to1_1438_30_alg».proof.Proof.Gen.Kernel
import proofs.«201248_g17051020165207_cont_7to1_1438_30_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-!
  The SparseCore call of the kernel, one tile at a time.

  Tile `(c, s)` of the two SparseCores' sixteen tiles each handles batch rows `512 * (2 s + c)` to
  `512 * (2 s + c) + 511`: it copies those 512 user words and 512 item words into its two index buffers, gathers the
  user table's rows the first list names into its row buffer and copies that out to columns 0 to 127 of its rows of the
  gathered array, then does the same with the item table and columns 128 to 255. Every copy is waited for before the
  next one starts, so the row buffer is never read or written while a copy on it is pending. Both gathers need every
  list word to name a table row: that is what the precondition gives (`PreOK`).

  A tile holds: its 512 words of each id array, a thirty-second share of each table (every tile reads both tables
  whole), and its two 512 × 128 pieces of the gathered array; it hands all of them back, the two pieces at contents
  satisfying `GA` and `GB`, predicates the caller chooses (trivial for a frame; the gathered rows for the value).
-/

/-! ## The program as the launch theorem reads it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pallas_call's staging cells' rounds, the transfers' counters -/

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

abbrev uLoc (d : Dev nD) : Loc nD τ sig := (SparseCore.T d).loc main_arg0
abbrev iLoc (d : Dev nD) : Loc nD τ sig := (SparseCore.T d).loc main_arg1
abbrev tuLoc (d : Dev nD) : Loc nD τ sig := (SparseCore.T d).loc main_arg2
abbrev tiLoc (d : Dev nD) : Loc nD τ sig := (SparseCore.T d).loc main_arg3
abbrev xLoc (d : Dev nD) : Loc nD τ sig := (SparseCore.T d).loc main_v0

local notation "uV" => (Memref.whole Cert.Kernel.main_arg0_scv : Memref Cert.Kernel.sig Kind.scVector Space.hbm Cert.Kernel.S16384 EltTy.i32)
local notation "iV" => (Memref.whole Cert.Kernel.main_arg1_scv : Memref Cert.Kernel.sig Kind.scVector Space.hbm Cert.Kernel.S16384 EltTy.i32)
local notation "tuV" => (Memref.whole Cert.Kernel.main_arg2_scv : Memref Cert.Kernel.sig Kind.scVector Space.hbm Cert.Kernel.S100000x128 EltTy.f32)
local notation "tiV" => (Memref.whole Cert.Kernel.main_arg3_scv : Memref Cert.Kernel.sig Kind.scVector Space.hbm Cert.Kernel.S100000x128 EltTy.f32)
local notation "xV" => (Memref.whole Cert.Kernel.main_v0_scv : Memref Cert.Kernel.sig Kind.scVector Space.hbm Cert.Kernel.S16384x256 EltTy.f32)
local notation "suV" => (Memref.whole Cert.Kernel.cc0_scratch0 : Memref Cert.Kernel.sig Kind.scVector Space.vmem Cert.Kernel.S512 EltTy.i32)
local notation "siV" => (Memref.whole Cert.Kernel.cc0_scratch1 : Memref Cert.Kernel.sig Kind.scVector Space.vmem Cert.Kernel.S512 EltTy.i32)
local notation "rV" => (Memref.whole Cert.Kernel.cc0_scratch2 : Memref Cert.Kernel.sig Kind.scVector Space.vmem Cert.Kernel.S512x128 EltTy.f32)

/-! ## A tile's pieces, spelt as its program slices them -/

/-- The 512 id words of tile `L`: words `512 * (2 * L 1 + L 0)` onwards of the user ids, -/
abbrev uSl (L : grid0.Coords) : Memref sig .scVector .hbm S512 .i32 := (uV).slice (Rect.unit (s := S16384) (k0_off1 L) S512.size (k0_off1_inb L)) (fun _ => rfl)
/-- and of the item ids. -/
abbrev iSl (L : grid0.Coords) : Memref sig .scVector .hbm S512 .i32 := (iV).slice (Rect.unit (s := S16384) (k0_off1 L) S512.size (k0_off1_inb L)) (fun _ => rfl)
/-- The tile's 512 rows of the gathered array: columns 0 to 127, -/
abbrev xSlA (L : grid0.Coords) : Memref sig .scVector .hbm S512x128 .f32 := (xV).slice (Rect.unit (s := S16384x256) (k0_off2 L) S512x128.size (k0_off2_inb L)) (fun _ => rfl)
/-- and columns 128 to 255. -/
abbrev xSlB (L : grid0.Coords) : Memref sig .scVector .hbm S512x128 .f32 := (xV).slice (Rect.unit (s := S16384x256) (k0_off3 L) S512x128.size (k0_off3_inb L)) (fun _ => rfl)
/-- Each table whole, as the gather addresses it. -/
abbrev tuAll : Memref sig .scVector .hbm S100000x128 .f32 := (tuV).slice (Rect.unit (s := S100000x128) ![0, 0] S100000x128.size inb_S100000x128_S100000x128_0_0) (fun _ => rfl)
abbrev tiAll : Memref sig .scVector .hbm S100000x128 .f32 := (tiV).slice (Rect.unit (s := S100000x128) ![0, 0] S100000x128.size inb_S100000x128_S100000x128_0_0) (fun _ => rfl)

abbrev cV (L : grid0.Coords) : Fin τ.nSC := (L 0).castLE hcore0
abbrev jV (L : grid0.Coords) : Fin τ.nSub := (L 1).castLE hsub0

variable [FloatOps F]

/-- What the proof asks of the launch memory: every id word names a table row. -/
def PreOK : Prop := ∀ (d : Dev nD), (∀ j, (m (uLoc d) j).toNat < 100000) ∧ (∀ j, (m (iLoc d) j).toNat < 100000)

/-! ## Shares: a share halved `n` times has `2 ^ n` leaves -/

omit [FloatOps F] in
/-- Leaf `i` of share `q` halved `n` times over: the left half holds the leaves below `2 ^ (n - 1)`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by have := i.isLt; omega⟩

/-- Tile `(c, s)`'s share of a table: the full share halved five times, leaf `16 c + s`. -/
def tileShare (L : grid0.Coords) : PosShare TreeShare :=
  leaf 5 fullShare ⟨16 * (L 0).val + (L 1).val, by
    have h0 : (L 0).val < 2 := (L 0).isLt
    have h1 : (L 1).val < 16 := (L 1).isLt
    have : (2 : ℕ) ^ 5 = 32 := by norm_num
    omega⟩

/-! ## What a tile is handed and hands back -/

section Tile

variable (d : Dev nD) (L : grid0.Coords)
variable (GA GB : (d : Dev nD) → grid0.Coords → Buf (Elt F) (xLoc d) → Prop)

abbrev uPts : sProp 𝕄 := uLoc d ↦[(uSl L).view.set]{fullShare} m (uLoc d)
abbrev iPts : sProp 𝕄 := iLoc d ↦[(iSl L).view.set]{fullShare} m (iLoc d)
abbrev tuPts : sProp 𝕄 := tuLoc d ↦{tileShare L} m (tuLoc d)
abbrev tiPts : sProp 𝕄 := tiLoc d ↦{tileShare L} m (tiLoc d)
abbrev xAPts (f : Buf (Elt F) (xLoc d)) : sProp 𝕄 := xLoc d ↦[(xSlA L).view.set]{fullShare} f
abbrev xBPts (f : Buf (Elt F) (xLoc d)) : sProp 𝕄 := xLoc d ↦[(xSlB L).view.set]{fullShare} f

/-- Handed to the tile: its id words, its shares of the tables, its two pieces of the gathered array as the launch left them. -/
def goRes : sProp 𝕄 := iprop(uPts m d L ∗ iPts m d L ∗ tuPts m d L ∗ tiPts m d L ∗ xAPts d L (m (xLoc d)) ∗ xBPts d L (m (xLoc d)))
/-- Handed back: the same, the two pieces at contents of which `GA` and `GB` hold. -/
def tdRes : sProp 𝕄 :=
  iprop(uPts m d L ∗ iPts m d L ∗ tuPts m d L ∗ tiPts m d L ∗ (∃ f, ⌜GA d L f⌝ ∗ xAPts d L f) ∗ (∃ f, ⌜GB d L f⌝ ∗ xBPts d L f))

/-! ## The values the run names, written out -/

/-- The list-in-range fact as the run meets it: whatever the index buffer held before, once the tile's words are copied in, every word read back is below the table's row count. -/
abbrev ListOK (sc : Memref sig .scVector .vmem S512 .i32) (src : Memref sig .scVector .hbm S512 .i32) (g : Buf (Elt F) (src.view.loc (V d (cV L) (jV L)))) : Prop :=
  ∀ (f : Buf (Elt F) (sc.view.loc (V d (cV L) (jV L)))) x,
    (sc.view.read (Elt F) (View.write (Elt F) sc.view f (src.view.read (Elt F) g) Finset.univ) x).toNat < S100000x128.size gathers_S100000x128_S512x128.axis

/-- The rows the first gather lands: row `k` is the user table's row named by word `k` of the tile's user words. -/
def rawGU (fsu : Buf (Elt F) ((V d (cV L) (jV L)).loc cc0_scratch0)) (h : ListOK d L suV (uSl L) (m (uLoc d))) : S512x128.Idx → Elt F .f32 :=
  SparseCore.gatherPayload gathers_S100000x128_S512x128 ((tuAll).view.read (Elt F) (m (tuLoc d)))
    (SparseCore.rows ((suV).view.read (Elt F) (View.write (Elt F) (suV).view fsu (ReadAs.same.apply ((uSl L).view.read (Elt F) (m (uLoc d)))) Finset.univ)) rfl (h fsu))
/-- and the second: the item table's rows named by the tile's item words. -/
def rawGI (fsi : Buf (Elt F) ((V d (cV L) (jV L)).loc cc0_scratch1)) (h : ListOK d L siV (iSl L) (m (iLoc d))) : S512x128.Idx → Elt F .f32 :=
  SparseCore.gatherPayload gathers_S100000x128_S512x128 ((tiAll).view.read (Elt F) (m (tiLoc d)))
    (SparseCore.rows ((siV).view.read (Elt F) (View.write (Elt F) (siV).view fsi (ReadAs.same.apply ((iSl L).view.read (Elt F) (m (iLoc d)))) Finset.univ)) rfl (h fsi))
/-- What the first copy-out carries: the row buffer read back after the first gather. -/
def rawA (fsu : Buf (Elt F) ((V d (cV L) (jV L)).loc cc0_scratch0)) (fr : Buf (Elt F) ((V d (cV L) (jV L)).loc cc0_scratch2)) (h : ListOK d L suV (uSl L) (m (uLoc d))) : S512x128.Idx → Elt F .f32 :=
  ReadAs.same.apply ((rV).view.read (Elt F) ((rV).view.writes (Elt F) fr [⟨Rect.whole _, rawGU m d L fsu h⟩]))
/-- What the second carries: the row buffer read back after the second gather landed over the first. -/
def rawB (fsu : Buf (Elt F) ((V d (cV L) (jV L)).loc cc0_scratch0)) (fsi : Buf (Elt F) ((V d (cV L) (jV L)).loc cc0_scratch1)) (fr : Buf (Elt F) ((V d (cV L) (jV L)).loc cc0_scratch2)) (h : ListOK d L suV (uSl L) (m (uLoc d))) (h' : ListOK d L siV (iSl L) (m (iLoc d))) : S512x128.Idx → Elt F .f32 :=
  ReadAs.same.apply ((rV).view.read (Elt F) ((rV).view.writes (Elt F) fr [⟨Rect.whole _, rawGI m d L fsi h'⟩, ⟨Rect.whole _, rawGU m d L fsu h⟩]))

/-- Under the precondition the user list is in range: a whole write read back whole is the payload, the tile's words. -/
theorem listOK_u (hpre : PreOK m) : ListOK d L suV (uSl L) (m (uLoc d)) := by
  intro f x
  rw [View.write_whole_univ]
  simp only [Memref.view_whole, View.read_whole]
  rw [show ∀ j, (uSl L).view.read (Elt F) (m (uLoc d)) j = m (uLoc d) ((uSl L).view.emb j) from fun j => (View.read_apply _ _).trans (cast_eq _ _)]
  exact (hpre d).1 _
theorem listOK_i (hpre : PreOK m) : ListOK d L siV (iSl L) (m (iLoc d)) := by
  intro f x
  rw [View.write_whole_univ]
  simp only [Memref.view_whole, View.read_whole]
  rw [show ∀ j, (iSl L).view.read (Elt F) (m (iLoc d)) j = m (iLoc d) ((iSl L).view.emb j) from fun j => (View.read_apply _ _).trans (cast_eq _ _)]
  exact (hpre d).2 _

/-! ## The tile's own cells and buffers among its scoped storage -/

abbrev cell (s : DmaSems sig S_) : GSem nD τ sig := (V d (cV L) (jV L), .dma s.sem)

end Tile

section TileRun

variable [FloatOps F]
variable (d : Dev nD) (L : grid0.Coords)
variable (GA GB : (d : Dev nD) → grid0.Coords → Buf (Elt F) (xLoc d) → Prop)

omit [FloatOps F] in
theorem pts_u (f : Buf (Elt F) (uLoc d)) :
    ((uSl L).view.loc (V d (cV L) (jV L)) ↦[(uSl L).view.set]{fullShare} f : sProp 𝕄) = uLoc d ↦[(uSl L).view.set]{fullShare} f := rfl
omit [FloatOps F] in
theorem pts_i (f : Buf (Elt F) (iLoc d)) :
    ((iSl L).view.loc (V d (cV L) (jV L)) ↦[(iSl L).view.set]{fullShare} f : sProp 𝕄) = iLoc d ↦[(iSl L).view.set]{fullShare} f := rfl
omit [FloatOps F] in
theorem pts_tu (q : PosShare TreeShare) (f : Buf (Elt F) (tuLoc d)) :
    ((tuV).view.loc (V d (cV L) (jV L)) ↦{q} f : sProp 𝕄) = tuLoc d ↦{q} f := rfl
omit [FloatOps F] in
theorem pts_ti (q : PosShare TreeShare) (f : Buf (Elt F) (tiLoc d)) :
    ((tiV).view.loc (V d (cV L) (jV L)) ↦{q} f : sProp 𝕄) = tiLoc d ↦{q} f := rfl
omit [FloatOps F] in
theorem pts_xA (f : Buf (Elt F) (xLoc d)) :
    ((xSlA L).view.loc (V d (cV L) (jV L)) ↦[(xSlA L).view.set]{fullShare} f : sProp 𝕄) = xLoc d ↦[(xSlA L).view.set]{fullShare} f := rfl
omit [FloatOps F] in
theorem pts_xB (f : Buf (Elt F) (xLoc d)) :
    ((xSlB L).view.loc (V d (cV L) (jV L)) ↦[(xSlB L).view.set]{fullShare} f : sProp 𝕄) = xLoc d ↦[(xSlB L).view.set]{fullShare} f := rfl

omit [FloatOps F] in
theorem pts_su (f : Buf (Elt F) ((V d (cV L) (jV L)).loc cc0_scratch0)) :
    ((suV).view.loc (V d (cV L) (jV L)) ↦{fullShare} f : sProp 𝕄) = (V d (cV L) (jV L)).loc cc0_scratch0 ↦{fullShare} f := rfl
omit [FloatOps F] in
theorem pts_si (f : Buf (Elt F) ((V d (cV L) (jV L)).loc cc0_scratch1)) :
    ((siV).view.loc (V d (cV L) (jV L)) ↦{fullShare} f : sProp 𝕄) = (V d (cV L) (jV L)).loc cc0_scratch1 ↦{fullShare} f := rfl
omit [FloatOps F] in
theorem pts_r (f : Buf (Elt F) ((V d (cV L) (jV L)).loc cc0_scratch2)) :
    ((rV).view.loc (V d (cV L) (jV L)) ↦{fullShare} f : sProp 𝕄) = (V d (cV L) (jV L)).loc cc0_scratch2 ↦{fullShare} f := rfl

/-- The tile's five DMA cells at zero and the rest of its scoped cells. -/
theorem ownSems0_V :
    (ownSems0 (V d (cV L) (jV L)) : sProp 𝕄)
      = iprop(semVal (cell d L cc0_scratch3) 0 ∗ semVal (cell d L cc0_scoped0) 0 ∗ semVal (cell d L cc0_scoped1) 0 ∗ semVal (cell d L cc0_scoped2) 0 ∗ semVal (cell d L cc0_scoped3) 0
          ∗ bigSep ((((((ownCells (V d (cV L) (jV L))).erase (cell d L cc0_scratch3)).erase (cell d L cc0_scoped0)).erase (cell d L cc0_scoped1)).erase (cell d L cc0_scoped2)).erase (cell d L cc0_scoped3)) fun g => semVal g 0) := by
  unfold SparseCore.Cfg.ownSems0
  rw [SparseCore.bigSep_erase' ((mem_ownCells (g := cell d L cc0_scratch3)).mpr ⟨rfl, by
      show (SemLoc.dma cc0_scratch3.sem : SemLoc sig).isScoped .scVector = true; decide⟩),
    SparseCore.bigSep_erase' (Finset.mem_erase.mpr ⟨by simp [cell]; decide, (mem_ownCells (g := cell d L cc0_scoped0)).mpr ⟨rfl, by
      show (SemLoc.dma cc0_scoped0.sem : SemLoc sig).isScoped .scVector = true; decide⟩⟩),
    SparseCore.bigSep_erase' (Finset.mem_erase.mpr ⟨by simp [cell]; decide, Finset.mem_erase.mpr ⟨by simp [cell]; decide,
      (mem_ownCells (g := cell d L cc0_scoped1)).mpr ⟨rfl, by show (SemLoc.dma cc0_scoped1.sem : SemLoc sig).isScoped .scVector = true; decide⟩⟩⟩),
    SparseCore.bigSep_erase' (Finset.mem_erase.mpr ⟨by simp [cell]; decide, Finset.mem_erase.mpr ⟨by simp [cell]; decide, Finset.mem_erase.mpr ⟨by simp [cell]; decide,
      (mem_ownCells (g := cell d L cc0_scoped2)).mpr ⟨rfl, by show (SemLoc.dma cc0_scoped2.sem : SemLoc sig).isScoped .scVector = true; decide⟩⟩⟩⟩),
    SparseCore.bigSep_erase' (Finset.mem_erase.mpr ⟨by simp [cell]; decide, Finset.mem_erase.mpr ⟨by simp [cell]; decide, Finset.mem_erase.mpr ⟨by simp [cell]; decide, Finset.mem_erase.mpr ⟨by simp [cell]; decide,
      (mem_ownCells (g := cell d L cc0_scoped3)).mpr ⟨rfl, by show (SemLoc.dma cc0_scoped3.sem : SemLoc sig).isScoped .scVector = true; decide⟩⟩⟩⟩⟩)]

omit [FloatOps F] in
/-- The three scratch buffers are among the tile's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

set_option maxHeartbeats 4000000 in
/-- The task on tile `(L 0, L 1)`: two index fetches, two gathers, two copy-outs, each waited for in turn. -/
theorem tile_body (hF : (K (F := F)).Facts) (hpre : PreOK m) (O : CellTallies nD τ sig (HIx 1)) (W : Waits sig (HIx 1)) (hO : ∀ g, O g none = 0)
    (hGA : ∀ fsu fr h, GA d L ((xSlA L).view.writes (Elt F) (m (xLoc d)) [⟨Rect.whole S512x128, rawA m d L fsu fr h⟩]))
    (hGB : ∀ fsu fsi fr h h', GB d L ((xSlB L).view.writes (Elt F) (m (xLoc d)) [⟨Rect.whole S512x128, rawB m d L fsu fsi fr h h'⟩])) :
    iprop(levAts (K (F := F)).L (K (F := F)).lev ∗ emp ∗ goRes m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L tuV (Memref.isWhole_whole _) tiV (Memref.isWhole_whole _) uV (Memref.isWhole_whole _) iV (Memref.isWhole_whole _) xV (Memref.isWhole_whole _)
            suV (Memref.isWhole_whole _) siV (Memref.isWhole_whole _) rV (Memref.isWhole_whole _) cc0_scratch3 cc0_scoped0 cc0_scoped1 cc0_scoped2 cc0_scoped3)
          fun _ => iprop(tdRes m d L GA GB
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__gather_body_eq_skeleton]; unfold cc0__gather_body_skel
  rw [(K (F := F)).scopedBufs_V hF d (cV L) (jV L), SparseCore.Cfg.scopedSems0_V (Val := Elt F) d (cV L) (jV L), ownSems0_V, ownBufs_V]
  unfold goRes tdRes
  iintro ⟨#Hlv, -, ⟨Hu, Hi, Htu, Hti, HxA, HxB⟩, ⟨⟨%fsu, Hsu⟩, ⟨%fsi, Hsi⟩, ⟨%fr, Hr⟩, Hbufs⟩, ⟨Hs3, Hc0, Hc1, Hc2, Hc3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hu' := (Entails.of_eq (pts_u (F := F) d L _).symm) $$ Hu
  ihave Hi' := (Entails.of_eq (pts_i (F := F) d L _).symm) $$ Hi
  ihave Htu' := (Entails.of_eq (pts_tu (F := F) d L _ _).symm) $$ Htu
  ihave Hti' := (Entails.of_eq (pts_ti (F := F) d L _ _).symm) $$ Hti
  ihave HxA' := (Entails.of_eq (pts_xA (F := F) d L _).symm) $$ HxA
  ihave HxB' := (Entails.of_eq (pts_xB (F := F) d L _).symm) $$ HxB
  ihave Hsu' := (Entails.of_eq (pts_su (F := F) d L _).symm) $$ Hsu
  ihave Hsi' := (Entails.of_eq (pts_si (F := F) d L _).symm) $$ Hsi
  ihave Hr' := (Entails.of_eq (pts_r (F := F) d L _).symm) $$ Hr
  have hinU : ∀ (f : Buf (Elt F) ((V d (cV L) (jV L)).loc cc0_scratch0)) x, ((suV).view.read (Elt F) (View.write (Elt F) (suV).view f ((uSl L).view.read (Elt F) (m (uLoc d))) Finset.univ) x).toNat < S100000x128.size gathers_S100000x128_S512x128.axis := listOK_u m d L hpre
  have hinI : ∀ (f : Buf (Elt F) ((V d (cV L) (jV L)).loc cc0_scratch1)) x, ((siV).view.read (Elt F) (View.write (Elt F) (siV).view f ((iSl L).view.read (Elt F) (m (iLoc d))) Finset.univ) x).toNat < S100000x128.size gathers_S100000x128_S512x128.axis := listOK_i m d L hpre
  sl_exec
  sl_step
  isplitl [Hu' Hi' Htu' Hti' HxA' HxB']
  · isplitl [Hu']; · iexact Hu'
    isplitl [Hi']; · iexact Hi'
    isplitl [Htu']; · iexact Htu'
    isplitl [Hti']; · iexact Hti'
    isplitl [HxA']
    · iexists _; isplitr
      · ipureintro; exact hGA fsu fr hinU
      · iexact HxA'
    · iexists _; isplitr
      · ipureintro; exact hGB fsu fsi fr hinU hinI
      · iexact HxB'
  isplitl [Hsu' Hsi' Hr' Hbufs]
  · isplitl [Hsu']; · iexists _; iexact Hsu'
    isplitl [Hsi']; · iexists _; iexact Hsi'
    isplitl [Hr']; · iexists _; iexact Hr'
    iexact Hbufs
  isplitl [Hs3 Hc0 Hc1 Hc2 Hc3 Hsems]
  · isplitl [Hs3]; · iexact Hs3
    isplitl [Hc0]; · iexact Hc0
    isplitl [Hc1]; · iexact Hc1
    isplitl [Hc2]; · iexact Hc2
    isplitl [Hc3]; · iexact Hc3
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end TileRun

end Cert.Kernel.Sc

end
-- ==== Proof.ScBTiles.lean ====
/-
  The SparseCore call as a whole, and @main around it.

  The call's operands are dealt tile by tile: SparseCore `c` is handed, for each of its sixteen tiles `s`, the tile's 512
  words of each id array (words `512 * (2 s + c)` onwards), a thirty-second share of each table, and the tile's two
  512 × 128 pieces of the gathered array; what a SparseCore is handed is exactly what its tiles are handed, so the split
  among the tiles is the identity. The sixty-four pieces of the gathered array are pairwise disjoint and cover it, as the
  thirty-two word ranges cover each id array: whole arrays go in, whole arrays come out, the gathered one at contents
  that satisfy `GA` and `GB` piece by piece.
-/
import proofs.«201248_g17051020165207_cont_7to1_1438_30_alg».proof.Proof.ScBBody

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)
variable (GA GB : (d : Dev nD) → grid0.Coords → Buf (Elt F) (xLoc d) → Prop)

local notation "uV" => (Memref.whole Cert.Kernel.main_arg0_scv : Memref Cert.Kernel.sig Kind.scVector Space.hbm Cert.Kernel.S16384 EltTy.i32)
local notation "iV" => (Memref.whole Cert.Kernel.main_arg1_scv : Memref Cert.Kernel.sig Kind.scVector Space.hbm Cert.Kernel.S16384 EltTy.i32)
local notation "tuV" => (Memref.whole Cert.Kernel.main_arg2_scv : Memref Cert.Kernel.sig Kind.scVector Space.hbm Cert.Kernel.S100000x128 EltTy.f32)
local notation "tiV" => (Memref.whole Cert.Kernel.main_arg3_scv : Memref Cert.Kernel.sig Kind.scVector Space.hbm Cert.Kernel.S100000x128 EltTy.f32)
local notation "xV" => (Memref.whole Cert.Kernel.main_v0_scv : Memref Cert.Kernel.sig Kind.scVector Space.hbm Cert.Kernel.S16384x256 EltTy.f32)
local notation "suV" => (Memref.whole Cert.Kernel.cc0_scratch0 : Memref Cert.Kernel.sig Kind.scVector Space.vmem Cert.Kernel.S512 EltTy.i32)
local notation "siV" => (Memref.whole Cert.Kernel.cc0_scratch1 : Memref Cert.Kernel.sig Kind.scVector Space.vmem Cert.Kernel.S512 EltTy.i32)
local notation "rV" => (Memref.whole Cert.Kernel.cc0_scratch2 : Memref Cert.Kernel.sig Kind.scVector Space.vmem Cert.Kernel.S512x128 EltTy.f32)

/-! ## Tiles by their coordinates -/

/-- The grid point of SparseCore `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

/-- The grid point of tile `i` of SparseCore `c` of the call's grid. -/
abbrev Lt (c : Fin ((K (F := F)).nCore 0)) (i : Fin ((K (F := F)).nSub 0)) : grid0.Coords := coordsV ⟨c.val, c.isLt⟩ ⟨i.val, i.isLt⟩

/-! ## What the handshakes carry -/

/-- A SparseCore is handed its sixteen tiles' operands and hands back their results; a tile its own. -/
def P : (K (F := F)).Pay (nD := nD) (Val := Elt F) (Name := ℕ) (U := UU) where
  st := fun q d c => match q with | 0 => bigSep Finset.univ fun i : Fin ((K (F := F)).nSub 0) => goRes m d (Lt c i)
  dn := fun q d c => match q with | 0 => bigSep Finset.univ fun i : Fin ((K (F := F)).nSub 0) => tdRes m d (Lt c i) GA GB
  go := fun q d c i => match q with | 0 => goRes m d (Lt c i)
  td := fun q d c i => match q with | 0 => tdRes m d (Lt c i) GA GB
  x := fun _ _ => iprop(emp)

instance goRes_storable (d : Dev nD) (L : grid0.Coords) : BI.Storable (upEmb : UEmb _ 𝕄) (goRes (F := F) m d L) := by
  unfold goRes; infer_instance
instance tdRes_storable (d : Dev nD) (L : grid0.Coords) : BI.Storable (upEmb : UEmb _ 𝕄) (tdRes (F := F) m d L GA GB) := by
  unfold tdRes; infer_instance

instance P_storable : (P (F := F) m GA GB).IsStorable where
  st q d c := match q with
    | 0 => (inferInstance : BI.Storable (upEmb : UEmb _ 𝕄) (bigSep Finset.univ fun i : Fin ((K (F := F)).nSub 0) => goRes m d (Lt c i)))
  dn q d c := match q with
    | 0 => (inferInstance : BI.Storable (upEmb : UEmb _ 𝕄) (bigSep Finset.univ fun i : Fin ((K (F := F)).nSub 0) => tdRes m d (Lt c i) GA GB))
  go q d c i := match q with
    | 0 => (inferInstance : BI.Storable (upEmb : UEmb _ 𝕄) (goRes m d (Lt c i)))
  td q d c i := match q with
    | 0 => (inferInstance : BI.Storable (upEmb : UEmb _ 𝕄) (tdRes m d (Lt c i) GA GB))

/-! ## The obligation -/

theorem defs₀_vector (c : Fin τ.nSC) (s : Fin τ.nSub) :
    defs₀ (F := F) (.scVector c s) 0 ()
      = SparseCore.onTile hcore0 hsub0 (fun c s => cc0__gather_body (coordsV c s)
          tuV (Memref.isWhole_whole _) tiV (Memref.isWhole_whole _) uV (Memref.isWhole_whole _) iV (Memref.isWhole_whole _) xV (Memref.isWhole_whole _)
          suV (Memref.isWhole_whole _) siV (Memref.isWhole_whole _) rV (Memref.isWhole_whole _) cc0_scratch3 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What each tile's two pieces must be shown to satisfy, from the values its run names. -/
def Leaves : Prop :=
  ∀ (d : Dev nD) (L : grid0.Coords),
    (∀ fsu fr h, GA d L ((xSlA L).view.writes (Elt F) (m (xLoc d)) [⟨Rect.whole S512x128, rawA m d L fsu fr h⟩]))
    ∧ (∀ fsu fsi fr h h', GB d L ((xSlB L).view.writes (Elt F) (m (xLoc d)) [⟨Rect.whole S512x128, rawB m d L fsu fsi fr h h'⟩]))

set_option maxRecDepth 16384 in
theorem tileObl (hF : (K (F := F)).Facts) (hpre : PreOK m) (hG : Leaves m GA GB) : (K (F := F)).TileObl (D (F := F)) 𝒱 (P m GA GB) v₀ 0 := by
  intro d c i O W hO _ _
  simp only [show (P m GA GB).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) GA GB hF hpre O W hO (hG d _).1 (hG d _).2).trans (wp_mono frame _ _ fun _ => obl_post)

/-! ## A SparseCore's operands are its tiles' -/

theorem vecSplit : (K (F := F)).VecSplit' (P m GA GB) 0 := by
  intro d c
  show (bigSep Finset.univ fun i : Fin ((K (F := F)).nSub 0) => goRes m d (Lt c i)) ⊢ |={Set.univ}=> iprop(
      (bigSep Finset.univ fun i : Fin ((K (F := F)).nSub 0) => goRes m d (Lt c i))
      ∗ ((bigSep Finset.univ fun i : Fin ((K (F := F)).nSub 0) => tdRes m d (Lt c i) GA GB)
          -∗ bigSep Finset.univ fun i : Fin ((K (F := F)).nSub 0) => tdRes m d (Lt c i) GA GB))
  iintro H; imodintro
  isplitl [H]; · iexact H
  iintro H; iexact H

/-! ## The pieces cover their arrays

Word `j` of an id array lies in tile `(c, s)`'s range exactly when `512 * (2 s + c) ≤ j < 512 * (2 s + c) + 512`; entry
`(r, l)` of the gathered array lies in the tile's first piece when `r` is in that range and `l < 128`, in its second when
`128 ≤ l`. Distinct tiles have distinct `2 s + c`, so the ranges are pairwise disjoint, and every `j < 16384` lies in the
range of `s = j / 1024`, `c = j / 512 mod 2`. -/

section Pieces

omit [FloatOps F]

theorem mem_uSl (L : grid0.Coords) (j : S16384.Idx) :
    j ∈ (uSl L).view.set ↔ 1024 * (L 1).val + 512 * (L 0).val ≤ (j 0).val ∧ (j 0).val < 1024 * (L 1).val + 512 * (L 0).val + 512 := by
  show j ∈ ((View.whole main_arg0_scv).slice (Rect.unit (s := S16384) (k0_off1 L) S512.size (k0_off1_inb L))).set ↔ _
  rw [View.set_slice_whole, Rect.mem_set_unit]
  simp only [k0_off1_eq]
  constructor
  · intro h; exact h 0
  · intro h a; match a with | ⟨0, _⟩ => exact h
theorem mem_iSl (L : grid0.Coords) (j : S16384.Idx) :
    j ∈ (iSl L).view.set ↔ 1024 * (L 1).val + 512 * (L 0).val ≤ (j 0).val ∧ (j 0).val < 1024 * (L 1).val + 512 * (L 0).val + 512 := by
  show j ∈ ((View.whole main_arg1_scv).slice (Rect.unit (s := S16384) (k0_off1 L) S512.size (k0_off1_inb L))).set ↔ _
  rw [View.set_slice_whole, Rect.mem_set_unit]
  simp only [k0_off1_eq]
  constructor
  · intro h; exact h 0
  · intro h a; match a with | ⟨0, _⟩ => exact h
theorem mem_xSlA (L : grid0.Coords) (j : S16384x256.Idx) :
    j ∈ (xSlA L).view.set ↔ (1024 * (L 1).val + 512 * (L 0).val ≤ (j 0).val ∧ (j 0).val < 1024 * (L 1).val + 512 * (L 0).val + 512) ∧ (j 1).val < 128 := by
  show j ∈ ((View.whole main_v0_scv).slice (Rect.unit (s := S16384x256) (k0_off2 L) S512x128.size (k0_off2_inb L))).set ↔ _
  rw [View.set_slice_whole, Rect.mem_set_unit]
  simp only [k0_off2_eq]
  constructor
  · intro h; exact ⟨h 0, by have := (h 1).2; simpa using this⟩
  · intro h a; match a with
    | ⟨0, _⟩ => exact h.1
    | ⟨1, _⟩ => exact ⟨Nat.zero_le _, by have := h.2; simpa using this⟩
theorem mem_xSlB (L : grid0.Coords) (j : S16384x256.Idx) :
    j ∈ (xSlB L).view.set ↔ (1024 * (L 1).val + 512 * (L 0).val ≤ (j 0).val ∧ (j 0).val < 1024 * (L 1).val + 512 * (L 0).val + 512) ∧ 128 ≤ (j 1).val := by
  show j ∈ ((View.whole main_v0_scv).slice (Rect.unit (s := S16384x256) (k0_off3 L) S512x128.size (k0_off3_inb L))).set ↔ _
  rw [View.set_slice_whole, Rect.mem_set_unit]
  simp only [k0_off3_eq]
  constructor
  · intro h; exact ⟨h 0, (h 1).1⟩
  · intro h a; match a with
    | ⟨0, _⟩ => exact h.1
    | ⟨1, _⟩ => exact ⟨h.2, by have := (j 1).isLt; show (j 1).val < 128 + 128; exact this⟩

/-- The tiles, as pairs. -/
abbrev Tile : Type := Fin (grid0.bound 0) × Fin (grid0.bound 1)
abbrev Lp (t : Tile) : grid0.Coords := coordsV t.1 t.2

theorem Lp0 (t : Tile) : (Lp t 0).val = t.1.val := rfl
theorem Lp1 (t : Tile) : (Lp t 1).val = t.2.val := rfl
theorem b0 : grid0.bound 0 = 2 := rfl
theorem b1 : grid0.bound 1 = 16 := rfl

theorem tile_eq_of {t t' : Tile} (h : 1024 * t.2.val + 512 * t.1.val = 1024 * t'.2.val + 512 * t'.1.val) : t = t' := by
  have h1 : t.1.val < 2 := t.1.isLt; have h2 : t'.1.val < 2 := t'.1.isLt
  exact Prod.ext (Fin.ext (by omega)) (Fin.ext (by omega))

/-- Tile `t`'s user words and item words, as sets of indices of the id arrays. -/
def uSet (t : Tile) : Finset S16384.Idx := by exact (uSl (Lp t)).view.set
def iSet (t : Tile) : Finset S16384.Idx := by exact (iSl (Lp t)).view.set

theorem uSl_disjoint : ∀ t ∈ (Finset.univ : Finset Tile), ∀ t' ∈ (Finset.univ : Finset Tile), t ≠ t' → Disjoint (uSet t) (uSet t') := by
  intro t _ t' _ hne
  refine Finset.disjoint_left.mpr fun j h h' => hne (tile_eq_of ?_)
  change j ∈ (uSl (Lp t)).view.set at h; change j ∈ (uSl (Lp t')).view.set at h'
  rw [mem_uSl, Lp0, Lp1] at h h'
  have h1 : t.1.val < 2 := t.1.isLt; have h2 : t'.1.val < 2 := t'.1.isLt
  omega
theorem iSl_disjoint : ∀ t ∈ (Finset.univ : Finset Tile), ∀ t' ∈ (Finset.univ : Finset Tile), t ≠ t' → Disjoint (iSet t) (iSet t') := by
  intro t _ t' _ hne
  refine Finset.disjoint_left.mpr fun j h h' => hne (tile_eq_of ?_)
  change j ∈ (iSl (Lp t)).view.set at h; change j ∈ (iSl (Lp t')).view.set at h'
  rw [mem_iSl, Lp0, Lp1] at h h'
  have h1 : t.1.val < 2 := t.1.isLt; have h2 : t'.1.val < 2 := t'.1.isLt
  omega

/-- The tile whose range holds row `r`. -/
def tileOf (r : ℕ) (hr : r < 16384) : Tile := (⟨r / 512 % 2, show r / 512 % 2 < 2 by omega⟩, ⟨r / 1024, show r / 1024 < 16 by omega⟩)
theorem tileOf_range (r : ℕ) (hr : r < 16384) :
    1024 * (tileOf r hr).2.val + 512 * (tileOf r hr).1.val ≤ r ∧ r < 1024 * (tileOf r hr).2.val + 512 * (tileOf r hr).1.val + 512 := by
  show 1024 * (r / 1024) + 512 * (r / 512 % 2) ≤ r ∧ r < 1024 * (r / 1024) + 512 * (r / 512 % 2) + 512
  omega

theorem uSl_cover : (Finset.univ : Finset Tile).biUnion uSet = Finset.univ := by
  refine Finset.eq_univ_iff_forall.mpr fun j => Finset.mem_biUnion.mpr ⟨tileOf (j 0).val (j 0).isLt, Finset.mem_univ _, ?_⟩
  exact (mem_uSl (Lp (tileOf (j 0).val (j 0).isLt)) j).mpr (by rw [Lp0, Lp1]; exact tileOf_range _ _)
theorem iSl_cover : (Finset.univ : Finset Tile).biUnion iSet = Finset.univ := by
  refine Finset.eq_univ_iff_forall.mpr fun j => Finset.mem_biUnion.mpr ⟨tileOf (j 0).val (j 0).isLt, Finset.mem_univ _, ?_⟩
  exact (mem_iSl (Lp (tileOf (j 0).val (j 0).isLt)) j).mpr (by rw [Lp0, Lp1]; exact tileOf_range _ _)

/-- A tile's two pieces of the gathered array, as one family over `Tile × Bool`. -/
def xPiece (p : Tile × Bool) : Finset S16384x256.Idx := if p.2 then (xSlB (Lp p.1)).view.set else (xSlA (Lp p.1)).view.set

theorem mem_xPiece (t : Tile) (b : Bool) (j : S16384x256.Idx) :
    j ∈ xPiece (t, b) ↔ (1024 * t.2.val + 512 * t.1.val ≤ (j 0).val ∧ (j 0).val < 1024 * t.2.val + 512 * t.1.val + 512) ∧ (if b then 128 ≤ (j 1).val else (j 1).val < 128) := by
  cases b
  · exact mem_xSlA (Lp t) j
  · exact mem_xSlB (Lp t) j

theorem xPiece_disjoint : ∀ p ∈ (Finset.univ : Finset (Tile × Bool)), ∀ p' ∈ (Finset.univ : Finset (Tile × Bool)), p ≠ p' → Disjoint (xPiece p) (xPiece p') := by
  rintro ⟨t, b⟩ _ ⟨t', b'⟩ _ hne
  refine Finset.disjoint_left.mpr fun j h h' => ?_
  rw [mem_xPiece] at h h'
  have key : 1024 * t.2.val + 512 * t.1.val = 1024 * t'.2.val + 512 * t'.1.val → b = b' → False := fun e e' => hne (by rw [tile_eq_of e, e'])
  have h1 : t.1.val < 2 := t.1.isLt; have h2 : t'.1.val < 2 := t'.1.isLt
  cases b <;> cases b' <;> simp only [Bool.false_eq_true, if_false, if_true] at h h'
  · exact key (by omega) rfl
  · omega
  · omega
  · exact key (by omega) rfl

theorem xPiece_cover : (Finset.univ : Finset (Tile × Bool)).biUnion xPiece = Finset.univ := by
  refine Finset.eq_univ_iff_forall.mpr fun j => ?_
  by_cases hl : (j 1).val < 128
  · refine Finset.mem_biUnion.mpr ⟨(tileOf (j 0).val (j 0).isLt, false), Finset.mem_univ _, ?_⟩
    rw [mem_xPiece]; exact ⟨tileOf_range _ _, by simpa using hl⟩
  · refine Finset.mem_biUnion.mpr ⟨(tileOf (j 0).val (j 0).isLt, true), Finset.mem_univ _, ?_⟩
    rw [mem_xPiece]; exact ⟨tileOf_range _ _, by simp only [if_true]; omega⟩

end Pieces

end Cert.Kernel.Sc

end
-- ==== Proof.TcBBody.lean ====
/-
  The dense layers' body on the TensorCore, run once on whole staging buffers.

  The body reads its seven operand blocks whole (a block of gathered rows, three weight matrices and three bias
  vectors), reads the result block (a value it does not use), and writes the result block whole with one store.
  What it leaves in the result buffer is therefore one function of the seven blocks it read: the store's value,
  laid over the whole buffer. The operand buffers are left as found.
-/
import proofs.«201248_g17051020165207_cont_7to1_1438_30_alg».proof.Proof.Gen.Kernel.Launch
import proofs.«201248_g17051020165207_cont_7to1_1438_30_alg».proof.Proof.Gen.Kernel.Skeleton
import proofs.«201248_g17051020165207_cont_7to1_1438_30_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.TcRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The whole-block rectangles the body reads and writes through -/

abbrev rX : Rect S4096x256 := Rect.unit (s := S4096x256) ![0, 0] S4096x256.size inb_S4096x256_S4096x256_0_0
abbrev rW1 : Rect S256x128 := Rect.unit (s := S256x128) ![0, 0] S256x128.size inb_S256x128_S256x128_0_0
abbrev rB1 : Rect S128 := Rect.unit (s := S128) ![0] S128.size inb_S128_S128_0
abbrev rW2 : Rect S128x64 := Rect.unit (s := S128x64) ![0, 0] S128x64.size inb_S128x64_S128x64_0_0
abbrev rB2 : Rect S64 := Rect.unit (s := S64) ![0] S64.size inb_S64_S64_0
abbrev rW3 : Rect S64x1 := Rect.unit (s := S64x1) ![0, 0] S64x1.size inb_S64x1_S64x1_0_0
abbrev rB3 : Rect S1 := Rect.unit (s := S1) ![0] S1.size inb_S1_S1_0
abbrev rOut : Rect S1x1x4096 := Rect.unit (s := S1x1x4096) ![0, 0, 0] S1x1x4096.size inb_S1x1x4096_S1x1x4096_0_0_0

/-- The result buffer after the body, from the seven operand blocks: the one store's value laid over the buffer. -/
def outBlk (x0 : Vec F S4096x256 .f32) (x1 : Vec F S256x128 .f32) (x2 : Vec F S128 .f32) (x3 : Vec F S128x64 .f32)
    (x4 : Vec F S64 .f32) (x5 : Vec F S64x1 .f32) (x6 : Vec F S1 .f32) : Vec F S1x1x4096 .f32 :=
  View.canon [⟨rOut, k1_pay1 (View.ld x0 rX) (View.ld x1 rW1) (View.ld x2 rB1) (View.ld x3 rW2) (View.ld x4 rB2) (View.ld x5 rW3) (View.ld x6 rB3)⟩]

/-- The one store covers the result buffer. -/
theorem cover_out (p0 : Vec F S1x1x4096 .f32) (y : S1x1x4096.Idx) :
    ∃ pc ∈ ([⟨rOut, p0⟩] : List (View.Piece (Elt F) S1x1x4096 .f32)), y ∈ pc.1.set :=
  View.cover_of_tiled [⟨rOut, p0⟩] S1x1x4096.size (by rfl) y

variable (𝒱₀ : Variants)

set_option maxHeartbeats 1000000 in
/-- The body on whole staging buffers, the operands' at contents `x0 … x6` and the result's at anything, runs to the
    continuation holding the operands' as they were and the result's at `outBlk` of them. -/
theorem sound_kernel (c : Dev nD) (E : Set Name) (i : grid1.Coords)
    (arg1 : Memref sig .tc .vmem S4096x256 .f32) (harg1 : arg1.IsWhole) (arg2 : Memref sig .tc .vmem S256x128 .f32) (harg2 : arg2.IsWhole)
    (arg3 : Memref sig .tc .vmem S128 .f32) (harg3 : arg3.IsWhole) (arg4 : Memref sig .tc .vmem S128x64 .f32) (harg4 : arg4.IsWhole)
    (arg5 : Memref sig .tc .vmem S64 .f32) (harg5 : arg5.IsWhole) (arg6 : Memref sig .tc .vmem S64x1 .f32) (harg6 : arg6.IsWhole)
    (arg7 : Memref sig .tc .vmem S1 .f32) (harg7 : arg7.IsWhole) (arg8 : Memref sig .tc .vmem S1x1x4096 .f32) (harg8 : arg8.IsWhole)
    (x0 : Vec F S4096x256 .f32) (x1 : Vec F S256x128 .f32) (x2 : Vec F S128 .f32) (x3 : Vec F S128x64 .f32)
    (x4 : Vec F S64 .f32) (x5 : Vec F S64x1 .f32) (x6 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outBlk x0 x1 x2 x3 x4 x5 x6)) -∗ K ⟨⟩))
      ⊢ wp frame (wpE (defs₀ (F := F)) 𝒱₀ c none) E (cc1__mlp_body i arg1 harg1 arg2 harg2 arg3 harg3 arg4 harg4 arg5 harg5 arg6 harg6 arg7 harg7 arg8 harg8) K := by
  simp only [cc1__mlp_body_eq_skeleton]; unfold cc1__mlp_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

end Cert.Kernel.TcRegion

end
-- ==== Proof.TcBDat.lean ====
/-
  The proof data of the dense layers' region, at the contents `V` the region finds in the TensorCore's buffers.

  At grid point `t` the body finds, in the staging buffer of each of its seven operands, that operand's block at
  `t` — rows `4096 t … 4096 t + 4095` of the gathered array, and each weight or bias array whole — whether or not the
  block was fetched at that very point (a block that is not refetched has not moved). It leaves those as found and
  the result's staging buffer at the store's value. Nothing is owed at any point, and the body touches neither
  semaphores nor the buffers no window stages.
-/
import proofs.«201248_g17051020165207_cont_7to1_1438_30_alg».proof.Proof.TcBBody

set_option maxRecDepth 16384

noncomputable section

namespace Cert.Kernel.TcRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An operand's staging buffer holds its block at every point, fetched there or not -/

theorem before_in0_of {c : Dev nD} (dat : Dat τ (Elt F) Ix Name U Lvl cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1_of {c : Dev nD} (dat : Dat τ (Elt F) Ix Name U Lvl cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2_of {c : Dev nD} (dat : Dat τ (Elt F) Ix Name U Lvl cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3_of {c : Dev nD} (dat : Dat τ (Elt F) Ix Name U Lvl cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4_of {c : Dev nD} (dat : Dat τ (Elt F) Ix Name U Lvl cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in5_of {c : Dev nD} (dat : Dat τ (Elt F) Ix Name U Lvl cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_in6_of {c : Dev nD} (dat : Dat τ (Elt F) Ix Name U Lvl cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

variable (B : Dev nD → Set (SemLoc sig × Ix))

variable (Name U Lvl) in
/-- The arrays as the region finds them; after the body at point `t` each operand's buffer at its block and the
    result's at the store's value; the invariant is the scoped buffers no window stages, untouched; full shares;
    nothing owed; the recorded waits within `B c`. -/
def dat (c : Dev nD) : Dat τ (Elt F) Ix Name U Lvl cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => outBlk (iblk V c 0 t) (iblk V c 1 t) (iblk V c 2 t) (iblk V c 3 t) (iblk V c 4 t) (iblk V c 5 t) (iblk V c 6 t)
  Φ _ := Pipeline.scopedRest spec1 c
  q _ := fullShare
  owed _ := 0
  recorded _ := B c

theorem A_eq (c : Dev nD) (w : Fin cfg1.W) : (dat Name U Lvl V B c).A w = V c (Pipeline.arrRef spec1 w) := by
  dsimp only [dat]
theorem after_0 (c : Dev nD) (t : Fin cfg1.N) : (dat Name U Lvl V B c).after 0 t = iblk V c 0 t := by dsimp only [dat]
theorem after_1 (c : Dev nD) (t : Fin cfg1.N) : (dat Name U Lvl V B c).after 1 t = iblk V c 1 t := by dsimp only [dat]
theorem after_2 (c : Dev nD) (t : Fin cfg1.N) : (dat Name U Lvl V B c).after 2 t = iblk V c 2 t := by dsimp only [dat]
theorem after_3 (c : Dev nD) (t : Fin cfg1.N) : (dat Name U Lvl V B c).after 3 t = iblk V c 3 t := by dsimp only [dat]
theorem after_4 (c : Dev nD) (t : Fin cfg1.N) : (dat Name U Lvl V B c).after 4 t = iblk V c 4 t := by dsimp only [dat]
theorem after_5 (c : Dev nD) (t : Fin cfg1.N) : (dat Name U Lvl V B c).after 5 t = iblk V c 5 t := by dsimp only [dat]
theorem after_6 (c : Dev nD) (t : Fin cfg1.N) : (dat Name U Lvl V B c).after 6 t = iblk V c 6 t := by dsimp only [dat]
theorem after_7 (c : Dev nD) (t : Fin cfg1.N) : (dat Name U Lvl V B c).after 7 t
    = outBlk (iblk V c 0 t) (iblk V c 1 t) (iblk V c 2 t) (iblk V c 3 t) (iblk V c 4 t) (iblk V c 5 t) (iblk V c 6 t) := by dsimp only [dat]
theorem owed_eq (c : Dev nD) (t : Fin (cfg1.N + 1)) : (dat Name U Lvl V B c).owed t = 0 := rfl
theorem share_eq (c : Dev nD) (w : Fin cfg1.W) : (dat Name U Lvl V B c).share w = fullShare := (dat Name U Lvl V B c).share_full (fun _ => rfl) w

theorem before_0 (c : Dev nD) (t : Fin cfg1.N) (d) : (dat Name U Lvl V B c).before 0 t d = iblk V c 0 t :=
  before_in0_of V (dat Name U Lvl V B c) (A_eq V B c 0) (after_0 V B c) t d
theorem before_1 (c : Dev nD) (t : Fin cfg1.N) (d) : (dat Name U Lvl V B c).before 1 t d = iblk V c 1 t :=
  before_in1_of V (dat Name U Lvl V B c) (A_eq V B c 1) (after_1 V B c) t d
theorem before_2 (c : Dev nD) (t : Fin cfg1.N) (d) : (dat Name U Lvl V B c).before 2 t d = iblk V c 2 t :=
  before_in2_of V (dat Name U Lvl V B c) (A_eq V B c 2) (after_2 V B c) t d
theorem before_3 (c : Dev nD) (t : Fin cfg1.N) (d) : (dat Name U Lvl V B c).before 3 t d = iblk V c 3 t :=
  before_in3_of V (dat Name U Lvl V B c) (A_eq V B c 3) (after_3 V B c) t d
theorem before_4 (c : Dev nD) (t : Fin cfg1.N) (d) : (dat Name U Lvl V B c).before 4 t d = iblk V c 4 t :=
  before_in4_of V (dat Name U Lvl V B c) (A_eq V B c 4) (after_4 V B c) t d
theorem before_5 (c : Dev nD) (t : Fin cfg1.N) (d) : (dat Name U Lvl V B c).before 5 t d = iblk V c 5 t :=
  before_in5_of V (dat Name U Lvl V B c) (A_eq V B c 5) (after_5 V B c) t d
theorem before_6 (c : Dev nD) (t : Fin cfg1.N) (d) : (dat Name U Lvl V B c).before 6 t d = iblk V c 6 t :=
  before_in6_of V (dat Name U Lvl V B c) (A_eq V B c 6) (after_6 V B c) t d

/-! ## The body obligation -/

variable (𝒱₀ : Variants) (ι : Ix)

/-- What the body is called with at point `t`, the windows one by one, -/
def bodyPre (c : Dev nD) (t : Fin cfg1.N) : sProp 𝕄 :=
  iprop((dat Name U Lvl V B c).Φ t.castSucc ∗ (dat Name U Lvl V B c).owesAt ι t.castSucc
    ∗ (∃ d, owns (c : Thread nD τ) (st1_0 t) fullShare ((dat Name U Lvl V B c).before 0 t d))
    ∗ (∃ d, owns (c : Thread nD τ) (st1_1 t) fullShare ((dat Name U Lvl V B c).before 1 t d))
    ∗ (∃ d, owns (c : Thread nD τ) (st1_2 t) fullShare ((dat Name U Lvl V B c).before 2 t d))
    ∗ (∃ d, owns (c : Thread nD τ) (st1_3 t) fullShare ((dat Name U Lvl V B c).before 3 t d))
    ∗ (∃ d, owns (c : Thread nD τ) (st1_4 t) fullShare ((dat Name U Lvl V B c).before 4 t d))
    ∗ (∃ d, owns (c : Thread nD τ) (st1_5 t) fullShare ((dat Name U Lvl V B c).before 5 t d))
    ∗ (∃ d, owns (c : Thread nD τ) (st1_6 t) fullShare ((dat Name U Lvl V B c).before 6 t d))
    ∗ (∃ d, owns (c : Thread nD τ) (st1_7 t) fullShare ((dat Name U Lvl V B c).before 7 t d)))

/-- and what it returns. -/
def bodyPost (c : Dev nD) (t : Fin cfg1.N) : sProp 𝕄 :=
  iprop((dat Name U Lvl V B c).Φ t.succ ∗ (dat Name U Lvl V B c).owesAt ι t.succ
    ∗ owns (c : Thread nD τ) (st1_0 t) fullShare ((dat Name U Lvl V B c).after 0 t)
    ∗ owns (c : Thread nD τ) (st1_1 t) fullShare ((dat Name U Lvl V B c).after 1 t)
    ∗ owns (c : Thread nD τ) (st1_2 t) fullShare ((dat Name U Lvl V B c).after 2 t)
    ∗ owns (c : Thread nD τ) (st1_3 t) fullShare ((dat Name U Lvl V B c).after 3 t)
    ∗ owns (c : Thread nD τ) (st1_4 t) fullShare ((dat Name U Lvl V B c).after 4 t)
    ∗ owns (c : Thread nD τ) (st1_5 t) fullShare ((dat Name U Lvl V B c).after 5 t)
    ∗ owns (c : Thread nD τ) (st1_6 t) fullShare ((dat Name U Lvl V B c).after 6 t)
    ∗ owns (c : Thread nD τ) (st1_7 t) fullShare ((dat Name U Lvl V B c).after 7 t))

/-- The body at any point: the operands' buffers hold their blocks, so the body's triple applies; the invariant and
    what the core owes pass through unread. -/
theorem sound_body (c : Dev nD) (t : Fin cfg1.N) :
    bodyPre V B ι c t ⊢ wp frame (wpE (defs₀ (F := F)) 𝒱₀ c none) Set.univ (bodyAt1 t) (fun _ => (bodyPost V B ι c t : sProp 𝕄)) := by
  unfold bodyPre bodyPost bodyAt1
  simp only [before_0, before_1, before_2, before_3, before_4, before_5, before_6]
  rw [show (dat Name U Lvl V B c).Φ t.succ = (dat Name U Lvl V B c).Φ t.castSucc from rfl,
    show (dat Name U Lvl V B c).owesAt ι t.succ = (dat Name U Lvl V B c).owesAt ι t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel 𝒱₀ c Set.univ (grid1.coords t) _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dat Name U Lvl V B c) (defs₀ (F := F)) 𝒱₀ ι Set.univ := fun t => by
  rw [bigSep_W1, bigSep_W1]
  exact sound_body V B 𝒱₀ ι c t

end Cert.Kernel.TcRegion

end
-- ==== Proof.TcBOut.lean ====
/-
  The result array of the dense layers' region, as one function of the arrays the region finds.

  Grid point `t` reads rows `4096 t … 4096 t + 4095` of the gathered array and the six weight and bias arrays whole,
  and writes plane `t` of the result `[4, 1, 4096]`. The four planes tile the result, so after the last point the
  result at `(t, 0, q)` is the body's value at `(0, 0, q)` on the rows of plane `t`.
-/
import proofs.«201248_g17051020165207_cont_7to1_1438_30_alg».proof.Proof.TcBDat
import Idealize.ShloMosaic.Lib.Pipeline.Value
import Idealize.ShloMosaic.Lib.ValueIdx

set_option maxRecDepth 16384

noncomputable section

namespace Cert.Kernel.TcRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

open Idealize.ShloMosaic.ValueIdx

variable (V : (c : Dev nD) → (b : Ref sig .tc) → Buf (Elt F) ((c : Thread nD τ).loc b))

/-- Rows `4096 t … 4096 t + 4095` of a `[16384, 256]` array. -/
def rowsBlk (X : S16384x256.Idx → Elt F .f32) (t : Fin 4) : Vec F S4096x256 .f32 :=
  fun y => X (ix2 (⟨4096 * t.val + (y 0).val, by have := idx2_lt0 y; have := t.isLt; omega⟩ : Fin 16384) (⟨(y 1).val, idx2_lt1 y⟩ : Fin 256))

/-- The result array after the region: plane `i 0` is the body's value on rows `4096 (i 0) …` of the gathered array. -/
def out1 (c : Dev nD) : S4x1x4096.Idx → Elt F .f32 := fun i =>
  k1_pay1 (rowsBlk (V c main_v0) (⟨(i 0).val, (i 0).isLt⟩ : Fin 4)) (V c main_arg4) (V c main_arg5) (V c main_arg6) (V c main_arg7)
    (V c main_arg8) (V c main_arg9) (ix3 (0 : Fin 1) (0 : Fin 1) (⟨(i 2).val, (i 2).isLt⟩ : Fin 4096))

theorem out1_apply (c : Dev nD) (t : Fin 4) (q : Fin 4096) :
    out1 V c (ix3 t (0 : Fin 1) q)
      = k1_pay1 (rowsBlk (V c main_v0) t) (V c main_arg4) (V c main_arg5) (V c main_arg6) (V c main_arg7) (V c main_arg8) (V c main_arg9)
          (ix3 (0 : Fin 1) (0 : Fin 1) q) := rfl

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The windows' index maps over the grid: the gathered array's and the result's blocks move with the point along
    their first axis, every other block index is zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 3) = t.val ∧ win1_7.index t (1 : Fin 3) = 0 ∧ win1_7.index t (2 : Fin 3) = 0 :=
  (by decide +kernel : ∀ t : Fin grid1.N, _)

/-- A grid point as a number below four. -/
def pt (t : Fin cfg1.N) : Fin 4 := Fin.cast N_1 t

/-- The gathered array's block at point `t` is its rows `4096 t …`. -/
theorem iblk0_eq (c : Dev nD) (t : Fin cfg1.N) : iblk V c 0 t = rowsBlk (V c main_v0) (pt t) := by
  obtain ⟨h0_0, h0_1, h1_0, h1_1, h2_0, h3_0, h3_1, h4_0, h5_0, h5_1, h6_0, h7_0, h7_1, h7_2⟩ := idx_facts t
  funext y
  show V c main_v0 (((cfg1.win 0).blk t).view.emb y) = V c main_v0 (ix2 (⟨4096 * (pt t).val + (y 0).val, _⟩ : Fin 16384) (⟨(y 1).val, _⟩ : Fin 256))
  refine congrArg (V c main_v0) ?_
  funext a; apply Fin.ext
  match a with
    | ⟨0, _⟩ => show win1_0.index t (0 : Fin 2) * 4096 + 1 * (y 0).val = 4096 * t.val + (y 0).val; omega
    | ⟨1, _⟩ => show win1_0.index t (1 : Fin 2) * 256 + 1 * (y 1).val = (y 1).val; omega

/-- Operand 1's block at any point is its whole array. -/
theorem iblk1_eq (c : Dev nD) (t : Fin cfg1.N) : iblk V c 1 t = V c main_arg4 := by
  obtain ⟨h0_0, h0_1, h1_0, h1_1, h2_0, h3_0, h3_1, h4_0, h5_0, h5_1, h6_0, h7_0, h7_1, h7_2⟩ := idx_facts t
  funext y
  show V c main_arg4 (((cfg1.win 1).blk t).view.emb y) = V c main_arg4 y
  refine congrArg (V c main_arg4) ?_
  funext a; apply Fin.ext
  match a with
    | ⟨0, _⟩ => show win1_1.index t (0 : Fin 2) * 256 + 1 * (y 0).val = (y 0).val; omega
    | ⟨1, _⟩ => show win1_1.index t (1 : Fin 2) * 128 + 1 * (y 1).val = (y 1).val; omega

/-- Operand 2's block at any point is its whole array. -/
theorem iblk2_eq (c : Dev nD) (t : Fin cfg1.N) : iblk V c 2 t = V c main_arg5 := by
  obtain ⟨h0_0, h0_1, h1_0, h1_1, h2_0, h3_0, h3_1, h4_0, h5_0, h5_1, h6_0, h7_0, h7_1, h7_2⟩ := idx_facts t
  funext y
  show V c main_arg5 (((cfg1.win 2).blk t).view.emb y) = V c main_arg5 y
  refine congrArg (V c main_arg5) ?_
  funext a; apply Fin.ext
  match a with
    | ⟨0, _⟩ => show win1_2.index t (0 : Fin 1) * 128 + 1 * (y 0).val = (y 0).val; omega

/-- Operand 3's block at any point is its whole array. -/
theorem iblk3_eq (c : Dev nD) (t : Fin cfg1.N) : iblk V c 3 t = V c main_arg6 := by
  obtain ⟨h0_0, h0_1, h1_0, h1_1, h2_0, h3_0, h3_1, h4_0, h5_0, h5_1, h6_0, h7_0, h7_1, h7_2⟩ := idx_facts t
  funext y
  show V c main_arg6 (((cfg1.win 3).blk t).view.emb y) = V c main_arg6 y
  refine congrArg (V c main_arg6) ?_
  funext a; apply Fin.ext
  match a with
    | ⟨0, _⟩ => show win1_3.index t (0 : Fin 2) * 128 + 1 * (y 0).val = (y 0).val; omega
    | ⟨1, _⟩ => show win1_3.index t (1 : Fin 2) * 64 + 1 * (y 1).val = (y 1).val; omega

/-- Operand 4's block at any point is its whole array. -/
theorem iblk4_eq (c : Dev nD) (t : Fin cfg1.N) : iblk V c 4 t = V c main_arg7 := by
  obtain ⟨h0_0, h0_1, h1_0, h1_1, h2_0, h3_0, h3_1, h4_0, h5_0, h5_1, h6_0, h7_0, h7_1, h7_2⟩ := idx_facts t
  funext y
  show V c main_arg7 (((cfg1.win 4).blk t).view.emb y) = V c main_arg7 y
  refine congrArg (V c main_arg7) ?_
  funext a; apply Fin.ext
  match a with
    | ⟨0, _⟩ => show win1_4.index t (0 : Fin 1) * 64 + 1 * (y 0).val = (y 0).val; omega

/-- Operand 5's block at any point is its whole array. -/
theorem iblk5_eq (c : Dev nD) (t : Fin cfg1.N) : iblk V c 5 t = V c main_arg8 := by
  obtain ⟨h0_0, h0_1, h1_0, h1_1, h2_0, h3_0, h3_1, h4_0, h5_0, h5_1, h6_0, h7_0, h7_1, h7_2⟩ := idx_facts t
  funext y
  show V c main_arg8 (((cfg1.win 5).blk t).view.emb y) = V c main_arg8 y
  refine congrArg (V c main_arg8) ?_
  funext a; apply Fin.ext
  match a with
    | ⟨0, _⟩ => show win1_5.index t (0 : Fin 2) * 64 + 1 * (y 0).val = (y 0).val; omega
    | ⟨1, _⟩ => show win1_5.index t (1 : Fin 2) * 1 + 1 * (y 1).val = (y 1).val; omega

/-- Operand 6's block at any point is its whole array. -/
theorem iblk6_eq (c : Dev nD) (t : Fin cfg1.N) : iblk V c 6 t = V c main_arg9 := by
  obtain ⟨h0_0, h0_1, h1_0, h1_1, h2_0, h3_0, h3_1, h4_0, h5_0, h5_1, h6_0, h7_0, h7_1, h7_2⟩ := idx_facts t
  funext y
  show V c main_arg9 (((cfg1.win 6).blk t).view.emb y) = V c main_arg9 y
  refine congrArg (V c main_arg9) ?_
  funext a; apply Fin.ext
  match a with
    | ⟨0, _⟩ => show win1_6.index t (0 : Fin 1) * 1 + 1 * (y 0).val = (y 0).val; omega

/-- The body's value depends on the gathered rows and the index only through their values. -/
theorem pay_congr {a0 a0' : Vec F S4096x256 .f32} (a1 : Vec F S256x128 .f32) (a2 : Vec F S128 .f32) (a3 : Vec F S128x64 .f32)
    (a4 : Vec F S64 .f32) (a5 : Vec F S64x1 .f32) (a6 : Vec F S1 .f32) {j j' : S1x1x4096.Idx} (h0 : a0 = a0') (hj : j = j') :
    k1_pay1 a0 a1 a2 a3 a4 a5 a6 j = k1_pay1 a0' a1 a2 a3 a4 a5 a6 j' := by subst h0 hj; rfl

variable (B : Dev nD → Set (SemLoc sig × Ix))

/-- What point `t` writes back is plane `t` of `out1`. -/
theorem flushed_eq (c : Dev nD) (t : Fin cfg1.N) :
    (dat Name U Lvl V B c).flushed 7 t = ((cfg1.win 7).blk t).view.read (Elt F) (out1 V c) := by
  obtain ⟨h0_0, h0_1, h1_0, h1_1, h2_0, h3_0, h3_1, h4_0, h5_0, h5_1, h6_0, h7_0, h7_1, h7_2⟩ := idx_facts t
  show (cfg1.win 7).cut (grid1.coords t) ((dat Name U Lvl V B c).after 7 t) = _
  rw [after_7]
  unfold outBlk
  rw [View.canon_unit_zero hz3]
  simp only [View.ld_unit_zero (S := S4096x256) hz2, View.ld_unit_zero (S := S256x128) hz2, View.ld_unit_zero (S := S128) hz1,
    View.ld_unit_zero (S := S128x64) hz2, View.ld_unit_zero (S := S64) hz1, View.ld_unit_zero (S := S64x1) hz2, View.ld_unit_zero (S := S1) hz1]
  rw [iblk0_eq, iblk1_eq, iblk2_eq, iblk3_eq, iblk4_eq, iblk5_eq, iblk6_eq]
  funext j
  have hj0 : (j 0).val < 1 := (j 0).isLt
  have hj1 : (j 1).val < 1 := (j 1).isLt
  have hj2 : (j 2).val < 4096 := (j 2).isLt
  show k1_pay1 (rowsBlk (V c main_v0) (pt t)) (V c main_arg4) (V c main_arg5) (V c main_arg6) (V c main_arg7) (V c main_arg8) (V c main_arg9) j
    = k1_pay1 (rowsBlk (V c main_v0) (⟨((((cfg1.win 7).blk t).view.emb j) 0).val, _⟩ : Fin 4)) (V c main_arg4) (V c main_arg5) (V c main_arg6) (V c main_arg7)
        (V c main_arg8) (V c main_arg9) (ix3 (0 : Fin 1) (0 : Fin 1) (⟨((((cfg1.win 7).blk t).view.emb j) 2).val, _⟩ : Fin 4096))
  refine pay_congr _ _ _ _ _ _ (congrArg (rowsBlk (V c main_v0)) (Fin.ext ?_)) ?_
  · show t.val = win1_7.index t (0 : Fin 3) * 1 + 1 * (j 0).val; omega
  · funext a; apply Fin.ext
    match a with
      | ⟨0, _⟩ => show (j 0).val = 0; omega
      | ⟨1, _⟩ => show (j 1).val = 0; omega
      | ⟨2, _⟩ => show (j 2).val = win1_7.index t (2 : Fin 3) * 4096 + 1 * (j 2).val; omega

/-- An index of the result is in point `t`'s block iff each coordinate is in the block's range on its axis. -/
theorem mem_blk (t : Fin cfg1.N) (i : S4x1x4096.Idx) :
    i ∈ ((cfg1.win 7).blk t).view.set ↔ ∀ a : Fin 3, win1_7.index t a * S1x1x4096.size a ≤ (i a).val ∧ (i a).val < win1_7.index t a * S1x1x4096.size a + S1x1x4096.size a := by
  show i ∈ ((View.whole main_v1).slice (win1_7.rect t)).set ↔ _
  rw [View.set_slice_whole, Rect.mem_set_unit]
  exact Iff.rfl

/-- Every index of the result is in the block of the point its first coordinate names. -/
theorem covered (i : S4x1x4096.Idx) : ∃ t : Fin cfg1.N, (cfg1.win 7).flush t = true ∧ i ∈ ((cfg1.win 7).blk t).view.set := by
  have hi0 : (i 0).val < 4 := (i 0).isLt
  have hi1 : (i 1).val < 1 := (i 1).isLt
  have hi2 : (i 2).val < 4096 := (i 2).isLt
  let t : Fin cfg1.N := Fin.cast N_1.symm (⟨(i 0).val, hi0⟩ : Fin 4)
  obtain ⟨h0_0, h0_1, h1_0, h1_1, h2_0, h3_0, h3_1, h4_0, h5_0, h5_1, h6_0, h7_0, h7_1, h7_2⟩ := idx_facts t
  have ht : t.val = (i 0).val := rfl
  refine ⟨t, flush1_7 t, ?_⟩
  rw [mem_blk]
  intro a
  match a with
    | ⟨0, _⟩ => show win1_7.index t (0 : Fin 3) * 1 ≤ (i 0).val ∧ (i 0).val < win1_7.index t (0 : Fin 3) * 1 + 1; omega
    | ⟨1, _⟩ => show win1_7.index t (1 : Fin 3) * 1 ≤ (i 1).val ∧ (i 1).val < win1_7.index t (1 : Fin 3) * 1 + 1; omega
    | ⟨2, _⟩ => show win1_7.index t (2 : Fin 3) * 4096 ≤ (i 2).val ∧ (i 2).val < win1_7.index t (2 : Fin 3) * 4096 + 4096; omega

/-- The result array after the last point is `out1`. -/
theorem arrAt_out (c : Dev nD) : (dat Name U Lvl V B c).arrAt 7 cfg1.N = out1 V c :=
  (dat Name U Lvl V B c).arrAt_eq_of_cover 7 (out1 V c) (fun t _ => flushed_eq V B c t) covered

/-- An operand array is never written. -/
theorem arrAt_in (c : Dev nD) (w : Fin cfg1.W) (hw : (cfg1.win w).isOut = false) (n : Nat) :
    (dat Name U Lvl V B c).arrAt w n = V c (Pipeline.arrRef spec1 w) :=
  ((dat Name U Lvl V B c).arrAt_in w hw n).trans (A_eq V B c w)

end Cert.Kernel.TcRegion

end
-- ==== Proof.TcBRegion.lean ====
/-
  The dense layers' region as one step of the TensorCore's program.

  Entered holding the eight arrays its windows stage — the gathered array, the six weight and bias arrays and the
  result array — whole at the contents `V`, with the core owing nothing, the region returns them with the result
  array at `out1 V` and every other array as it was, the core still owing nothing; the waits the pipeline made on
  its own staging cells are added to the bound on the core's recorded waits.
-/
import proofs.«201248_g17051020165207_cont_7to1_1438_30_alg».proof.Proof.TcBOut

set_option maxRecDepth 16384

noncomputable section

namespace Cert.Kernel.TcRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable (V : (c : Dev nD) → (b : Ref sig .tc) → Buf (Elt F) ((c : Thread nD τ).loc b))
variable (B : Dev nD → Set (SemLoc sig × Ix))

/-- No table is prefetched: the one admissible family. -/
abbrev adm : (p : Fin 1) → (pcfgs (F := F) p).Adm := fun p => (cfgs p).toPCfg_adm

variable (Name U Lvl) in
/-- The one pipeline's proof data, at the region's entry contents. -/
def pdats : (p : Fin 1) → (c : Dev nD) → Dat τ (Elt F) Ix Name U Lvl (Pipeline.pin (pcfgs (F := F)) adm p) c
  | ⟨0, _⟩ => fun c => dat Name U Lvl V B c

/-- The eight windows' arrays, each whole at its contents under `V`, the result array at `X`. -/
def held (c : Dev nD) (X : Buf (Elt F) ((c : Thread nD τ).loc main_v1)) : sProp 𝕄 :=
  iprop((((c : Thread nD τ).loc main_v0) ↦{fullShare} V c main_v0) ∗ (((c : Thread nD τ).loc main_arg4) ↦{fullShare} V c main_arg4)
    ∗ (((c : Thread nD τ).loc main_arg5) ↦{fullShare} V c main_arg5) ∗ (((c : Thread nD τ).loc main_arg6) ↦{fullShare} V c main_arg6)
    ∗ (((c : Thread nD τ).loc main_arg7) ↦{fullShare} V c main_arg7) ∗ (((c : Thread nD τ).loc main_arg8) ↦{fullShare} V c main_arg8)
    ∗ (((c : Thread nD τ).loc main_arg9) ↦{fullShare} V c main_arg9) ∗ (((c : Thread nD τ).loc main_v1) ↦{fullShare} X))

/-- The pipeline's arrays, at any contents, one by one. -/
theorem arrays_chain (c : Dev nD) (G : (w : Fin 8) → Buf (Elt F) ((c : Thread nD τ).loc (Pipeline.arrRef spec1 w))) :
    ((pdats Name U Lvl V B 0 c).arrays G : sProp 𝕄)
      = iprop((((c : Thread nD τ).loc main_v0) ↦{fullShare} G 0) ∗ (((c : Thread nD τ).loc main_arg4) ↦{fullShare} G 1)
        ∗ (((c : Thread nD τ).loc main_arg5) ↦{fullShare} G 2) ∗ (((c : Thread nD τ).loc main_arg6) ↦{fullShare} G 3)
        ∗ (((c : Thread nD τ).loc main_arg7) ↦{fullShare} G 4) ∗ (((c : Thread nD τ).loc main_arg8) ↦{fullShare} G 5)
        ∗ (((c : Thread nD τ).loc main_arg9) ↦{fullShare} G 6) ∗ (((c : Thread nD τ).loc main_v1) ↦{fullShare} G 7)) := by
  rw [Pipeline.arrays_eq (Pipeline.pin (pcfgs (F := F)) adm) (pdats Name U Lvl V B) 0 c launch1.arr_whole (fun w => share_eq V B c w) G, bigSep_W1]

/-- At entry the arrays are at `V`. -/
theorem entry_arrays (c : Dev nD) :
    (held V c (V c main_v1) : sProp 𝕄) ⊢ (pdats Name U Lvl V B 0 c).arrays ((pdats Name U Lvl V B 0 c).arrAt · 0) := by
  rw [arrays_chain]; exact BI.Entails.refl _

/-- At exit the operand arrays are as entered and the result array is `out1`. -/
theorem exit_arrays (c : Dev nD) :
    ((pdats Name U Lvl V B 0 c).arrays ((pdats Name U Lvl V B 0 c).arrAt · cfg1.N) : sProp 𝕄) ⊢ held V c (out1 V c) := by
  have h0 : (pdats Name U Lvl V B 0 c).arrAt 0 cfg1.N = V c main_v0 := arrAt_in V B c 0 rfl _
  have h1 : (pdats Name U Lvl V B 0 c).arrAt 1 cfg1.N = V c main_arg4 := arrAt_in V B c 1 rfl _
  have h2 : (pdats Name U Lvl V B 0 c).arrAt 2 cfg1.N = V c main_arg5 := arrAt_in V B c 2 rfl _
  have h3 : (pdats Name U Lvl V B 0 c).arrAt 3 cfg1.N = V c main_arg6 := arrAt_in V B c 3 rfl _
  have h4 : (pdats Name U Lvl V B 0 c).arrAt 4 cfg1.N = V c main_arg7 := arrAt_in V B c 4 rfl _
  have h5 : (pdats Name U Lvl V B 0 c).arrAt 5 cfg1.N = V c main_arg8 := arrAt_in V B c 5 rfl _
  have h6 : (pdats Name U Lvl V B 0 c).arrAt 6 cfg1.N = V c main_arg9 := arrAt_in V B c 6 rfl _
  have h7 : (pdats Name U Lvl V B 0 c).arrAt 7 cfg1.N = out1 V c := arrAt_out V B c
  rw [arrays_chain, h0, h1, h2, h3, h4, h5, h6, h7]; exact BI.Entails.refl _

variable (𝒱₀ : Variants) (ι : Ix) (L : GSem nD τ sig → Finset Ix) (lv : GSem nD τ sig → Ix → Lvl)

set_option backward.isDefEq.respectTransparency.types false in
/-- The region over the thread state "the eight arrays, nothing owed". -/
def regionSeg : Pipeline.RegionSeg (pcfgs (F := F)) adm (pdats Name U Lvl V B) ι defs₀ 𝒱₀ L lv 0 where
  win := launch1.win.to₀
  block_pos := launch1.block_pos
  stage_whole := launch1.stage_whole
  K := PEmpty
  osem k := k.elim
  ho := Pipeline.OwnSemFacts.none _
  hbody c := (body_obligation V B 𝒱₀ ι c).loose
  hwaits := Pipeline.hwaits_of_owed_zero _ _ _ _ L lv 0 fun _ _ => rfl
  pre c := iprop(held V c (V c main_v1) ∗ Pipeline.owesWithin c 0 (B c))
  post c := iprop(held V c (out1 V c) ∗ Pipeline.owesWithin c 0 (B c ∪ cfg1.waitPairs ι))
  X _ := iprop(emp)
  Y _ := iprop(emp)
  Z _ := iprop(emp)
  hentry c := by
    iintro ⟨⟨Ha, HO⟩, -, -⟩
    imodintro
    isplitl [Ha]; · iapply (entry_arrays V B c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    iempintro
  hin c := by
    rw [show (pdats Name U Lvl V B 0 c).Φ 0 = Pipeline.scopedRest spec1 c from rfl]
    iintro ⟨-, -, Hr⟩
    iexact Hr
  hout c := by
    rw [Pipeline.ownSems0_none, show (pdats Name U Lvl V B 0 c).Φ (Fin.last _) = Pipeline.scopedRest spec1 c from rfl]
    iintro Hr
    isplitr; · iempintro
    isplitr; · iempintro
    iexact Hr
  hexit c := by
    iintro ⟨Ha, HO, -, -⟩
    imodintro
    isplitl [Ha]; · iapply (exit_arrays V B c); iexact Ha
    unfold Pipeline.Dat.owesAt Pipeline.owesWithin
    icases HO with ⟨%W, %hW, HO⟩; iexists W; isplitr; · ipureintro; exact hW
    iexact HO

/-- The region's step on core `c`: from the boundary, the eight arrays at `V`, the core owing nothing, the level
    facts and the pipeline's ghost state, the call runs to the boundary and the arrays with the result at `out1 V`. -/
theorem region_wp [Infinite Name]
    (EP : Emb (URounds (GSem nD τ sig) Unit) (MT nD τ sig Ix (Elt F) Name U Lvl)) [EP.LandsIn (upEmb : UEmb _ (MT nD τ sig Ix (Elt F) Name U Lvl))]
    (c : Dev nD) {α : Type} (k : PUnit → Prog (TpuEff nD τ sig (Elt F) (Pipeline.Sig Λ₀ (Fin 1) fun p => (pcfgs (F := F) p).Adm) .tc) α) (Q : α → sProp 𝕄) :
    iprop((iprop(boundary (c : Thread nD τ) ∗ held V c (out1 V c) ∗ Pipeline.owesWithin c 0 (B c ∪ cfg1.waitPairs ι))
            -∗ wp frame (wpE (Pipeline.defs (pcfgs (F := F)) defs₀) (Variants.lift 𝒱₀) (c : Thread nD τ) none) Set.univ (k ⟨⟩) Q)
        ∗ boundary (c : Thread nD τ) ∗ (held V c (V c main_v1) ∗ Pipeline.owesWithin c 0 (B c)) ∗ levAts L lv
        ∗ Pipeline.cellsGhost (Pipeline.pin (pcfgs (F := F)) adm) EP 0 c ∗ Pipeline.toksInit (Pipeline.pin (pcfgs (F := F)) adm) EP 0 c)
      ⊢ wp frame (wpE (Pipeline.defs (pcfgs (F := F)) defs₀) (Variants.lift 𝒱₀) (c : Thread nD τ) none) Set.univ (.op (.customCall (Pipeline.entry 0) ()) k) Q :=
  Pipeline.RegionSeg.wp (pcfgs (F := F)) adm (pdats Name U Lvl V B) ι cellOf_inj EP defs₀ 𝒱₀ L lv (regionSeg V B 𝒱₀ ι L lv) c none
    (fun _ h => absurd h (Option.not_mem_none _)) k Q

end Cert.Kernel.TcRegion

end
-- ==== Proof.ScBMain.lean ====
/-
  @main on the TensorCore, the launch element, and the program's run.

  @main hands the whole arrays to the SparseCore call (split tile by tile, joined again at its end), runs the dense
  layers' pallas_call on the gathered array as one region step, and reshapes its [4, 1, 4096] result to [16384]. What is
  kept for the claim: the ten argument arrays as they were, and the result array as a named function of the gathered
  array, of which `GA` and `GB` hold piece by piece.
-/
import proofs.«201248_g17051020165207_cont_7to1_1438_30_alg».proof.Proof.ScBTiles
import proofs.«201248_g17051020165207_cont_7to1_1438_30_alg».proof.Proof.TcBRegion

noncomputable section

namespace Cert.Kernel.Sc

open Cert.Kernel Cert.Kernel.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)
variable (GA GB : (d : Dev nD) → grid0.Coords → Buf (Elt F) (xLoc d) → Prop)

/-! ## Shares of a table -/

section Shares

omit [FloatOps F]

/-- The two halves of the leaves one level down. -/
def sumEquiv (n : ℕ) : Fin (2 ^ n) ⊕ Fin (2 ^ n) ≃ Fin (2 ^ (n + 1)) := finSumFinEquiv.trans (finCongr (by omega))

theorem sumEquiv_inl (n : ℕ) (i : Fin (2 ^ n)) : (sumEquiv n (Sum.inl i)).val = i.val := by simp [sumEquiv]
theorem sumEquiv_inr (n : ℕ) (i : Fin (2 ^ n)) : (sumEquiv n (Sum.inr i)).val = 2 ^ n + i.val := by simp [sumEquiv]; omega

theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

/-- A points-to at a share is its `2 ^ n` leaves' at once: the two halves, each by induction. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- Tile `(c, s)` is leaf `16 c + s`. -/
def tileEquiv : Tile ≃ Fin (2 ^ 5) where
  toFun t := ⟨16 * t.1.val + t.2.val, by
    have h1 : t.1.val < 2 := t.1.isLt
    have h2 : t.2.val < 16 := t.2.isLt
    have : (2 : ℕ) ^ 5 = 32 := by norm_num
    omega⟩
  invFun k := (⟨k.val / 16, show k.val / 16 < 2 by have h := k.isLt; have e : (2 : ℕ) ^ 5 = 32 := (by norm_num); omega⟩, ⟨k.val % 16, show k.val % 16 < 16 by omega⟩)
  left_inv t := by
    have h2 : t.2.val < 16 := t.2.isLt
    exact Prod.ext (Fin.ext (show (16 * t.1.val + t.2.val) / 16 = t.1.val by omega)) (Fin.ext (show (16 * t.1.val + t.2.val) % 16 = t.2.val by omega))
  right_inv k := Fin.ext (show 16 * (k.val / 16) + k.val % 16 = k.val by omega)

theorem tileShare_eq (t : Tile) : tileShare (Lp t) = leaf 5 fullShare (tileEquiv t) := rfl

/-- A table whole is its thirty-two tiles' shares. -/
theorem table_split {ℓ : Loc nD τ sig} (f : Buf (Elt F) ℓ) :
    (ℓ ↦{fullShare} f : sProp 𝕄) = bigSep Finset.univ fun t : Tile => ℓ ↦{tileShare (Lp t)} f := by
  rw [pointsTo_leaves Finset.univ f 5 fullShare, bigSep_univ_equiv tileEquiv]
  exact bigSep_congr fun t _ => by rw [tileShare_eq]

end Shares

/-! ## Whole arrays, tile by tile -/

section Whole

omit [FloatOps F] in
theorem bigSep_bool (Φ : Bool → sProp 𝕄) : bigSep Finset.univ Φ = iprop(Φ false ∗ Φ true) := by
  rw [show (Finset.univ : Finset Bool) = {false, true} by decide, bigSep_insert (by decide), bigSep_singleton]; rfl

/-- The tiles' pieces as sets of indices of the arrays they are pieces of. -/
def uSetD (d : Dev nD) (t : Tile) : Finset (Idx (uLoc d)) := (uSl (Lp t)).view.set
def iSetD (d : Dev nD) (t : Tile) : Finset (Idx (iLoc d)) := (iSl (Lp t)).view.set
def xPieceD (d : Dev nD) (p : Tile × Bool) : Finset (Idx (xLoc d)) := if p.2 then (xSlB (Lp p.1)).view.set else (xSlA (Lp p.1)).view.set

omit [FloatOps F] in
theorem uSetD_disjoint (d : Dev nD) : ∀ t ∈ (Finset.univ : Finset Tile), ∀ t' ∈ (Finset.univ : Finset Tile), t ≠ t' → Disjoint (uSetD d t) (uSetD d t') := by
  intro t _ t' _ hne
  refine Finset.disjoint_left.mpr fun j h h' => hne (tile_eq_of ?_)
  have e := (mem_uSl (Lp t) j).mp h
  have e' := (mem_uSl (Lp t') j).mp h'
  rw [Lp0, Lp1] at e e'
  have h1 : t.1.val < 2 := t.1.isLt; have h2 : t'.1.val < 2 := t'.1.isLt
  omega
omit [FloatOps F] in
theorem iSetD_disjoint (d : Dev nD) : ∀ t ∈ (Finset.univ : Finset Tile), ∀ t' ∈ (Finset.univ : Finset Tile), t ≠ t' → Disjoint (iSetD d t) (iSetD d t') := by
  intro t _ t' _ hne
  refine Finset.disjoint_left.mpr fun j h h' => hne (tile_eq_of ?_)
  have e := (mem_iSl (Lp t) j).mp h
  have e' := (mem_iSl (Lp t') j).mp h'
  rw [Lp0, Lp1] at e e'
  have h1 : t.1.val < 2 := t.1.isLt; have h2 : t'.1.val < 2 := t'.1.isLt
  omega
omit [FloatOps F] in
theorem uSetD_cover (d : Dev nD) : (Finset.univ : Finset Tile).biUnion (uSetD d) = Finset.univ :=
  Finset.eq_univ_iff_forall.mpr fun j => Finset.mem_biUnion.mpr ⟨tileOf (j 0).val (j 0).isLt, Finset.mem_univ _,
    (mem_uSl (Lp (tileOf (j 0).val (j 0).isLt)) j).mpr (by rw [Lp0, Lp1]; exact tileOf_range _ _)⟩
omit [FloatOps F] in
theorem iSetD_cover (d : Dev nD) : (Finset.univ : Finset Tile).biUnion (iSetD d) = Finset.univ :=
  Finset.eq_univ_iff_forall.mpr fun j => Finset.mem_biUnion.mpr ⟨tileOf (j 0).val (j 0).isLt, Finset.mem_univ _,
    (mem_iSl (Lp (tileOf (j 0).val (j 0).isLt)) j).mpr (by rw [Lp0, Lp1]; exact tileOf_range _ _)⟩

omit [FloatOps F] in
theorem mem_xPieceD (d : Dev nD) (t : Tile) (b : Bool) (j : Idx (xLoc d)) :
    j ∈ xPieceD d (t, b) ↔ (1024 * t.2.val + 512 * t.1.val ≤ (j 0).val ∧ (j 0).val < 1024 * t.2.val + 512 * t.1.val + 512) ∧ (if b then 128 ≤ (j 1).val else (j 1).val < 128) := by
  cases b
  · exact mem_xSlA (Lp t) j
  · exact mem_xSlB (Lp t) j
omit [FloatOps F] in
theorem xPieceD_disjoint (d : Dev nD) : ∀ p ∈ (Finset.univ : Finset (Tile × Bool)), ∀ p' ∈ (Finset.univ : Finset (Tile × Bool)), p ≠ p' → Disjoint (xPieceD d p) (xPieceD d p') := by
  rintro ⟨t, b⟩ _ ⟨t', b'⟩ _ hne
  refine Finset.disjoint_left.mpr fun j h h' => ?_
  rw [mem_xPieceD] at h h'
  have key : 1024 * t.2.val + 512 * t.1.val = 1024 * t'.2.val + 512 * t'.1.val → b = b' → False := fun e e' => hne (by rw [tile_eq_of e, e'])
  have h1 : t.1.val < 2 := t.1.isLt; have h2 : t'.1.val < 2 := t'.1.isLt
  cases b <;> cases b' <;> simp only [Bool.false_eq_true, if_false, if_true] at h h'
  · exact key (by omega) rfl
  · omega
  · omega
  · exact key (by omega) rfl
omit [FloatOps F] in
theorem xPieceD_cover (d : Dev nD) : (Finset.univ : Finset (Tile × Bool)).biUnion (xPieceD d) = Finset.univ := by
  refine Finset.eq_univ_iff_forall.mpr fun j => ?_
  by_cases hl : (j 1).val < 128
  · refine Finset.mem_biUnion.mpr ⟨(tileOf (j 0).val (j 0).isLt, false), Finset.mem_univ _, ?_⟩
    rw [mem_xPieceD]; exact ⟨tileOf_range _ _, by simpa using hl⟩
  · refine Finset.mem_biUnion.mpr ⟨(tileOf (j 0).val (j 0).isLt, true), Finset.mem_univ _, ?_⟩
    rw [mem_xPieceD]; exact ⟨tileOf_range _ _, by simp only [if_true]; omega⟩

omit [FloatOps F] in
theorem u_split (d : Dev nD) (f : Buf (Elt F) (uLoc d)) :
    (uLoc d ↦{fullShare} f : sProp 𝕄) = bigSep Finset.univ fun t : Tile => uLoc d ↦[(uSl (Lp t)).view.set]{fullShare} f := by
  rw [← uSetD_cover d, pointsTo_biUnion Finset.univ (uSetD d) (uSetD_disjoint d)]; rfl
omit [FloatOps F] in
theorem i_split (d : Dev nD) (f : Buf (Elt F) (iLoc d)) :
    (iLoc d ↦{fullShare} f : sProp 𝕄) = bigSep Finset.univ fun t : Tile => iLoc d ↦[(iSl (Lp t)).view.set]{fullShare} f := by
  rw [← iSetD_cover d, pointsTo_biUnion Finset.univ (iSetD d) (iSetD_disjoint d)]; rfl
omit [FloatOps F] in
theorem x_split (d : Dev nD) (f : Buf (Elt F) (xLoc d)) :
    (xLoc d ↦{fullShare} f : sProp 𝕄) = bigSep Finset.univ fun t : Tile => iprop(xAPts d (Lp t) f ∗ xBPts d (Lp t) f) := by
  rw [← xPieceD_cover d, pointsTo_biUnion Finset.univ (xPieceD d) (xPieceD_disjoint d), bigSep_univ_prod]
  exact bigSep_congr fun t _ => by rw [bigSep_bool]; rfl

/-- The two predicates as one family over the pieces. -/
def Gp (d : Dev nD) (p : Tile × Bool) (f : Buf (Elt F) (xLoc d)) : Prop := if p.2 then GB d (Lp p.1) f else GA d (Lp p.1) f

/-- What a tile leaves is invariant under a change of the array off the tile's piece. -/
def Local : Prop :=
  (∀ d L (f f' : Buf (Elt F) (xLoc d)), (∀ i ∈ (xSlA L).view.set, f' i = f i) → GA d L f → GA d L f')
  ∧ (∀ d L (f f' : Buf (Elt F) (xLoc d)), (∀ i ∈ (xSlB L).view.set, f' i = f i) → GB d L f → GB d L f')

set_option maxRecDepth 65536 in
/-- The sixty-four pieces, each at contents of which its predicate holds, are the whole gathered array at contents of
    which every tile's two predicates hold. -/
theorem x_join [∀ e, Nonempty (Elt F e)] (hl : Local GA GB) (d : Dev nD) :
    (bigSep Finset.univ fun t : Tile => iprop((∃ f, ⌜GA d (Lp t) f⌝ ∗ xAPts d (Lp t) f) ∗ (∃ f, ⌜GB d (Lp t) f⌝ ∗ xBPts d (Lp t) f)) : sProp 𝕄)
      ⊢ iprop(∃ g, ⌜∀ t : Tile, GA d (Lp t) g ∧ GB d (Lp t) g⌝ ∗ xLoc d ↦{fullShare} g) := by
  have e : (bigSep Finset.univ fun t : Tile => iprop((∃ f, ⌜GA d (Lp t) f⌝ ∗ xAPts d (Lp t) f) ∗ (∃ f, ⌜GB d (Lp t) f⌝ ∗ xBPts d (Lp t) f)) : sProp 𝕄)
      = bigSep Finset.univ fun p : Tile × Bool => iprop(∃ f, ⌜Gp GA GB d p f⌝ ∗ xLoc d ↦[xPieceD d p]{fullShare} f) := by
    refine Eq.trans ?_ (bigSep_univ_prod _).symm
    exact bigSep_congr fun t _ => by rw [bigSep_bool]; rfl
  rw [e]
  refine (bigSep_exists_pi Finset.univ (fun (p : Tile × Bool) (f : Buf (Elt F) (xLoc d)) => iprop(⌜Gp GA GB d p f⌝ ∗ xLoc d ↦[xPieceD d p]{fullShare} f))).trans ?_
  iintro ⟨%fs, H⟩
  ihave H' := (bigSep_pure_sep Finset.univ (fun p => Gp GA GB d p (fs p)) (fun p => (xLoc d ↦[xPieceD d p]{fullShare} fs p : sProp 𝕄))) $$ H
  icases H' with ⟨%hG, H⟩
  have : Nonempty (Buf (Elt F) (xLoc d)) := ⟨fs (tileOf 0 (by omega), false)⟩
  ihave H'' := (pointsTo_biUnion_join (ℓ := xLoc d) (q := fullShare) (Val := Elt F) Finset.univ (xPieceD d) fs (fs (tileOf 0 (by omega), false)) (xPieceD_disjoint d)) $$ H
  icases H'' with ⟨%g, %hg, Hg⟩
  rw [xPieceD_cover d]
  iexists g
  isplitr
  · ipureintro
    intro t
    refine ⟨hl.1 d (Lp t) (fs (t, false)) g (fun i hi => hg (t, false) (Finset.mem_univ _) i ?_) (hG (t, false) (Finset.mem_univ _)),
      hl.2 d (Lp t) (fs (t, true)) g (fun i hi => hg (t, true) (Finset.mem_univ _) i ?_) (hG (t, true) (Finset.mem_univ _))⟩
    · exact hi
    · exact hi
  · iexact Hg

end Whole

/-! ## The launch element: the handshakes' cells and the pallas_call's staging cells -/

section Launch

/-- The pallas_call's staging cells live in the second component of the resource algebra. -/
abbrev EP : Emb (UR sig nD τ) (MT nD τ sig (HIx 1) (Elt F) ℕ UU ℕ) := ((Emb.inl : Emb (UR sig nD τ) (UR sig nD τ × Counters)).trans embR)

instance EP_landsIn : (EP (F := F)).LandsIn (upEmb : UEmb _ 𝕄) := by unfold EP; infer_instance

abbrev pcs := Pipeline.pin (pcfgs (F := F)) (TcRegion.adm (F := F))

def u₀ : UU := (initOf (K (F := F)).hsCells (K (F := F)).hsToks, (initOf (Pipeline.cells (pcs (F := F)) cellOf_inj) (Pipeline.launchToks (pcs (F := F)) cellOf_inj), 1))

/-- What @main starts from beside the handshakes: the staging cells' ghost state and launch tokens. -/
abbrev Gd (d : Dev nD) : sProp 𝕄 := iprop(Pipeline.cellsGhost (pcs (F := F)) EP 0 d ∗ Pipeline.toksInit (pcs (F := F)) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m GA GB).x q thr) := by
  unfold u₀
  iintro Hu
  ihave H := (ownU_pair (initOf (K (F := F)).hsCells (K (F := F)).hsToks) _) $$ Hu
  icases H with ⟨HH, HR⟩
  ihave H2 := (own_pair_emb embR _ _) $$ HR
  icases H2 with ⟨HP, -⟩
  imod (Pipeline.fund_ghost (pcs (F := F)) (EP (F := F)) cellOf_inj) $$ HP with ⟨Hg, Ht⟩
  imodintro
  isplitl [HH]; · iexact HH
  isplitl [Hg Ht]
  · rw [bigSep_sep']
    isplitl [Hg]
    · ihave Hg' := (Entails.of_eq (bigSep_congr (s := Finset.univ) fun (d : Dev nD) _ => bigSep_univ_of_subsingleton (0 : Fin 1) (Φ := fun p => (Pipeline.cellsGhost (pcs (F := F)) (EP (F := F)) p d : sProp 𝕄)))) $$ Hg
      iexact Hg'
    · ihave Ht' := (Entails.of_eq (bigSep_congr (s := Finset.univ) fun (d : Dev nD) _ => bigSep_univ_of_subsingleton (0 : Fin 1) (Φ := fun p => (Pipeline.toksInit (pcs (F := F)) (EP (F := F)) p d : sProp 𝕄)))) $$ Ht
      iexact Ht'
  rw [show (bigSep Finset.univ fun thr : Thread nD τ => bigSep Finset.univ fun q : Fin 1 => (P (F := F) m GA GB).x q thr) = bigSep Finset.univ fun _ => iprop(emp) from
    bigSep_congr fun _ _ => bigSep_univ_of_subsingleton (0 : Fin 1), bigSep_emp']
  iempintro

end Launch

/-! ## @main on the TensorCore -/

section Main

variable [∀ e, Nonempty (Elt F e)]

abbrev aLoc (b : Ref sig .tc) (d : Dev nD) : Loc nD τ sig := (SparseCore.T d).loc b

/-- The gathered array `g` of device `d`, read at any device (there is one). -/
def gAt (d : Dev nD) (g : Buf (Elt F) (xLoc d)) (c : Dev nD) : Buf (Elt F) (xLoc c) :=
  cast (congrArg (fun c' => Buf (Elt F) (xLoc c')) (Subsingleton.elim d c)) g
omit [FloatOps F] [∀ e, Nonempty (Elt F e)] in
theorem gAt_self (d : Dev nD) (g : Buf (Elt F) (xLoc d)) : gAt d g d = g := cast_eq _ _

/-- The arrays as the pallas_call finds them: the launch's, the gathered array at `g`. -/
def Vof (d : Dev nD) (g : Buf (Elt F) (xLoc d)) : (c : Dev nD) → (b : Ref sig .tc) → Buf (Elt F) ((c : Thread nD τ).loc b) :=
  fun c => Function.update (fun b => m ((c : Thread nD τ).loc b)) main_v0 (gAt d g c)

omit [FloatOps F] [∀ e, Nonempty (Elt F e)] in
theorem Vof_v0 (d : Dev nD) (g : Buf (Elt F) (xLoc d)) : Vof m d g d main_v0 = g := by
  unfold Vof; rw [Function.update_self, gAt_self]
omit [FloatOps F] [∀ e, Nonempty (Elt F e)] in
theorem Vof_ne (d : Dev nD) (g : Buf (Elt F) (xLoc d)) (c : Dev nD) (b : Ref sig .tc) (h : b ≠ main_v0) : Vof m d g c b = m ((c : Thread nD τ).loc b) := by
  unfold Vof; exact Function.update_of_ne h _ _

/-- What follows the SparseCore call, in the pallas_calls' own signature. -/
def tailP : Prog (TpuEff nD τ sig (Elt F) (ΛP (F := F)) .tc) PUnit := do
  Prog.lift (.customCall (Pipeline.entry 0) ())
  hlo rfl (StableHlo.reshape main_v1 main_v2 rfl shapeCasts_S4x1x4096_S16384) (fun _ => .ret ⟨⟩)
  pure ⟨⟩

theorem main_eq (d : Dev nD) : main (F := F) d = ((K (F := F)).run d 0 >>= fun _ => SparseCore.liftProg (Q := 1) (tailP (F := F))) := rfl

/-- The final reshape. -/
abbrev opR : HloOp τ sig (Elt F) := StableHlo.reshape main_v1 main_v2 rfl shapeCasts_S4x1x4096_S16384
abbrev v1' : DevRef τ sig := Proc.devRef .tc (main_v1 : Ref sig .tc)
abbrev v2' : DevRef τ sig := Proc.devRef .tc (main_v2 : Ref sig .tc)

/-- The device's valuation before the reshape: the launch's, the pallas_call's result at `o`. -/
def Fv (d : Dev nD) (o : Buf (Elt F) (aLoc main_v1 d)) : Valuation τ sig (Elt F) := Function.update (fun b => m (d, b)) v1' o

/-- The result array, as a function of the gathered array. -/
def Rv (d : Dev nD) (g : Buf (Elt F) (xLoc d)) : Buf (Elt F) (aLoc main_v2 d) :=
  (opR (F := F)).result (Fv m d (TcRegion.out1 (Vof m d g) d)) v2'

omit [FloatOps F] [∀ e, Nonempty (Elt F e)] in
theorem unscopedBufs_eq (d : Dev nD) (W : (b : Ref sig .tc) → Buf (Elt F) ((d.tc : Thread nD τ).loc b)) :
    (unscopedBufs d W : sProp 𝕄)
      = iprop((aLoc main_arg0 d ↦{fullShare} W main_arg0) ∗ (aLoc main_arg1 d ↦{fullShare} W main_arg1) ∗ (aLoc main_arg2 d ↦{fullShare} W main_arg2) ∗ (aLoc main_arg3 d ↦{fullShare} W main_arg3)
        ∗ (aLoc main_arg4 d ↦{fullShare} W main_arg4) ∗ (aLoc main_arg5 d ↦{fullShare} W main_arg5) ∗ (aLoc main_arg6 d ↦{fullShare} W main_arg6) ∗ (aLoc main_arg7 d ↦{fullShare} W main_arg7)
        ∗ (aLoc main_arg8 d ↦{fullShare} W main_arg8) ∗ (aLoc main_arg9 d ↦{fullShare} W main_arg9) ∗ (aLoc main_v0 d ↦{fullShare} W main_v0) ∗ (aLoc main_v1 d ↦{fullShare} W main_v1)
        ∗ aLoc main_v2 d ↦{fullShare} W main_v2) := by
  unfold unscopedBufs
  rw [show (Finset.univ.filter fun b : Ref sig .tc => ¬ b.isScoped) = {main_arg0, main_arg1, main_arg2, main_arg3, main_arg4, main_arg5, main_arg6, main_arg7, main_arg8, main_arg9, main_v0, main_v1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] [∀ e, Nonempty (Elt F e)] in
theorem opBufs_eq (d : Dev nD) (W : Valuation τ sig (Elt F)) :
    (bigSep (opR (F := F)).bufs (fun b => ((d, b) : Loc nD τ sig) ↦{fullShare} W b) : sProp 𝕄)
      = iprop((aLoc main_v1 d ↦{fullShare} W v1') ∗ aLoc main_v2 d ↦{fullShare} W v2') := by
  show bigSep ({v1', v2'} : Finset (DevRef τ sig)) (fun b => ((d, b) : Loc nD τ sig) ↦{fullShare} W b) = _
  rw [SparseCore.bigSep_insert' (by decide), bigSep_singleton]

/-- The call's operands, all tiles at once, are the five whole arrays; -/
theorem st_eq (d : Dev nD) :
    (bigSep Finset.univ fun c : Fin ((K (F := F)).nCore 0) => (P m GA GB).st 0 d c)
      = iprop((uLoc d ↦{fullShare} m (uLoc d)) ∗ (iLoc d ↦{fullShare} m (iLoc d)) ∗ (tuLoc d ↦{fullShare} m (tuLoc d)) ∗ (tiLoc d ↦{fullShare} m (tiLoc d)) ∗ xLoc d ↦{fullShare} m (xLoc d)) := by
  have e : (bigSep Finset.univ fun c : Fin ((K (F := F)).nCore 0) => (P m GA GB).st 0 d c) = bigSep Finset.univ fun t : Tile => goRes m d (Lp t) :=
    (bigSep_univ_prod (fun t : Tile => goRes m d (Lp t))).symm
  rw [e]
  unfold goRes uPts iPts tuPts tiPts
  rw [bigSep_sep', bigSep_sep', bigSep_sep', bigSep_sep', ← u_split, ← i_split, ← table_split, ← table_split, ← x_split]
/-- its results the same, the gathered array piece by piece. -/
theorem dn_eq (d : Dev nD) :
    (bigSep Finset.univ fun c : Fin ((K (F := F)).nCore 0) => (P m GA GB).dn 0 d c)
      = iprop((uLoc d ↦{fullShare} m (uLoc d)) ∗ (iLoc d ↦{fullShare} m (iLoc d)) ∗ (tuLoc d ↦{fullShare} m (tuLoc d)) ∗ (tiLoc d ↦{fullShare} m (tiLoc d))
          ∗ bigSep Finset.univ fun t : Tile => iprop((∃ f, ⌜GA d (Lp t) f⌝ ∗ xAPts d (Lp t) f) ∗ (∃ f, ⌜GB d (Lp t) f⌝ ∗ xBPts d (Lp t) f))) := by
  have e : (bigSep Finset.univ fun c : Fin ((K (F := F)).nCore 0) => (P m GA GB).dn 0 d c) = bigSep Finset.univ fun t : Tile => tdRes m d (Lp t) GA GB :=
    (bigSep_univ_prod (fun t : Tile => tdRes m d (Lp t) GA GB)).symm
  rw [e]
  unfold tdRes uPts iPts tuPts tiPts
  rw [bigSep_sep', bigSep_sep', bigSep_sep', bigSep_sep', ← u_split, ← i_split, ← table_split, ← table_split]

end Main

section MainObligation

variable [∀ e, Nonempty (Elt F e)]

/-- The recorded waits the TensorCore may carry past the pallas_call: those at or below level 8. -/
def Bw (d : Dev nD) : Set (SemLoc sig × HIx 1) := {p | (K (F := F)).lev (SparseCore.T d, p.1) p.2 ≤ 8}

/-- What @main leaves the claim: the ten arguments as they were, the result array a named function of a gathered array of
    which every tile's predicates hold. -/
def FIN (d : Dev nD) : sProp 𝕄 :=
  iprop((aLoc main_arg0 d ↦{fullShare} m (aLoc main_arg0 d)) ∗ (aLoc main_arg1 d ↦{fullShare} m (aLoc main_arg1 d)) ∗ (aLoc main_arg2 d ↦{fullShare} m (aLoc main_arg2 d))
    ∗ (aLoc main_arg3 d ↦{fullShare} m (aLoc main_arg3 d)) ∗ (aLoc main_arg4 d ↦{fullShare} m (aLoc main_arg4 d)) ∗ (aLoc main_arg5 d ↦{fullShare} m (aLoc main_arg5 d))
    ∗ (aLoc main_arg6 d ↦{fullShare} m (aLoc main_arg6 d)) ∗ (aLoc main_arg7 d ↦{fullShare} m (aLoc main_arg7 d)) ∗ (aLoc main_arg8 d ↦{fullShare} m (aLoc main_arg8 d))
    ∗ (aLoc main_arg9 d ↦{fullShare} m (aLoc main_arg9 d))
    ∗ ∃ g, ⌜∀ t : Tile, GA d (Lp t) g ∧ GB d (Lp t) g⌝ ∗ aLoc main_v2 d ↦{fullShare} Rv m d g)

set_option maxHeartbeats 4000000 in
set_option maxRecDepth 16384 in
/-- @main on device `d`'s TensorCore: the SparseCore call on the whole arrays, the pallas_call as one region step on the
    gathered array, the reshape. -/
theorem hmain (hl : Local GA GB) (κ : GSem nD τ sig → ℕ) (d : Dev nD) :
    iprop((K (F := F)).ctx EH (P m GA GB) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m GA GB d) := by
  unfold SparseCore.Cfg.tcRes
  rw [unscopedBufs_eq, main_eq, wp_bind]
  iintro ⟨#Hctx, Hst, ⟨Hb, ⟨H0, H1, H2, H3, H4, H5, H6, H7, H8, H9, Hx, Hv1, Hv2⟩, -, -⟩, ⟨Hcg, Hti⟩⟩
  ihave Hlev := (SparseCore.Cfg.ctx_levAts κ) $$ Hctx
  iapply ((K (F := F)).wp_run (D (F := F)) 𝒱 (EH := EH) (P := P m GA GB) κ d 0) $$ [Hst H0 H1 H2 H3 Hx Hb H4 H5 H6 H7 H8 H9 Hv1 Hv2 Hcg Hti]
  isplitr; · iexact Hctx
  isplitl [Hst]; · iexact Hst
  isplitl [H0 H1 H2 H3 Hx]
  · rw [st_eq]
    isplitl [H0]; · iexact H0
    isplitl [H1]; · iexact H1
    isplitl [H2]; · iexact H2
    isplitl [H3]; · iexact H3
    iexact Hx
  iintro ⟨Hst, Hdn⟩
  ihave Hdn' := (Entails.of_eq (dn_eq m GA GB d)) $$ Hdn
  icases Hdn' with ⟨H0, H1, H2, H3, Hx⟩
  ihave Hx' := (x_join GA GB hl d) $$ Hx
  icases Hx' with ⟨%g, %hg, Hx⟩
  -- the rest of @main, in the pallas_calls' own signature
  iapply ((K (F := F)).wp_liftProg (D (F := F)) 𝒱 (SparseCore.T d) Set.univ none (tailP (F := F)) _)
  unfold tailP
  simp only [bind_assoc, wp_bind, wp_pure]
  unfold SparseCore.Cfg.tcSt
  icases Hst with ⟨⟨%W, %hW, HO⟩, Hrest⟩
  rw [(K (F := F)).Otc_end d (le_refl 1)]
  iapply (TcRegion.region_wp (Vof m d g) (Bw (F := F)) 𝒱₀ (none : HIx 1) (K (F := F)).L (K (F := F)).lev (EP (F := F)) d _ _) $$ [Hb Hx H4 H5 H6 H7 H8 H9 Hv1 HO Hcg Hti H0 H1 H2 H3 Hv2 Hrest]
  isplitr [Hb Hx H4 H5 H6 H7 H8 H9 Hv1 HO Hcg Hti]
  swap
  · isplitl [Hb]; · iexact Hb
    isplitl [Hx H4 H5 H6 H7 H8 H9 Hv1 HO]
    · isplitl [Hx H4 H5 H6 H7 H8 H9 Hv1]
      · unfold TcRegion.held
        rw [Vof_v0, Vof_ne m d g d main_arg4 (by decide), Vof_ne m d g d main_arg5 (by decide), Vof_ne m d g d main_arg6 (by decide), Vof_ne m d g d main_arg7 (by decide),
          Vof_ne m d g d main_arg8 (by decide), Vof_ne m d g d main_arg9 (by decide), Vof_ne m d g d main_v1 (by decide)]
        isplitl [Hx]; · iexact Hx
        isplitl [H4]; · iexact H4
        isplitl [H5]; · iexact H5
        isplitl [H6]; · iexact H6
        isplitl [H7]; · iexact H7
        isplitl [H8]; · iexact H8
        isplitl [H9]; · iexact H9
        iexact Hv1
      · unfold Pipeline.owesWithin
        iexists W; isplitr
        · ipureintro; exact fun p hp => hW p hp
        · iexact HO
    isplitr; · iexact Hlev
    isplitl [Hcg]; · iexact Hcg
    iexact Hti
  iintro ⟨Hb, Hheld, HO⟩
  unfold TcRegion.held
  rw [Vof_v0, Vof_ne m d g d main_arg4 (by decide), Vof_ne m d g d main_arg5 (by decide), Vof_ne m d g d main_arg6 (by decide), Vof_ne m d g d main_arg7 (by decide),
    Vof_ne m d g d main_arg8 (by decide), Vof_ne m d g d main_arg9 (by decide)]
  icases Hheld with ⟨Hx, H4, H5, H6, H7, H8, H9, Hv1⟩
  -- the reshape
  rw [wp_ret]; imodintro
  iapply (wp_hlo 𝒱 (SparseCore.T d) none Set.univ (op := opR (F := F)) (q := fun _ => fullShare) (F := Fv m d (TcRegion.out1 (Vof m d g) d)) (fun _ _ => rfl)) $$ [Hb Hv1 Hv2]
  · isplitl [Hb]; · iexact Hb
    rw [opBufs_eq]
    isplitl [Hv1]
    · rw [show Fv m d (TcRegion.out1 (Vof m d g) d) v1' = TcRegion.out1 (Vof m d g) d from Function.update_self _ _ _]; iexact Hv1
    · rw [show Fv m d (TcRegion.out1 (Vof m d g) d) v2' = m (aLoc main_v2 d) from Function.update_of_ne (show v2' ≠ v1' by decide) _ _]; iexact Hv2
  rw [opBufs_eq]
  iintro ⟨Hb, -, Hv2⟩
  rw [wp_ret]; imodintro; imodintro
  isplitl [HO Hrest]
  · isplitl [HO]
    · unfold Pipeline.owesWithin
      icases HO with ⟨%W', %hW', HO⟩
      iexists W'; isplitr
      · ipureintro
        intro p hp
        rcases hW' hp with h | ⟨w, s, rfl⟩
        · exact h
        · show (K (F := F)).lev _ none ≤ 8 * 1
          rw [SparseCore.Cfg.lev_none]; omega
      · iexact HO
    · iexact Hrest
  unfold FIN
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists g; isplitr
  · ipureintro; exact hg
  · iexact Hv2

end MainObligation

/-! ## The program's run -/

section Run

variable [∀ e, Nonempty (Elt F e)]

/-- What the claim reads of device `d`'s final state. -/
def fq (d : Dev nD) (s' : Phys nD τ sig (Elt F)) : Prop :=
  (∃ g, (∀ t : Tile, GA d (Lp t) g ∧ GB d (Lp t) g) ∧ s'.mem.mem (aLoc main_v2 d) = Rv m d g)
  ∧ s'.mem.mem (aLoc main_arg0 d) = m (aLoc main_arg0 d) ∧ s'.mem.mem (aLoc main_arg1 d) = m (aLoc main_arg1 d) ∧ s'.mem.mem (aLoc main_arg2 d) = m (aLoc main_arg2 d)
  ∧ s'.mem.mem (aLoc main_arg3 d) = m (aLoc main_arg3 d) ∧ s'.mem.mem (aLoc main_arg4 d) = m (aLoc main_arg4 d) ∧ s'.mem.mem (aLoc main_arg5 d) = m (aLoc main_arg5 d)
  ∧ s'.mem.mem (aLoc main_arg6 d) = m (aLoc main_arg6 d) ∧ s'.mem.mem (aLoc main_arg7 d) = m (aLoc main_arg7 d) ∧ s'.mem.mem (aLoc main_arg8 d) = m (aLoc main_arg8 d)
  ∧ s'.mem.mem (aLoc main_arg9 d) = m (aLoc main_arg9 d)

omit [FloatOps F] [∀ e, Nonempty (Elt F e)] in
/-- A whole buffer held at `f` beside the state interpretation: the memory holds `f` there. -/
theorem agree_whole (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro ⟨HSI, H⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

set_option maxRecDepth 16384 in
theorem hfin (d : Dev nD) (s' : Phys nD τ sig (Elt F)) : iprop(FIN m GA GB d ∗ SI s') ⊢ (⌜fq m GA GB d s'⌝ : sProp 𝕄) := by
  unfold FIN
  iintro ⟨⟨H0, H1, H2, H3, H4, H5, H6, H7, H8, H9, %g, %hg, Hv2⟩, HSI⟩
  ihave A := (agree_whole s' _ _) $$ [HSI H0]; · isplitl [HSI] <;> iassumption
  icases A with ⟨%e0, HSI⟩
  ihave A := (agree_whole s' _ _) $$ [HSI H1]; · isplitl [HSI] <;> iassumption
  icases A with ⟨%e1, HSI⟩
  ihave A := (agree_whole s' _ _) $$ [HSI H2]; · isplitl [HSI] <;> iassumption
  icases A with ⟨%e2, HSI⟩
  ihave A := (agree_whole s' _ _) $$ [HSI H3]; · isplitl [HSI] <;> iassumption
  icases A with ⟨%e3, HSI⟩
  ihave A := (agree_whole s' _ _) $$ [HSI H4]; · isplitl [HSI] <;> iassumption
  icases A with ⟨%e4, HSI⟩
  ihave A := (agree_whole s' _ _) $$ [HSI H5]; · isplitl [HSI] <;> iassumption
  icases A with ⟨%e5, HSI⟩
  ihave A := (agree_whole s' _ _) $$ [HSI H6]; · isplitl [HSI] <;> iassumption
  icases A with ⟨%e6, HSI⟩
  ihave A := (agree_whole s' _ _) $$ [HSI H7]; · isplitl [HSI] <;> iassumption
  icases A with ⟨%e7, HSI⟩
  ihave A := (agree_whole s' _ _) $$ [HSI H8]; · isplitl [HSI] <;> iassumption
  icases A with ⟨%e8, HSI⟩
  ihave A := (agree_whole s' _ _) $$ [HSI H9]; · isplitl [HSI] <;> iassumption
  icases A with ⟨%e9, HSI⟩
  ihave A := (agree_whole s' _ _) $$ [HSI Hv2]; · isplitl [HSI] <;> iassumption
  icases A with ⟨%ev, -⟩
  ipureintro
  exact ⟨⟨g, hg, ev⟩, e0, e1, e2, e3, e4, e5, e6, e7, e8, e9⟩

/-- The run's post: on every device, the result array is the named function of a gathered array of which every tile's
    predicates hold, and the ten arguments are as they were. -/
def QC : PUnit × MemSt nD τ sig (Elt F) → Prop := fun r => ∀ c : Dev nD,
  (∃ g, (∀ t : Tile, GA c (Lp t) g ∧ GB c (Lp t) g) ∧ r.2.mem (aLoc main_v2 c) = Rv m c g)
  ∧ r.2.mem (aLoc main_arg0 c) = m (aLoc main_arg0 c) ∧ r.2.mem (aLoc main_arg1 c) = m (aLoc main_arg1 c) ∧ r.2.mem (aLoc main_arg2 c) = m (aLoc main_arg2 c)
  ∧ r.2.mem (aLoc main_arg3 c) = m (aLoc main_arg3 c) ∧ r.2.mem (aLoc main_arg4 c) = m (aLoc main_arg4 c) ∧ r.2.mem (aLoc main_arg5 c) = m (aLoc main_arg5 c)
  ∧ r.2.mem (aLoc main_arg6 c) = m (aLoc main_arg6 c) ∧ r.2.mem (aLoc main_arg7 c) = m (aLoc main_arg7 c) ∧ r.2.mem (aLoc main_arg8 c) = m (aLoc main_arg8 c)
  ∧ r.2.mem (aLoc main_arg9 c) = m (aLoc main_arg9 c)

/-- Every weakly fair execution of the kernel's threads terminates, nothing faulting, in a state the post describes. -/
theorem run_main (hpre : PreOK m) (hG : Leaves m GA GB) (hl : Local GA GB) :
    θ_run (Cert.Kernel.defs (F := F)) (Cert.Kernel.threads (F := F)) ⟨m, fun _ => 0, ρ⟩ (QC m GA GB) :=
  SparseCore.Cfg.θ_run_sc (K := K (F := F)) (D := D (F := F)) (𝒱 := 𝒱) (EH := EH) (P := P m GA GB) facts v₀
    (fun q hq => match q with | 0 => nomatch hq)
    (fun q _ => match q with | 0 => tileObl m GA GB facts hpre hG)
    (fun q _ => match q with | 0 => SparseCore.Cfg.VecSplit.of_plain (vecSplit m GA GB))
    m ρ main (fun d => Gd (F := F) d) (FIN m GA GB) (u₀ (F := F)) (sep_elim_left.trans (hu₀ m GA GB)) (hmain m ρ GA GB hl) (fq m GA GB) (hfin m GA GB) (QC m GA GB) (fun _ h => h)

end Run

end Cert.Kernel.Sc

end
-- ==== Proof.RefTerm.lean ====
/-
  The reference's result as one term of its ten arguments, in the reference's own operations.

  A table lookup `takeRows tbl ids` is spelt as the reference spells it: a row word below zero is first moved up by
  the table's height (`normIdx`); the words become a one-column array of start indices (`startIdx`); the rows are
  gathered at those starts; and a row whose word is outside 0..99999 is replaced by the not-a-number word
  (`inRange` is the test). The two looked-up blocks are set side by side and three dense layers follow, the first
  two rectified (a maximum with the zero word); the one-column result is then read as a flat array.
-/
import proofs.«201248_g17051020165207_cont_7to1_1438_30_alg».proof.ReferenceIdeal

noncomputable section

namespace Cert.ReferenceIdeal.RefRun

open Cert.ReferenceIdeal Idealize.ShloMosaic

variable {F : FTy → Type} [FloatOps F] [Facts]
open Facts₀ Facts

/-- The row words, those below zero moved up by the table's height. -/
def normIdx (ids : IVec S16384 32) : IVec S16384 32 :=
  select (cmpi .slt ids (broadcastInDim S16384 ![] bcast_S_S16384 (constantI S_ 32 0#32)))
    (addi ids (broadcastInDim S16384 ![] bcast_S_S16384 (constantI S_ 32 100000#32))) ids

/-- The same words as a one-column array of start indices. -/
def startIdx (ids : IVec S16384 32) : IVec S16384x1 32 :=
  broadcastInDim S16384x1 ![0] bcast_S16384_S16384x1_0 (normIdx ids)

/-- Per batch row: does its start index lie between 0 and 99999? -/
def inRange (ids : IVec S16384 32) : IVec S16384 1 :=
  Host.reduce IntOp.andi
    (andi (cmpi .sge (startIdx ids) (broadcastInDim S16384x1 ![] bcast_S_S16384x1 (constantI S_ 32 0#32)))
      (cmpi .sle (startIdx ids)
        (broadcastInDim S16384x1 ![0, 1] bcast_S1x1_S16384x1_0_1
          (broadcastInDim S1x1 ![1] bcast_S1_S1x1_1 (constantI S1 32 99999#32)))))
    (constantI S_ 1 1#1) reducesTo_S16384x1_S16384_d1 h_S_

/-- The table's rows at the words `ids`, a row out of range replaced by the not-a-number word. -/
def takeRows (tbl : FVec F S100000x128 .f32) (ids : IVec S16384 32) : FVec F S16384x128 .f32 :=
  select (broadcastInDim S16384x128 ![0] bcast_S16384_S16384x128_0 (inRange ids))
    (Host.gather gather_S100000x128_S16384x1_S16384x128_1_0_n_n_0_1_1128 tbl (startIdx ids))
    (broadcastInDim S16384x128 ![] bcast_S_S16384x128 (constant S_ .f32 0x7FC00000#32))

/-- The two looked-up blocks side by side. -/
def sideBySide (u v : FVec F S16384x128 .f32) : FVec F S16384x256 .f32 :=
  concatenate S16384x256 1 [⟨S16384x128, u⟩, ⟨S16384x128, v⟩] concatenates_S16384x128_S16384x128_S16384x256_d1

/-- The first dense layer, rectified. -/
def layer1 (x : FVec F S16384x256 .f32) (W : FVec F S256x128 .f32) (b : FVec F S128 .f32) : FVec F S16384x128 .f32 :=
  maximumf
    (addf (Host.dotGeneral dot_S16384x256_S256x128_S16384x128_1_0_0_1_n_n none x W)
      (broadcastInDim S16384x128 ![0, 1] bcast_S1x128_S16384x128_0_1 (broadcastInDim S1x128 ![1] bcast_S128_S1x128_1 b)))
    (broadcastInDim S16384x128 ![] bcast_S_S16384x128 (constant S_ .f32 0x00000000#32))

/-- The second dense layer, rectified. -/
def layer2 (x : FVec F S16384x128 .f32) (W : FVec F S128x64 .f32) (b : FVec F S64 .f32) : FVec F S16384x64 .f32 :=
  maximumf
    (addf (Host.dotGeneral dot_S16384x128_S128x64_S16384x64_1_0_0_1_n_n none x W)
      (broadcastInDim S16384x64 ![0, 1] bcast_S1x64_S16384x64_0_1 (broadcastInDim S1x64 ![1] bcast_S64_S1x64_1 b)))
    (broadcastInDim S16384x64 ![] bcast_S_S16384x64 (constant S_ .f32 0x00000000#32))

/-- The last dense layer: one column. -/
def layer3 (x : FVec F S16384x64 .f32) (W : FVec F S64x1 .f32) (b : FVec F S1 .f32) : FVec F S16384x1 .f32 :=
  addf (Host.dotGeneral dot_S16384x64_S64x1_S16384x1_1_0_0_1_n_n none x W)
    (broadcastInDim S16384x1 ![0, 1] bcast_S1x1_S16384x1_0_1 (broadcastInDim S1x1 ![1] bcast_S1_S1x1_1 b))

/-- The reference's result as a term of its ten arguments. -/
def refOut (a0 a1 : IVec S16384 32) (a2 a3 : FVec F S100000x128 .f32) (a4 : FVec F S256x128 .f32) (a5 : FVec F S128 .f32)
    (a6 : FVec F S128x64 .f32) (a7 : FVec F S64 .f32) (a8 : FVec F S64x1 .f32) (a9 : FVec F S1 .f32) : FVec F S16384 .f32 :=
  shapeCast S16384
    (layer3 (layer2 (layer1 (sideBySide (takeRows a2 a0) (takeRows a3 a1)) a4 a5) a6 a7) a8 a9)
    shapeCasts_S16384x1_S16384

end Cert.ReferenceIdeal.RefRun

end
-- ==== Proof.RefRun.lean ====
/-
  The reference's run. Its entry function calls four local functions (two table lookups, each of which calls a
  select, and two rectifiers); with the calls unfolded at their sites it is a straight line of sixty-six array
  operations, each writing a buffer of its own. Run in order from any memory, the line ends with the result buffer
  at `refOut` of the ten argument arrays and the argument arrays as they were.
-/
import proofs.«201248_g17051020165207_cont_7to1_1438_30_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- The entry function's operations in order, the calls unfolded: the first lookup's twenty-three (the select of
    the normalised words is the inner call's one operation), the second lookup's twenty-three, then the entry
    function's own with each rectifier's three in place (the side-by-side step is written by its name `sideBySide`,
    which unfolds to the program's concatenation). -/
abbrev ops : List (HloOp τ sig (Elt F)) :=
  [
    TRef.nullary main_call0.c (constantI S_ 32 0#32),
    TRef.unary main_call0.c main_call0.v0 (broadcastInDim S16384 ![] bcast_S_S16384),
    TRef.binary (.of main_arg0 : TRef sig ⟨S16384, .i32⟩) main_call0.v0 main_call0.v1 (cmpi .slt),
    TRef.nullary main_call0.c_0 (constantI S_ 32 100000#32),
    TRef.unary main_call0.c_0 main_call0.v2 (broadcastInDim S16384 ![] bcast_S_S16384),
    TRef.binary (.of main_arg0 : TRef sig ⟨S16384, .i32⟩) main_call0.v2 main_call0.v3 addi,
    TRef.ternary main_call0.v1 main_call0.v3 (.of main_arg0 : TRef sig ⟨S16384, .i32⟩) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2 : TRef sig ⟨S100000x128, .f32⟩) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg1 : TRef sig ⟨S16384, .i32⟩) main_call1.v0 main_call1.v1 (cmpi .slt),
    TRef.nullary main_call1.c_0 (constantI S_ 32 100000#32),
    TRef.unary main_call1.c_0 main_call1.v2 (broadcastInDim S16384 ![] bcast_S_S16384),
    TRef.binary (.of main_arg1 : TRef sig ⟨S16384, .i32⟩) main_call1.v2 main_call1.v3 addi,
    TRef.ternary main_call1.v1 main_call1.v3 (.of main_arg1 : TRef sig ⟨S16384, .i32⟩) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg3 : TRef sig ⟨S100000x128, .f32⟩) main_call1.v5 main_call1.v13 (fun x i => Host.gather gather_S100000x128_S16384x1_S16384x128_1_0_n_n_0_1_1128 x i),
    TRef.unary main_call1.v12 main_call1.v14 (broadcastInDim S16384x128 ![0] bcast_S16384_S16384x128_0),
    TRef.nullary main_call1.cst (constant S_ .f32 0x7FC00000#32),
    TRef.unary main_call1.cst main_call1.v15 (broadcastInDim S16384x128 ![] bcast_S_S16384x128),
    TRef.ternary main_call1.v14 main_call1.v13 main_call1.v15 main_call1.v16 select,
    binary main_v0 main_v1 main_v2 (sideBySide : (⟨S16384x128, .f32⟩ : BufTy).Contents (Elt F) → (⟨S16384x128, .f32⟩ : BufTy).Contents (Elt F) → (⟨S16384x256, .f32⟩ : BufTy).Contents (Elt F)),
    binary main_v2 main_arg4 main_v3 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg5 main_v4 (broadcastInDim S1x128 ![1] bcast_S128_S1x128_1 : (⟨S128, .f32⟩ : BufTy).Contents (Elt F) → (⟨S1x128, .f32⟩ : BufTy).Contents (Elt F)),
    unary main_v4 main_v5 (broadcastInDim S16384x128 ![0, 1] bcast_S1x128_S16384x128_0_1 : (⟨S1x128, .f32⟩ : BufTy).Contents (Elt F) → (⟨S16384x128, .f32⟩ : BufTy).Contents (Elt F)),
    binary main_v3 main_v5 main_v6 (addf : (⟨S16384x128, .f32⟩ : BufTy).Contents (Elt F) → (⟨S16384x128, .f32⟩ : BufTy).Contents (Elt F) → (⟨S16384x128, .f32⟩ : BufTy).Contents (Elt F)),
    TRef.nullary main_call2.cst (constant S_ .f32 0x00000000#32),
    TRef.unary main_call2.cst main_call2.v0 (broadcastInDim S16384x128 ![] bcast_S_S16384x128),
    TRef.binary (.of main_v6 : TRef sig ⟨S16384x128, .f32⟩) main_call2.v0 main_call2.v1 maximumf,
    binary main_v7 main_arg6 main_v8 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    unary main_arg7 main_v9 (broadcastInDim S1x64 ![1] bcast_S64_S1x64_1 : (⟨S64, .f32⟩ : BufTy).Contents (Elt F) → (⟨S1x64, .f32⟩ : BufTy).Contents (Elt F)),
    unary main_v9 main_v10 (broadcastInDim S16384x64 ![0, 1] bcast_S1x64_S16384x64_0_1 : (⟨S1x64, .f32⟩ : BufTy).Contents (Elt F) → (⟨S16384x64, .f32⟩ : BufTy).Contents (Elt F)),
    binary main_v8 main_v10 main_v11 (addf : (⟨S16384x64, .f32⟩ : BufTy).Contents (Elt F) → (⟨S16384x64, .f32⟩ : BufTy).Contents (Elt F) → (⟨S16384x64, .f32⟩ : BufTy).Contents (Elt F)),
    TRef.nullary main_call3.cst (constant S_ .f32 0x00000000#32),
    TRef.unary main_call3.cst main_call3.v0 (broadcastInDim S16384x64 ![] bcast_S_S16384x64),
    TRef.binary (.of main_v11 : TRef sig ⟨S16384x64, .f32⟩) main_call3.v0 main_call3.v1 maximumf,
    binary main_v12 main_arg8 main_v13 ((fun l r => Host.dotGeneral dot_S16384x64_S64x1_S16384x1_1_0_0_1_n_n none l r) : (⟨S16384x64, .f32⟩ : BufTy).Contents (Elt F) → (⟨S64x1, .f32⟩ : BufTy).Contents (Elt F) → (⟨S16384x1, .f32⟩ : BufTy).Contents (Elt F)),
    unary main_arg9 main_v14 (broadcastInDim S1x1 ![1] bcast_S1_S1x1_1 : (⟨S1, .f32⟩ : BufTy).Contents (Elt F) → (⟨S1x1, .f32⟩ : BufTy).Contents (Elt F)),
    unary main_v14 main_v15 (broadcastInDim S16384x1 ![0, 1] bcast_S1x1_S16384x1_0_1 : (⟨S1x1, .f32⟩ : BufTy).Contents (Elt F) → (⟨S16384x1, .f32⟩ : BufTy).Contents (Elt F)),
    binary main_v13 main_v15 main_v16 (addf : (⟨S16384x1, .f32⟩ : BufTy).Contents (Elt F) → (⟨S16384x1, .f32⟩ : BufTy).Contents (Elt F) → (⟨S16384x1, .f32⟩ : BufTy).Contents (Elt F)),
    reshape main_v16 main_v17 rfl shapeCasts_S16384x1_S16384 ]

set_option maxRecDepth 8192 in
/-- The entry function is that straight line. Sequencing grafts what follows onto a program's end, and it computes on
    these literal programs: with the local functions unfolded at their calls both sides are the same chain of
    sixty-six steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., reshape_bufs_sub ..⟩

/-- Every weakly fair execution of the entry function ends, with each buffer at the line's fold over the memory it
    started from. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the line leaves in the result buffer and in the arguments -/

/-- The result buffer after the line is `refOut` of the argument buffers' contents before it: each operation's
    result read at its own buffer is its function of its operands' contents, and a buffer no operation writes keeps
    its contents; the transports between a buffer's type and its value's type are along equations of a type with
    itself, so they are the identity. -/
theorem out_eq (V : Valuation τ sig (Elt F)) :
    after ops V (main_v17 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  after_results_simp
  simp only [cast_cast, cast_eq]
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

theorem arg8_eq (V : Valuation τ sig (Elt F)) :
    after ops V (main_arg8 : DevRef τ sig) = V (main_arg8 : DevRef τ sig) := by
  after_results_simp

theorem arg9_eq (V : Valuation τ sig (Elt F)) :
    after ops V (main_arg9 : DevRef τ sig) = V (main_arg9 : DevRef τ sig) := by
  after_results_simp

/-- On every device, from any memory with zero counters: every weakly fair execution of the entry function ends with
    the result buffer at `refOut` of the ten argument arrays and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v17).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_all m ρ)

end Cert.ReferenceIdeal.RefRun

end
-- ==== Proof.Spec.lean ====
/-
  The function both programs compute, index by index, on the extended reals.

  A batch row `r` reads one row of each embedding table — the row its user word names and the row its item word
  names — and sets them side by side: `X r l` is the user row's entry `l` for `l < 128` and the item row's entry
  `l - 128` otherwise. Three dense layers follow: `H1 = max (X · W1 + b1) 0`, `H2 = max (H1 · W2 + b2) 0`, and the
  result `G r = H2 r · W3 + b3`. Every sum runs over one contracted axis in its natural order; nothing here is
  rearranged, so no finiteness is needed to state it.

  A word names the row `toNat mod 100000`; under the precondition (every word between 0 and 99999) that is the
  word itself.
-/
import Idealize.ShloMosaic.PureOps.Ideal
import Idealize.ShloMosaic.Lib.ValueIdx

noncomputable section

open scoped BigOperators

namespace Cert.Spec

open Idealize.ShloMosaic Idealize.ShloMosaic.ValueIdx

/-- The table row a 32-bit word names. -/
def rowOf (w : BitVec 32) : Fin 100000 := ⟨w.toNat % 100000, Nat.mod_lt _ (by decide)⟩

theorem rowOf_val_of_lt {w : BitVec 32} (h : w.toNat < 100000) : (rowOf w).val = w.toNat := Nat.mod_eq_of_lt h

section

variable (uid iid : (⟨1, ![16384]⟩ : Shape).Idx → BitVec 32)
  (U I : (⟨2, ![100000, 128]⟩ : Shape).Idx → EReal)
  (W1 : (⟨2, ![256, 128]⟩ : Shape).Idx → EReal) (b1 : (⟨1, ![128]⟩ : Shape).Idx → EReal)
  (W2 : (⟨2, ![128, 64]⟩ : Shape).Idx → EReal) (b2 : (⟨1, ![64]⟩ : Shape).Idx → EReal)
  (W3 : (⟨2, ![64, 1]⟩ : Shape).Idx → EReal) (b3 : (⟨1, ![1]⟩ : Shape).Idx → EReal)

/-- The two gathered rows of batch row `r`, side by side: entry `l`. -/
def X (r : Fin 16384) (l : Fin 256) : EReal :=
  if h : l.val < 128 then U (ix2 (rowOf (uid (ix1 r))) (⟨l.val, h⟩ : Fin 128))
  else I (ix2 (rowOf (iid (ix1 r))) (⟨l.val - 128, by have := l.isLt; omega⟩ : Fin 128))

/-- The first dense layer, rectified. -/
def H1 (r : Fin 16384) (j : Fin 128) : EReal :=
  max ((∑ l : Fin 256, X uid iid U I r l * W1 (ix2 l j)) + b1 (ix1 j)) 0

/-- The second dense layer, rectified. -/
def H2 (r : Fin 16384) (k : Fin 64) : EReal :=
  max ((∑ j : Fin 128, H1 uid iid U I W1 b1 r j * W2 (ix2 j k)) + b2 (ix1 k)) 0

/-- The score of batch row `r`. -/
def score (r : Fin 16384) : EReal :=
  (∑ k : Fin 64, H2 uid iid U I W1 b1 W2 b2 r k * W3 (ix2 k (0 : Fin 1))) + b3 (ix1 (0 : Fin 1))

/-- The result array: one score per batch row. -/
def G : (⟨1, ![16384]⟩ : Shape).Idx → EReal := fun i => score uid iid U I W1 b1 W2 b2 W3 b3 (i 0)

theorem G_ix1 (r : Fin 16384) : G uid iid U I W1 b1 W2 b2 W3 b3 (ix1 r) = score uid iid U I W1 b1 W2 b2 W3 b3 r := rfl

end

end Cert.Spec

end
-- ==== Proof.RefValue.lean ====
/-
  The reference's result term is the specification, index by index, at the exact (extended-real) reading of floats.

  Under the precondition every row word `w` has `w.toNat < 100000`. Then the reference's lookup does nothing but
  look up: the word is not below zero, so it is not moved; the gather reads its start index signed and clamped
  into 0..99999, which leaves it as it is; and the range test holds, so no row is replaced. The looked-up row is
  row `rowOf w`. Setting two blocks of 128 columns side by side reads the first for a column below 128 and the
  second, 128 columns back, otherwise. A product of an m×k by a k×n array at (a, b) is the sum over the contracted
  coordinate c of the entries' products, in the order c = 0, 1, …; a bias given as a row is added to every row;
  the rectifier is the maximum with the zero word, which reads 0; and the final one-column array read flat has
  the same entries in the same order.
-/
import proofs.«201248_g17051020165207_cont_7to1_1438_30_alg».proof.Proof.RefTerm
import proofs.«201248_g17051020165207_cont_7to1_1438_30_alg».proof.Proof.Spec
import Idealize.ShloMosaic.Lib.StackMember
import Idealize.ShloMosaic.Lib.Affine

noncomputable section

open scoped BigOperators

namespace Cert.ReferenceIdeal.RefRun

open Cert.ReferenceIdeal Idealize.ShloMosaic Idealize.ShloMosaic.ValueIdx Idealize.ShloMosaic.StackMember

variable [Facts]
open Facts₀ Facts

/-! ## Words in range -/

/-- A word below 100000 read unsigned is not below zero read signed. -/
theorem not_slt_zero {w : BitVec 32} (h : w.toNat < 100000) : IntOp.cmpi .slt w 0#32 = 0#1 := by
  refine eq_zero_of_ne_one fun e => ?_
  rw [IntOp.cmpi_slt, BitVec.toInt_eq_toNat_of_lt (by omega), show (0#32 : BitVec 32).toInt = 0 from by decide] at e
  omega

/-- A word below 100000 read unsigned passes both range tests. -/
theorem tests_of_lt {w : BitVec 32} (h : w.toNat < 100000) :
    IntOp.andi (IntOp.cmpi .sge w 0#32) (IntOp.cmpi .sle w 99999#32) = 1#1 := by
  rw [IntOp.andi_eq_one, IntOp.cmpi_sge, IntOp.cmpi_sle, BitVec.toInt_eq_toNat_of_lt (x := w) (by omega),
    show (0#32 : BitVec 32).toInt = 0 from by decide, show (99999#32 : BitVec 32).toInt = 99999 from by decide]
  omega

/-- Read signed and clamped into 0..99999, such a word is itself. -/
theorem clamp_of_lt {w : BitVec 32} (h : w.toNat < 100000) : min w.toInt.toNat (100000 - 1) = w.toNat := by
  rw [BitVec.toInt_eq_toNat_of_lt (by omega), Int.toNat_natCast]
  omega

/-- A fold by `and` from 1 over entries that are all 1 is 1. -/
theorem foldl_andi_one {ι : Type} (f : ι → BitVec 1) (h : ∀ i, f i = 1#1) :
    ∀ l : List ι, l.foldl (fun r i => IntOp.andi r (f i)) 1#1 = 1#1
  | [] => rfl
  | a :: l => by
    rw [List.foldl_cons, h a, show IntOp.andi 1#1 1#1 = 1#1 from by decide]
    exact foldl_andi_one f h l

/-! ## The lookup -/

/-- A word in range is not moved. -/
theorem normIdx_apply (ids : IVec S16384 32) (i : S16384.Idx) (h : (ids i).toNat < 100000) : normIdx ids i = ids i := by
  show Scalar.select (IntOp.cmpi .slt (ids i) 0#32) _ (ids i) = ids i
  rw [not_slt_zero h, select_zero]

/-- The one-column array of start indices holds the (moved) words. -/
theorem startIdx_apply (ids : IVec S16384 32) (r : Fin 16384) (c : Fin 1) :
    startIdx ids (ix2 r c) = normIdx ids (ix1 r) := by
  unfold startIdx
  refine broadcastInDim_apply (s := S16384) (t := S16384x1) ![0] bcast_S16384_S16384x1_0 (normIdx ids) (ix2 r c) (ix1 r) ?_
  intro a
  match a with
  | ⟨0, _⟩ => exact (if_neg (show ¬ (16384 : ℕ) = 1 by decide)).symm

/-- With every word in range the range test holds at every batch row. -/
theorem inRange_apply (ids : IVec S16384 32) (h : ∀ i, (ids i).toNat < 100000) (j : S16384.Idx) : inRange ids j = 1#1 := by
  unfold inRange
  rw [Host.reduce_eq_foldl]
  refine foldl_andi_one _ (fun i => ?_) _
  obtain ⟨r, c, rfl⟩ : ∃ (r : Fin 16384) (c : Fin 1), i = ix2 r c := ⟨i 0, i 1, eq_ix2 i⟩
  show IntOp.andi (IntOp.cmpi .sge (startIdx ids (ix2 r c)) 0#32) (IntOp.cmpi .sle (startIdx ids (ix2 r c)) 99999#32) = 1#1
  rw [startIdx_apply, normIdx_apply _ _ (h _)]
  exact tests_of_lt (h _)

/-- The gather at batch row `r`, column `l`: the table at row `k`, the row the start index names read signed and
    clamped into the table's rows, and the same column. The first table axis is the collapsed one the start index
    moves along; the second is the slice's one offset axis. -/
theorem gather_rows_apply {α : Type} (tbl : S100000x128.Idx → α) (idx : IVec S16384x1 32) (r : Fin 16384) (l : Fin 128)
    (k : Fin 100000) (hk : k.val = min (idx (ix2 r (0 : Fin 1))).toInt.toNat (100000 - 1)) :
    Host.gather gather_S100000x128_S16384x1_S16384x128_1_0_n_n_0_1_1128 tbl idx (ix2 r l) = tbl (ix2 k l) := by
  unfold Host.gather
  refine congrArg tbl (funext fun a => Fin.ext ?_)
  match a with
  | ⟨0, _⟩ =>
    show gather_S100000x128_S16384x1_S16384x128_1_0_n_n_0_1_1128.start (ix2 r l) idx 0 + gather_S100000x128_S16384x1_S16384x128_1_0_n_n_0_1_1128.batchCoord (ix2 r l) 0 + gather_S100000x128_S16384x1_S16384x128_1_0_n_n_0_1_1128.offCoord (ix2 r l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S16384x1_S16384x128_1_0_n_n_0_1_1128.startIndexMap from List.mem_singleton.mpr rfl)]
    have hsi : gather_S100000x128_S16384x1_S16384x128_1_0_n_n_0_1_1128.siIdx (ix2 r l)
        ⟨List.idxOf (0 : Fin 2) gather_S100000x128_S16384x1_S16384x128_1_0_n_n_0_1_1128.startIndexMap, List.idxOf_lt_length_iff.2 (List.mem_singleton.mpr rfl)⟩
          = ix2 r (0 : Fin 1) := by
      funext b; refine Fin.ext ?_
      match b with
      | ⟨0, _⟩ => rfl
      | ⟨1, _⟩ => rfl
    rw [hsi]
    exact hk.symm
  | ⟨1, _⟩ =>
    show gather_S100000x128_S16384x1_S16384x128_1_0_n_n_0_1_1128.start (ix2 r l) idx 1 + gather_S100000x128_S16384x1_S16384x128_1_0_n_n_0_1_1128.batchCoord (ix2 r l) 1 + gather_S100000x128_S16384x1_S16384x128_1_0_n_n_0_1_1128.offCoord (ix2 r l) 1 = _
    have h1 : (1 : Fin 2) ∈ gather_S100000x128_S16384x1_S16384x128_1_0_n_n_0_1_1128.sKept :=
      (GatherDims.mem_sKept _ _).mpr ⟨fun h => absurd (List.mem_singleton.mp h) (by decide), List.not_mem_nil⟩
    have e : ∀ (n : Nat) (hn : n < gather_S100000x128_S16384x1_S16384x128_1_0_n_n_0_1_1128.offsetDims.length), gather_S100000x128_S16384x1_S16384x128_1_0_n_n_0_1_1128.offsetDims[n] = (1 : Fin 2) := by
      intro n hn
      have hn' : n < 1 := hn
      obtain rfl : n = 0 := by omega
      rfl
    rw [GatherDims.batchCoord_eq_zero _ _ _ List.not_mem_nil]
    unfold GatherDims.start GatherDims.offCoord
    rw [dif_neg (show (1 : Fin 2) ∉ gather_S100000x128_S16384x1_S16384x128_1_0_n_n_0_1_1128.startIndexMap from
      fun h => absurd (List.mem_singleton.mp h) (by decide)), dif_pos h1, e]
    show 0 + 0 + l.val = l.val
    omega

/-- With every word in range, the lookup at batch row `r`, column `l` is the table's row `rowOf` of the word. -/
theorem takeRows_apply {F : FTy → Type} [FloatOps F] (tbl : FVec F S100000x128 .f32) (ids : IVec S16384 32)
    (h : ∀ i, (ids i).toNat < 100000) (r : Fin 16384) (l : Fin 128) :
    takeRows tbl ids (ix2 r l) = tbl (ix2 (Cert.Spec.rowOf (ids (ix1 r))) l) := by
  unfold takeRows
  rw [select_apply, show broadcastInDim S16384x128 ![0] bcast_S16384_S16384x128_0 (inRange ids) (ix2 r l) = 1#1
    from inRange_apply ids h _, select_one]
  refine gather_rows_apply tbl (startIdx ids) r l (Cert.Spec.rowOf (ids (ix1 r))) ?_
  rw [startIdx_apply, normIdx_apply _ _ (h _), clamp_of_lt (h _)]
  exact Nat.mod_eq_of_lt (h _)

/-! ## Side by side, the dense layers, and the flat reading -/

/-- Two blocks of 128 columns side by side, at row `r`, column `l`. -/
theorem sideBySide_apply {α : Type} (u v : S16384x128.Idx → α) (r : Fin 16384) (l : Fin 256) :
    concatenate S16384x256 1 [⟨S16384x128, u⟩, ⟨S16384x128, v⟩] concatenates_S16384x128_S16384x128_S16384x256_d1 (ix2 r l)
      = if h : l.val < 128 then u (ix2 r (⟨l.val, h⟩ : Fin 128))
        else v (ix2 r (⟨l.val - 128, by have := l.isLt; omega⟩ : Fin 128)) := by
  split
  · rename_i h
    exact concatenate_pair_apply_left 1 u v _ (ix2 r l) rfl (ix2 r (⟨l.val, h⟩ : Fin 128)) (fun b => by
      match b with
      | ⟨0, _⟩ => rfl
      | ⟨1, _⟩ => rfl)
  · rename_i h
    exact concatenate_pair_apply_right 1 u v _ (ix2 r l) rfl rfl
      (ix2 r (⟨l.val - 128, by have := l.isLt; omega⟩ : Fin 128)) (fun b hb => by
        match b with
        | ⟨0, _⟩ => rfl
        | ⟨1, _⟩ => exact absurd rfl hb) (by
        show l.val - 128 + 128 = l.val
        omega)

/-- A bias given as a row, broadcast over every row: at (r, j) it is the row's entry j. -/
theorem bias_row_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (r : Fin m) (j : Fin n) :
    broadcastInDim ⟨2, ![m, n]⟩ ![0, 1] h2 (broadcastInDim ⟨2, ![1, n]⟩ ![1] h1 b) (ix2 r j) = b (ix1 j) := by
  rw [broadcastInDim_oneRow_apply]
  refine broadcastInDim_apply (s := ⟨1, ![n]⟩) (t := ⟨2, ![1, n]⟩) ![1] h1 b (ix2 (0 : Fin 1) j) (ix1 j) ?_
  intro a
  match a with
  | ⟨0, _⟩ =>
    show j.val = if n = 1 then 0 else j.val
    split
    · have := j.isLt; omega
    · rfl

/-- The first layer at (r, j). -/
theorem layer1_apply (x : FVec Ideal S16384x256 .f32) (W : FVec Ideal S256x128 .f32) (b : FVec Ideal S128 .f32)
    (r : Fin 16384) (j : Fin 128) :
    layer1 x W b (ix2 r j) = max ((∑ l : Fin 256, x (ix2 r l) * W (ix2 l j)) + b (ix1 j)) 0 := by
  show max (Host.dotGeneral (DotDims.plain 16384 256 128) none x W (ix2 r j)
      + broadcastInDim S16384x128 ![0, 1] bcast_S1x128_S16384x128_0_1 (broadcastInDim S1x128 ![1] bcast_S128_S1x128_1 b) (ix2 r j))
    (Ideal.ofBits .f32 0x00000000#32) = _
  rw [Ideal.ofBits_zero_f32, dotGeneral_plain_apply, bias_row_apply]

/-- The second layer at (r, k). -/
theorem layer2_apply (x : FVec Ideal S16384x128 .f32) (W : FVec Ideal S128x64 .f32) (b : FVec Ideal S64 .f32)
    (r : Fin 16384) (k : Fin 64) :
    layer2 x W b (ix2 r k) = max ((∑ j : Fin 128, x (ix2 r j) * W (ix2 j k)) + b (ix1 k)) 0 := by
  show max (Host.dotGeneral (DotDims.plain 16384 128 64) none x W (ix2 r k)
      + broadcastInDim S16384x64 ![0, 1] bcast_S1x64_S16384x64_0_1 (broadcastInDim S1x64 ![1] bcast_S64_S1x64_1 b) (ix2 r k))
    (Ideal.ofBits .f32 0x00000000#32) = _
  rw [Ideal.ofBits_zero_f32, dotGeneral_plain_apply, bias_row_apply]

/-- The last layer at (r, 0). -/
theorem layer3_apply (x : FVec Ideal S16384x64 .f32) (W : FVec Ideal S64x1 .f32) (b : FVec Ideal S1 .f32)
    (r : Fin 16384) (c : Fin 1) :
    layer3 x W b (ix2 r c) = (∑ k : Fin 64, x (ix2 r k) * W (ix2 k c)) + b (ix1 c) := by
  show Host.dotGeneral (DotDims.plain 16384 64 1) none x W (ix2 r c)
      + broadcastInDim S16384x1 ![0, 1] bcast_S1x1_S16384x1_0_1 (broadcastInDim S1x1 ![1] bcast_S1_S1x1_1 b) (ix2 r c) = _
  rw [dotGeneral_plain_apply, bias_row_apply]

/-! ## The result term is the specification -/

section Spec

variable (uid iid : IVec S16384 32) (U I : FVec Ideal S100000x128 .f32) (W1 : FVec Ideal S256x128 .f32)
  (b1 : FVec Ideal S128 .f32) (W2 : FVec Ideal S128x64 .f32) (b2 : FVec Ideal S64 .f32) (W3 : FVec Ideal S64x1 .f32)
  (b3 : FVec Ideal S1 .f32) (hu : ∀ i, (uid i).toNat < 100000) (hi : ∀ i, (iid i).toNat < 100000)

include hu hi

theorem X_eq (r : Fin 16384) (l : Fin 256) :
    sideBySide (takeRows U uid) (takeRows I iid) (ix2 r l) = Cert.Spec.X uid iid U I r l := by
  unfold sideBySide Cert.Spec.X
  rw [sideBySide_apply]
  by_cases h : l.val < 128
  · rw [dif_pos h, dif_pos h, takeRows_apply _ _ hu]
  · rw [dif_neg h, dif_neg h, takeRows_apply _ _ hi]

theorem H1_eq (r : Fin 16384) (j : Fin 128) :
    layer1 (sideBySide (takeRows U uid) (takeRows I iid)) W1 b1 (ix2 r j) = Cert.Spec.H1 uid iid U I W1 b1 r j := by
  rw [layer1_apply]
  unfold Cert.Spec.H1
  refine congrArg (fun s => max (s + b1 (ix1 j)) 0) (Finset.sum_congr rfl fun l _ => ?_)
  rw [X_eq uid iid U I hu hi]

theorem H2_eq (r : Fin 16384) (k : Fin 64) :
    layer2 (layer1 (sideBySide (takeRows U uid) (takeRows I iid)) W1 b1) W2 b2 (ix2 r k)
      = Cert.Spec.H2 uid iid U I W1 b1 W2 b2 r k := by
  rw [layer2_apply]
  unfold Cert.Spec.H2
  refine congrArg (fun s => max (s + b2 (ix1 k)) 0) (Finset.sum_congr rfl fun j _ => ?_)
  rw [H1_eq uid iid U I W1 b1 hu hi]

/-- Under the precondition's word ranges the reference's result term is the specification. -/
theorem refOut_eq_G : refOut (F := Ideal) uid iid U I W1 b1 W2 b2 W3 b3 = Cert.Spec.G uid iid U I W1 b1 W2 b2 W3 b3 := by
  funext i
  obtain ⟨r, rfl⟩ : ∃ r : Fin 16384, i = ix1 r := ⟨i 0, eq_ix1 i⟩
  rw [Cert.Spec.G_ix1]
  unfold refOut Cert.Spec.score
  rw [shapeCast_apply _ shapeCasts_S16384x1_S16384 (ix1 r) (ix2 r (0 : Fin 1)) (by
    rw [Shape.rowMajor_val_two, Shape.rowMajor_val_one]
    show r.val * 1 + 0 = r.val
    omega), layer3_apply]
  refine congrArg (fun s => s + b3 (ix1 (0 : Fin 1))) (Finset.sum_congr rfl fun k _ => ?_)
  rw [H2_eq uid iid U I W1 b1 W2 b2 hu hi]

end Spec

end Cert.ReferenceIdeal.RefRun

end
-- ==== Proof.RefPreIds.lean ====
/-
  The precondition read back at the two arrays of row words.

  The precondition is a conjunction of "every entry" tests folded into one bit. Its last two conjuncts say, of the
  user words and of the item words, that each word read signed lies between 0 and 99999. A word in that range has a
  clear top bit, so read unsigned it is below 100000: it names a row of a table of 100000 rows. Nothing here depends
  on how floats are read, so the statement is made for every float instance.
-/
import proofs.«201248_g17051020165207_cont_7to1_1438_30_alg».proof.Pre_input_domain
import Idealize.ShloMosaic.Lib.ReduceAll
import Idealize.ShloMosaic.Lib.ValueIdx

namespace Cert.RefPreIds

open Idealize.ShloMosaic Idealize.ShloMosaic.ValueIdx Cert.Pre_input_domain

/-- The scalar shape has one index. -/
instance : Subsingleton S_.Idx := ⟨fun _ _ => funext fun d => d.elim0⟩

/-- A word that tests at least 0 and at most 99999, both signed, is below 100000 read unsigned. -/
theorem toNat_lt_of_tests (w : BitVec 32)
    (h : IntOp.andi (IntOp.cmpi .sge w 0#32) (IntOp.cmpi .sle w 99999#32) = 1#1) : w.toNat < 100000 := by
  obtain ⟨h0, h1⟩ := IntOp.andi_eq_one.1 h
  rw [IntOp.cmpi_sge, show (0#32 : BitVec 32).toInt = 0 from by decide] at h0
  rw [IntOp.cmpi_sle, show (99999#32 : BitVec 32).toInt = 99999 from by decide] at h1
  have hc := BitVec.toInt_eq_toNat_cond w
  have hl := w.isLt
  split at hc <;> omega

variable {F : FTy → Type} [FloatOps F] [Facts]

/-- The last fold: the bit carried so far, and every entry of the last test array, is 1. -/
theorem part3_one (v45 : IVec S_ 1) (v50 : IVec S16384 1) (h : fn_part3 (F := F) v45 v50 ix0 = 1#1) :
    v45 ix0 = 1#1 ∧ ∀ r, v50 r = 1#1 := by
  have h' : IntOp.andi (v45 ix0)
      (Host.reduce IntOp.andi v50 (constantI S_ 1 1#1) Facts.reducesTo_S16384_S_d0 Facts.h_S_ ix0) = 1#1 := h
  obtain ⟨h1, h2⟩ := IntOp.andi_eq_one.1 h'
  exact ⟨h1, fun r => Host.reduce_andi_all _ _ _ _ _ h2 r⟩

/-- The middle part of the chain holds the two range tests: both arrays of words are in range. -/
theorem part2_ids (a0 a1 : IVec S16384 32) (a9 : FVec F S1 .f32) (v33 : IVec S_ 1)
    (h : fn_part2 (F := F) a0 a1 a9 v33 ix0 = 1#1) :
    (∀ r, (a0 r).toNat < 100000) ∧ (∀ r, (a1 r).toNat < 100000) := by
  obtain ⟨h45, h50⟩ := part3_one (F := F) _ _ h
  have h44 := (IntOp.andi_eq_one.1 h45).2
  exact ⟨fun r => toNat_lt_of_tests _ (Host.reduce_andi_all _ _ _ _ _ h44 r), fun r => toNat_lt_of_tests _ (h50 r)⟩

/-- Under the precondition every user word and every item word, read unsigned, is below 100000. -/
theorem ids_in_range (a0 : IVec S16384 32) (a1 : IVec S16384 32) (a2 : FVec F S100000x128 .f32)
    (a3 : FVec F S100000x128 .f32) (a4 : FVec F S256x128 .f32) (a5 : FVec F S128 .f32) (a6 : FVec F S128x64 .f32)
    (a7 : FVec F S64 .f32) (a8 : FVec F S64x1 .f32) (a9 : FVec F S1 .f32)
    (h : fn (F := F) a0 a1 a2 a3 a4 a5 a6 a7 a8 a9 = fun _ => 1#1) :
    (∀ r, (a0 r).toNat < 100000) ∧ (∀ r, (a1 r).toNat < 100000) :=
  part2_ids (F := F) a0 a1 a9 _ (congrFun h ix0)

end Cert.RefPreIds
-- ==== Proof.RefSpec.lean ====
/-
  The reference's run against the specification: under the precondition every weakly fair execution of the
  reference ends with its result buffer at the specification `G` of the ten argument arrays and those arrays
  unchanged. It is the run (the result at the reference's own term) followed by the value (that term is `G` once
  every row word is known to lie in 0..99999, which is what the precondition's last two conjuncts say).
-/
import proofs.«201248_g17051020165207_cont_7to1_1438_30_alg».proof.Defs
import proofs.«201248_g17051020165207_cont_7to1_1438_30_alg».proof.Proof.RefRun
import proofs.«201248_g17051020165207_cont_7to1_1438_30_alg».proof.Proof.RefValue
import proofs.«201248_g17051020165207_cont_7to1_1438_30_alg».proof.Proof.RefPreIds

noncomputable section

namespace Cert.ReferenceIdeal.RefRun

open Idealize.ShloMosaic Idealize.SL.Sem

/-- Under the precondition the reference runs to its end with the result at `G` of the arguments and the arguments
    unchanged. -/
theorem run_spec [Cert.ReferenceIdeal.Facts] [Cert.Pre_input_domain.Facts]
    (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
      r.2.mem ((c.tc : Thread Cert.ReferenceIdeal.nD Cert.ReferenceIdeal.τ).loc Cert.ReferenceIdeal.main_v17) = Cert.Spec.G
        (m ((c.tc : Thread Cert.ReferenceIdeal.nD Cert.ReferenceIdeal.τ).loc Cert.ReferenceIdeal.main_arg0))
        (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4))
        (m ((c.tc : Thread Cert.ReferenceIdeal.nD Cert.ReferenceIdeal.τ).loc Cert.ReferenceIdeal.main_arg5))
        (m ((c.tc : Thread Cert.ReferenceIdeal.nD Cert.ReferenceIdeal.τ).loc Cert.ReferenceIdeal.main_arg6))
        (m ((c.tc : Thread Cert.ReferenceIdeal.nD Cert.ReferenceIdeal.τ).loc Cert.ReferenceIdeal.main_arg7))
        (m ((c.tc : Thread Cert.ReferenceIdeal.nD Cert.ReferenceIdeal.τ).loc Cert.ReferenceIdeal.main_arg8))
        (m ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) :=
  (θ_run (Cert.ReferenceIdeal.defs (F := Ideal)) _ _).mono (fun _ h c =>
      have ids := Cert.RefPreIds.ids_in_range (F := Ideal) _ _ _ _ _ _ _ _ _ _ (hpre c)
      ⟨(h c).1.trans (refOut_eq_G _ _ _ _ _ _ _ _ _ _ ids.1 ids.2), (h c).2⟩)
    (run (F := Ideal) m g)

end Cert.ReferenceIdeal.RefRun

end
-- ==== Proof.KValTile.lean ====
/-
  One tile's copies, read as plain data movement.

  A tile of the row gather works on 512 consecutive batch rows starting at row off = 1024·s + 512·c, where c (below
  2) and s (below 16) are its two coordinates. It copies words off … off + 511 of an id array into a list of 512
  words, gathers the table rows those words name into a [512, 128] buffer, and copies that buffer onto rows
  off … off + 511 of the [16384, 256] array, at columns 0 … 127 for the first table and 128 … 255 for the second.

  Read back, each copy is an index shift: a whole-buffer write read back whole is what was written (the latest
  write wins); the list's word k is the id array's word off + k; the whole-table view reads the table itself; and
  the big array at (off + k, l), or at (off + k, 128 + l), holds the buffer's entry (k, l).
-/
import proofs.«201248_g17051020165207_cont_7to1_1438_30_alg».proof.Proof.Gen.KernelIdeal.Skeleton
import Idealize.ShloMosaic.Lib.ValueIdx
import Idealize.ShloMosaic.Lib.Writes
import Idealize.ShloMosaic.Lib.Exec.Geometry

noncomputable section

namespace Cert.KernelIdeal.KVal

open Idealize.ShloMosaic Idealize.ShloMosaic.ValueIdx Cert.KernelIdeal

/-! ## Whole-buffer writes read back -/

section AnyView

variable {sg : RefSig} {κ : Kind} {sp : Space} {s : Shape} {e : EltTy} {Val : EltTy → Type}

/-- After a list of writes whose LATEST covers the whole view, the view reads that latest payload, whatever came
    before. -/
theorem read_writes_cons_whole (v : View sg κ sp s e) (f : v.ty.Contents Val) (x : s.Idx → Val e)
    (L : List (View.Piece Val s e)) : v.read Val (v.writes Val f (⟨Rect.whole s, x⟩ :: L)) = x := by
  funext y
  have h := View.read_writes_cons_emb v f (Rect.whole s) x L y
  rwa [Rect.emb_whole_apply] at h

/-- A copy that reads its source as it is passes the values through. -/
theorem same_apply (g : s.Idx → Val e) : (ReadAs.same : ReadAs Val s e s e).apply g = g := rfl

end AnyView

variable {F : FTy → Type} [FloatOps F]

/-- One whole write into a tile's buffer, read back whole. -/
theorem read_writes_whole_one (b : Ref sig .scVector) (f p : b.ty.Contents (Elt F)) :
    (Memref.whole b).view.read (Elt F) ((Memref.whole b).view.writes (Elt F) f [⟨Rect.whole _, p⟩]) = p :=
  read_writes_cons_whole (Memref.whole b).view f p []

/-- Two whole writes into a tile's buffer, read back whole: the later one, which is first in the list. -/
theorem read_writes_whole_two (b : Ref sig .scVector) (f p p' : b.ty.Contents (Elt F)) :
    (Memref.whole b).view.read (Elt F) ((Memref.whole b).view.writes (Elt F) f [⟨Rect.whole _, p⟩, ⟨Rect.whole _, p'⟩]) = p :=
  read_writes_cons_whole (Memref.whole b).view f p [⟨Rect.whole _, p'⟩]

/-- An unmasked write of the whole list buffer, read back whole. -/
theorem read_write_whole_univ (b : Ref sig .scVector) (f w : b.ty.Contents (Elt F)) :
    (Memref.whole b).view.read (Elt F) (View.write (Elt F) (Memref.whole b).view f w Finset.univ) = w :=
  View.read_write_univ (v := (Memref.whole b).view) f w

/-! ## The tile's row offset -/

/-- A tile's first batch row is inside the batch, with 512 rows to spare. -/
theorem off_lt (L : grid0.Coords) (k : Fin 512) : 1024 * (L 1).val + 512 * (L 0).val + k.val < 16384 := by
  have h0 : (L 0).val < 2 := (L 0).isLt
  have h1 : (L 1).val < 16 := (L 1).isLt
  have := k.isLt
  omega

/-! ## The id words a tile copies: word k of the slice is word off + k of the array -/

theorem idSlice0_read (L : grid0.Coords) (hinb : ∀ a, (k0_off1 L) a + S512.size a ≤ S16384.size a)
    (g : S16384.Idx → Elt F .i32) (k : Fin 512) :
    ((Memref.whole main_arg0_scv).slice (Rect.unit (s := S16384) (k0_off1 L) S512.size hinb) (fun _ => rfl)).view.read
        (Elt F) g (ix1 k)
      = g (ix1 (⟨1024 * (L 1).val + 512 * (L 0).val + k.val, off_lt L k⟩ : Fin 16384)) := by
  show g ((Rect.unit (s := S16384) (k0_off1 L) S512.size hinb).emb (ix1 k)) = _
  refine congrArg g (funext fun a => Fin.ext ?_)
  match a with
  | ⟨0, _⟩ =>
    have e := congrFun (Gen.k0_off1_eq L) 0
    show k0_off1 L 0 + 1 * k.val = 1024 * (L 1).val + 512 * (L 0).val + k.val
    rw [e]
    show 1024 * (L 1).val + 512 * (L 0).val + 1 * k.val = _
    omega

theorem idSlice1_read (L : grid0.Coords) (hinb : ∀ a, (k0_off1 L) a + S512.size a ≤ S16384.size a)
    (g : S16384.Idx → Elt F .i32) (k : Fin 512) :
    ((Memref.whole main_arg1_scv).slice (Rect.unit (s := S16384) (k0_off1 L) S512.size hinb) (fun _ => rfl)).view.read
        (Elt F) g (ix1 k)
      = g (ix1 (⟨1024 * (L 1).val + 512 * (L 0).val + k.val, off_lt L k⟩ : Fin 16384)) := by
  show g ((Rect.unit (s := S16384) (k0_off1 L) S512.size hinb).emb (ix1 k)) = _
  refine congrArg g (funext fun a => Fin.ext ?_)
  match a with
  | ⟨0, _⟩ =>
    have e := congrFun (Gen.k0_off1_eq L) 0
    show k0_off1 L 0 + 1 * k.val = 1024 * (L 1).val + 512 * (L 0).val + k.val
    rw [e]
    show 1024 * (L 1).val + 512 * (L 0).val + 1 * k.val = _
    omega

/-! ## The whole-table views read the tables -/

theorem table2_read (hinb : ∀ a, (![0, 0] : Fin 2 → Nat) a + S100000x128.size a ≤ S100000x128.size a)
    (g : S100000x128.Idx → Elt F .f32) :
    ((Memref.whole main_arg2_scv).slice (Rect.unit (s := S100000x128) ![0, 0] S100000x128.size hinb) (fun _ => rfl)).view.read
        (Elt F) g = g := by
  funext x
  show g ((Rect.unit (s := S100000x128) ![0, 0] S100000x128.size hinb).emb x) = g x
  refine congrArg g (funext fun a => Fin.ext ?_)
  match a with
  | ⟨0, _⟩ => show 0 + 1 * (x 0).val = (x 0).val; omega
  | ⟨1, _⟩ => show 0 + 1 * (x 1).val = (x 1).val; omega

theorem table3_read (hinb : ∀ a, (![0, 0] : Fin 2 → Nat) a + S100000x128.size a ≤ S100000x128.size a)
    (g : S100000x128.Idx → Elt F .f32) :
    ((Memref.whole main_arg3_scv).slice (Rect.unit (s := S100000x128) ![0, 0] S100000x128.size hinb) (fun _ => rfl)).view.read
        (Elt F) g = g := by
  funext x
  show g ((Rect.unit (s := S100000x128) ![0, 0] S100000x128.size hinb).emb x) = g x
  refine congrArg g (funext fun a => Fin.ext ?_)
  match a with
  | ⟨0, _⟩ => show 0 + 1 * (x 0).val = (x 0).val; omega
  | ⟨1, _⟩ => show 0 + 1 * (x 1).val = (x 1).val; omega

/-! ## The buffer copied onto the big array: entry (k, l) lands at (off + k, l), or at (off + k, 128 + l) -/

theorem pieceA_apply (L : grid0.Coords) (hinb : ∀ a, (k0_off2 L) a + S512x128.size a ≤ S16384x256.size a)
    (g : S16384x256.Idx → Elt F .f32) (p : S512x128.Idx → Elt F .f32) (k : Fin 512) (l : Fin 128) :
    ((Memref.whole main_v0_scv).slice (Rect.unit (s := S16384x256) (k0_off2 L) S512x128.size hinb) (fun _ => rfl)).view.writes
        (Elt F) g [⟨Rect.whole S512x128, p⟩]
        (ix2 (⟨1024 * (L 1).val + 512 * (L 0).val + k.val, off_lt L k⟩ : Fin 16384)
          (⟨l.val, by have := l.isLt; omega⟩ : Fin 256))
      = p (ix2 k l) := by
  have e : (ix2 (⟨1024 * (L 1).val + 512 * (L 0).val + k.val, off_lt L k⟩ : Fin 16384)
        (⟨l.val, by have := l.isLt; omega⟩ : Fin 256) : S16384x256.Idx)
      = ((((Memref.whole main_v0_scv).slice (Rect.unit (s := S16384x256) (k0_off2 L) S512x128.size hinb) (fun _ => rfl)).view).slice
          (Rect.whole S512x128)).emb (ix2 k l) := by
    funext a; refine Fin.ext ?_
    have e2 := Gen.k0_off2_eq L
    match a with
    | ⟨0, _⟩ =>
      show 1024 * (L 1).val + 512 * (L 0).val + k.val = k0_off2 L 0 + 1 * (0 + 1 * k.val)
      rw [congrFun e2 0]
      show _ = 1024 * (L 1).val + 512 * (L 0).val + 1 * (0 + 1 * k.val)
      omega
    | ⟨1, _⟩ =>
      show l.val = k0_off2 L 1 + 1 * (0 + 1 * l.val)
      rw [congrFun e2 1]
      show _ = 0 + 1 * (0 + 1 * l.val)
      omega
  rw [View.writes_singleton, e, View.write_emb_of_mem _ _ (Finset.mem_univ _)]
  rfl

theorem pieceB_apply (L : grid0.Coords) (hinb : ∀ a, (k0_off3 L) a + S512x128.size a ≤ S16384x256.size a)
    (g : S16384x256.Idx → Elt F .f32) (p : S512x128.Idx → Elt F .f32) (k : Fin 512) (l : Fin 128) :
    ((Memref.whole main_v0_scv).slice (Rect.unit (s := S16384x256) (k0_off3 L) S512x128.size hinb) (fun _ => rfl)).view.writes
        (Elt F) g [⟨Rect.whole S512x128, p⟩]
        (ix2 (⟨1024 * (L 1).val + 512 * (L 0).val + k.val, off_lt L k⟩ : Fin 16384)
          (⟨128 + l.val, by have := l.isLt; omega⟩ : Fin 256))
      = p (ix2 k l) := by
  have e : (ix2 (⟨1024 * (L 1).val + 512 * (L 0).val + k.val, off_lt L k⟩ : Fin 16384)
        (⟨128 + l.val, by have := l.isLt; omega⟩ : Fin 256) : S16384x256.Idx)
      = ((((Memref.whole main_v0_scv).slice (Rect.unit (s := S16384x256) (k0_off3 L) S512x128.size hinb) (fun _ => rfl)).view).slice
          (Rect.whole S512x128)).emb (ix2 k l) := by
    funext a; refine Fin.ext ?_
    have e3 := Gen.k0_off3_eq L
    match a with
    | ⟨0, _⟩ =>
      show 1024 * (L 1).val + 512 * (L 0).val + k.val = k0_off3 L 0 + 1 * (0 + 1 * k.val)
      rw [congrFun e3 0]
      show _ = 1024 * (L 1).val + 512 * (L 0).val + 1 * (0 + 1 * k.val)
      omega
    | ⟨1, _⟩ =>
      show 128 + l.val = k0_off3 L 1 + 1 * (0 + 1 * l.val)
      rw [congrFun e3 1]
      show _ = 128 + 1 * (0 + 1 * l.val)
      omega
  rw [View.writes_singleton, e, View.write_emb_of_mem _ _ (Finset.mem_univ _)]
  rfl

end Cert.KernelIdeal.KVal

end
-- ==== Proof.KValGather.lean ====
/-
  The indirect row gather, read at an entry.

  A gather along the row axis of a [100000, 128] table into a [512, 128] buffer, driven by a list of 512 words,
  leaves at (k, l) the table's entry (row named by word k, column l). When word k of the list is the id word of
  batch row off + k, and that word is below 100000, the row it names is the row the specification reads.
-/
import proofs.«201248_g17051020165207_cont_7to1_1438_30_alg».proof.Proof.Gen.KernelIdeal.Skeleton
import proofs.«201248_g17051020165207_cont_7to1_1438_30_alg».proof.Proof.Spec
import Idealize.ShloMosaic.Lib.ValueIdx
import Idealize.ShloMosaic.Lib.SparseCore.Stream

noncomputable section

open scoped BigOperators

namespace Cert.KernelIdeal.KVal

open Idealize.ShloMosaic Idealize.ShloMosaic.ValueIdx Cert.KernelIdeal

/-- The gathered buffer at (k, l) is the table at (the row named for k, l). -/
theorem gatherPayload_apply (hg : S100000x128.Gathers 0 S512x128) (g : S100000x128.Idx → Elt Ideal .f32)
    (r : Fin (S512x128.size hg.axis') → Fin (S100000x128.size hg.axis)) (k : Fin 512) (l : Fin 128) :
    SparseCore.gatherPayload (F := Ideal) hg g r (ix2 k l) = g (ix2 (r k : Fin 100000) l) := by
  unfold SparseCore.gatherPayload
  refine congrArg g (funext fun b => Fin.ext ?_)
  match b with
  | ⟨0, _⟩ => exact congrArg Fin.val (Shape.Gathers.idx_axis hg r (ix2 k l))
  | ⟨1, _⟩ => exact Shape.Gathers.idx_of_ne hg r (ix2 k l) (1 : Fin 2) (by decide)

/-- Entry k of a 512-word list, as a row number, is the word's value. -/
theorem rows_val {z : ℕ} (idx : S512.Idx → Elt Ideal .i32) (hn : S512.numel = 512) (h : ∀ x, (idx x).toNat < z) (k : Fin 512) :
    (SparseCore.rows (F := Ideal) idx hn h k).val = (idx (ix1 k)).toNat := by
  unfold SparseCore.rows
  have e : S512.rowMajor.symm (k.cast hn.symm) = ix1 k :=
    (Equiv.symm_apply_eq _).mpr (Fin.ext (by rw [Shape.rowMajor_val_one]; rfl))
  show (idx (S512.rowMajor.symm (k.cast hn.symm))).toNat = _
  rw [e]

section

variable (uid iid : (⟨1, ![16384]⟩ : Shape).Idx → BitVec 32) (U I : (⟨2, ![100000, 128]⟩ : Shape).Idx → EReal)

/-- The row a list entry names is the row the specification reads for the batch row whose id word the entry is. -/
theorem rows_eq_rowOf (hg : S100000x128.Gathers 0 S512x128) (ids : (⟨1, ![16384]⟩ : Shape).Idx → BitVec 32)
    (idx : S512.Idx → Elt Ideal .i32) (hn : S512.numel = 512)
    (hin : ∀ x, (idx x).toNat < S100000x128.size hg.axis) (r : Fin 16384) (k : Fin 512)
    (hidx : idx (ix1 k) = ids (ix1 r)) :
    (SparseCore.rows (F := Ideal) idx hn hin k : Fin 100000) = Cert.Spec.rowOf (ids (ix1 r)) := by
  refine Fin.ext ?_
  have hlt : (ids (ix1 r)).toNat < 100000 := hidx ▸ hin (ix1 k)
  rw [Cert.Spec.rowOf_val_of_lt hlt, ← hidx]
  exact rows_val idx hn hin k

/-- The user rows gathered for 512 consecutive batch rows: entry (k, l) is the specification's gathered entry l < 128
    of batch row r, when word k of the list is batch row r's user word. -/
theorem gathered_user (hg : S100000x128.Gathers 0 S512x128) (idx : S512.Idx → Elt Ideal .i32) (hn : S512.numel = 512)
    (hin : ∀ x, (idx x).toNat < S100000x128.size hg.axis) (r : Fin 16384) (k : Fin 512) (l : Fin 128)
    (hidx : idx (ix1 k) = uid (ix1 r)) :
    SparseCore.gatherPayload (F := Ideal) (e := .f32) hg U (SparseCore.rows (F := Ideal) idx hn hin) (ix2 k l)
      = Cert.Spec.X uid iid U I r (⟨l.val, by have := l.isLt; omega⟩ : Fin 256) := by
  refine (gatherPayload_apply hg U _ k l).trans ?_
  unfold Cert.Spec.X
  rw [dif_pos (show ((⟨l.val, by have := l.isLt; omega⟩ : Fin 256)).val < 128 from l.isLt)]
  exact congrArg (fun a => U (ix2 a l)) (rows_eq_rowOf hg uid idx hn hin r k hidx)

/-- The item rows gathered for 512 consecutive batch rows: entry (k, l) is the specification's gathered entry
    128 + l of batch row r, when word k of the list is batch row r's item word. -/
theorem gathered_item (hg : S100000x128.Gathers 0 S512x128) (idx : S512.Idx → Elt Ideal .i32) (hn : S512.numel = 512)
    (hin : ∀ x, (idx x).toNat < S100000x128.size hg.axis) (r : Fin 16384) (k : Fin 512) (l : Fin 128)
    (hidx : idx (ix1 k) = iid (ix1 r)) :
    SparseCore.gatherPayload (F := Ideal) (e := .f32) hg I (SparseCore.rows (F := Ideal) idx hn hin) (ix2 k l)
      = Cert.Spec.X uid iid U I r (⟨128 + l.val, by have := l.isLt; omega⟩ : Fin 256) := by
  refine (gatherPayload_apply hg I _ k l).trans ?_
  unfold Cert.Spec.X
  rw [dif_neg (show ¬ ((⟨128 + l.val, by have := l.isLt; omega⟩ : Fin 256)).val < 128 from by show ¬ (128 + l.val < 128); omega)]
  refine congrArg₂ (fun a b => I (ix2 a b)) (rows_eq_rowOf hg iid idx hn hin r k hidx) (Fin.ext ?_)
  show l.val = 128 + l.val - 128
  omega

end

section

variable (uid iid : (⟨1, ![16384]⟩ : Shape).Idx → BitVec 32) (U I : (⟨2, ![100000, 128]⟩ : Shape).Idx → EReal)

/-- Thirty-two pieces of 512 batch rows cover the batch: piece (c, s), for c below 2 and s below 16, starts at row
    1024·s + 512·c. If on every piece the left 128 columns and the right 128 columns of an array are the
    specification's gathered entries, the whole array is. -/
theorem array_eq_X (A : S16384x256.Idx → EReal)
    (hU : ∀ (c : Fin 2) (s : Fin 16) (k : Fin 512) (l : Fin 128),
      A (ix2 (⟨1024 * s.val + 512 * c.val + k.val, by have := c.isLt; have := s.isLt; have := k.isLt; omega⟩ : Fin 16384)
          (⟨l.val, by have := l.isLt; omega⟩ : Fin 256))
        = Cert.Spec.X uid iid U I ⟨1024 * s.val + 512 * c.val + k.val, by have := c.isLt; have := s.isLt; have := k.isLt; omega⟩
            ⟨l.val, by have := l.isLt; omega⟩)
    (hI : ∀ (c : Fin 2) (s : Fin 16) (k : Fin 512) (l : Fin 128),
      A (ix2 (⟨1024 * s.val + 512 * c.val + k.val, by have := c.isLt; have := s.isLt; have := k.isLt; omega⟩ : Fin 16384)
          (⟨128 + l.val, by have := l.isLt; omega⟩ : Fin 256))
        = Cert.Spec.X uid iid U I ⟨1024 * s.val + 512 * c.val + k.val, by have := c.isLt; have := s.isLt; have := k.isLt; omega⟩
            ⟨128 + l.val, by have := l.isLt; omega⟩)
    (r : Fin 16384) (l : Fin 256) : A (ix2 r l) = Cert.Spec.X uid iid U I r l := by
  have hr := r.isLt
  have hl := l.isLt
  have er : r = (⟨1024 * (⟨r.val / 1024, by omega⟩ : Fin 16).val + 512 * (⟨r.val % 1024 / 512, by omega⟩ : Fin 2).val
      + (⟨r.val % 512, by omega⟩ : Fin 512).val, by show 1024 * (r.val / 1024) + 512 * (r.val % 1024 / 512) + r.val % 512 < 16384; omega⟩ : Fin 16384) :=
    Fin.ext (by show r.val = 1024 * (r.val / 1024) + 512 * (r.val % 1024 / 512) + r.val % 512; omega)
  by_cases h : l.val < 128
  · have el : l = (⟨(⟨l.val, h⟩ : Fin 128).val, by show l.val < 256; omega⟩ : Fin 256) := Fin.ext rfl
    rw [er, el]
    exact hU ⟨r.val % 1024 / 512, by omega⟩ ⟨r.val / 1024, by omega⟩ ⟨r.val % 512, by omega⟩ ⟨l.val, h⟩
  · have el : l = (⟨128 + (⟨l.val - 128, by omega⟩ : Fin 128).val, by show 128 + (l.val - 128) < 256; omega⟩ : Fin 256) :=
      Fin.ext (by show l.val = 128 + (l.val - 128); omega)
    rw [er, el]
    exact hI ⟨r.val % 1024 / 512, by omega⟩ ⟨r.val / 1024, by omega⟩ ⟨r.val % 512, by omega⟩ ⟨l.val - 128, by omega⟩

end

end Cert.KernelIdeal.KVal

end
-- ==== Proof.KValPiece.lean ====
/-
  What one tile leaves on its rows of the gathered array.

  Chaining the tile's copies: the list of 512 words is the id array's words off … off + 511; the buffer is the
  table's rows those words name; the buffer lands on rows off … off + 511 of the big array, in the left 128 columns
  for the user table and the right 128 for the item table. Hence the big array at (off + k, l) is the
  specification's gathered entry l of batch row off + k, and at (off + k, 128 + l) its entry 128 + l. The second
  gather reuses the buffer, and the buffer then reads what was written last.
-/
import proofs.«201248_g17051020165207_cont_7to1_1438_30_alg».proof.Proof.ScBody
import proofs.«201248_g17051020165207_cont_7to1_1438_30_alg».proof.Proof.KValTile
import proofs.«201248_g17051020165207_cont_7to1_1438_30_alg».proof.Proof.KValGather

noncomputable section

namespace Cert.KernelIdeal.KVal

open Idealize.ShloMosaic Idealize.ShloMosaic.ValueIdx Cert.KernelIdeal

section

variable (uid iid : S16384.Idx → BitVec 32) (U I : S100000x128.Idx → EReal)

/-- The left half: after the user rows' copy, the big array at (off + k, l). -/
theorem pieceA_value_of (L : grid0.Coords) (hg : S100000x128.Gathers 0 S512x128)
    (hi1 : ∀ a, (k0_off1 L) a + S512.size a ≤ S16384.size a)
    (hi2 : ∀ a, (k0_off2 L) a + S512x128.size a ≤ S16384x256.size a)
    (ht : ∀ a, (![0, 0] : Fin 2 → Nat) a + S100000x128.size a ≤ S100000x128.size a)
    (g : S16384x256.Idx → EReal) (fr : S512x128.Idx → EReal) (fsu : S512.Idx → BitVec 32)
    (hn : S512.numel = S512x128.size hg.axis')
    (hin : ∀ x, ((Memref.whole cc0_scratch0).view.read (Elt Ideal)
        (View.write (Elt Ideal) (Memref.whole cc0_scratch0).view fsu
          (ReadAs.same.apply (((Memref.whole main_arg0_scv).slice (Rect.unit (s := S16384) (k0_off1 L) S512.size hi1)
            (fun _ => rfl)).view.read (Elt Ideal) uid)) Finset.univ) x).toNat < S100000x128.size hg.axis)
    (k : Fin 512) (l : Fin 128) :
    ((Memref.whole main_v0_scv).slice (Rect.unit (s := S16384x256) (k0_off2 L) S512x128.size hi2) (fun _ => rfl)).view.writes
        (Elt Ideal) g [⟨Rect.whole S512x128,
          ReadAs.same.apply ((Memref.whole cc0_scratch2).view.read (Elt Ideal)
            ((Memref.whole cc0_scratch2).view.writes (Elt Ideal) fr [⟨Rect.whole _,
              SparseCore.gatherPayload hg
                (((Memref.whole main_arg2_scv).slice (Rect.unit (s := S100000x128) ![0, 0] S100000x128.size ht)
                  (fun _ => rfl)).view.read (Elt Ideal) U)
                (SparseCore.rows ((Memref.whole cc0_scratch0).view.read (Elt Ideal)
                  (View.write (Elt Ideal) (Memref.whole cc0_scratch0).view fsu
                    (ReadAs.same.apply (((Memref.whole main_arg0_scv).slice
                      (Rect.unit (s := S16384) (k0_off1 L) S512.size hi1) (fun _ => rfl)).view.read (Elt Ideal) uid))
                    Finset.univ)) hn hin)⟩]))⟩]
        (ix2 (⟨1024 * (L 1).val + 512 * (L 0).val + k.val, off_lt L k⟩ : Fin 16384)
          (⟨l.val, by have := l.isLt; omega⟩ : Fin 256))
      = Cert.Spec.X uid iid U I ⟨1024 * (L 1).val + 512 * (L 0).val + k.val, off_lt L k⟩
          ⟨l.val, by have := l.isLt; omega⟩ := by
  refine (pieceA_apply (F := Ideal) L hi2 g _ k l).trans ?_
  refine (congrFun (read_writes_whole_one (F := Ideal) cc0_scratch2 fr _) (ix2 k l)).trans ?_
  rw [table2_read (F := Ideal) ht U]
  refine gathered_user uid iid U I hg _ hn hin _ k l ?_
  exact (congrFun (read_write_whole_univ (F := Ideal) cc0_scratch0 fsu _) (ix1 k)).trans (idSlice0_read L hi1 uid k)

/-- The right half: after the item rows' copy, the big array at (off + k, 128 + l). The buffer was written twice; it
    reads the item rows, written last, whatever the earlier payload `pu` was. -/
theorem pieceB_value_of (L : grid0.Coords) (hg : S100000x128.Gathers 0 S512x128)
    (hi1 : ∀ a, (k0_off1 L) a + S512.size a ≤ S16384.size a)
    (hi3 : ∀ a, (k0_off3 L) a + S512x128.size a ≤ S16384x256.size a)
    (ht : ∀ a, (![0, 0] : Fin 2 → Nat) a + S100000x128.size a ≤ S100000x128.size a)
    (g : S16384x256.Idx → EReal) (fr pu : S512x128.Idx → EReal) (fsi : S512.Idx → BitVec 32)
    (hn : S512.numel = S512x128.size hg.axis')
    (hin : ∀ x, ((Memref.whole cc0_scratch1).view.read (Elt Ideal)
        (View.write (Elt Ideal) (Memref.whole cc0_scratch1).view fsi
          (ReadAs.same.apply (((Memref.whole main_arg1_scv).slice (Rect.unit (s := S16384) (k0_off1 L) S512.size hi1)
            (fun _ => rfl)).view.read (Elt Ideal) iid)) Finset.univ) x).toNat < S100000x128.size hg.axis)
    (k : Fin 512) (l : Fin 128) :
    ((Memref.whole main_v0_scv).slice (Rect.unit (s := S16384x256) (k0_off3 L) S512x128.size hi3) (fun _ => rfl)).view.writes
        (Elt Ideal) g [⟨Rect.whole S512x128,
          ReadAs.same.apply ((Memref.whole cc0_scratch2).view.read (Elt Ideal)
            ((Memref.whole cc0_scratch2).view.writes (Elt Ideal) fr [⟨Rect.whole _,
              SparseCore.gatherPayload hg
                (((Memref.whole main_arg3_scv).slice (Rect.unit (s := S100000x128) ![0, 0] S100000x128.size ht)
                  (fun _ => rfl)).view.read (Elt Ideal) I)
                (SparseCore.rows ((Memref.whole cc0_scratch1).view.read (Elt Ideal)
                  (View.write (Elt Ideal) (Memref.whole cc0_scratch1).view fsi
                    (ReadAs.same.apply (((Memref.whole main_arg1_scv).slice
                      (Rect.unit (s := S16384) (k0_off1 L) S512.size hi1) (fun _ => rfl)).view.read (Elt Ideal) iid))
                    Finset.univ)) hn hin)⟩, ⟨Rect.whole _, pu⟩]))⟩]
        (ix2 (⟨1024 * (L 1).val + 512 * (L 0).val + k.val, off_lt L k⟩ : Fin 16384)
          (⟨128 + l.val, by have := l.isLt; omega⟩ : Fin 256))
      = Cert.Spec.X uid iid U I ⟨1024 * (L 1).val + 512 * (L 0).val + k.val, off_lt L k⟩
          ⟨128 + l.val, by have := l.isLt; omega⟩ := by
  refine (pieceB_apply (F := Ideal) L hi3 g _ k l).trans ?_
  refine (congrFun (read_writes_whole_two (F := Ideal) cc0_scratch2 fr _ pu) (ix2 k l)).trans ?_
  rw [table3_read (F := Ideal) ht I]
  refine gathered_item uid iid U I hg _ hn hin _ k l ?_
  exact (congrFun (read_write_whole_univ (F := Ideal) cc0_scratch1 fsi _) (ix1 k)).trans (idSlice1_read L hi1 iid k)

end

/-! ## The same for the tile's run as it names its values, and the whole gathered array -/

section AtTile

open Cert.KernelIdeal.Sc
open Idealize.ShloMosaic.SparseCore (V)

variable (m : (ℓ : Loc nD τ sig) → Buf (Elt Ideal) ℓ) (d : Dev nD)

/-- The left piece a tile's run leaves, read inside the piece. -/
theorem pieceA_value (L : grid0.Coords) (g : Buf (Elt Ideal) (xLoc d))
    (fsu : Buf (Elt Ideal) ((V d (cV L) (jV L)).loc cc0_scratch0))
    (fr : Buf (Elt Ideal) ((V d (cV L) (jV L)).loc cc0_scratch2))
    (h : ListOK d L (Memref.whole cc0_scratch0) (uSl L) (m (uLoc d))) (k : Fin 512) (l : Fin 128) :
    ((xSlA L).view.writes (Elt Ideal) g [⟨Rect.whole S512x128, rawA m d L fsu fr h⟩] : S16384x256.Idx → EReal)
        (ix2 (⟨1024 * (L 1).val + 512 * (L 0).val + k.val, off_lt L k⟩ : Fin 16384)
          (⟨l.val, by have := l.isLt; omega⟩ : Fin 256))
      = Cert.Spec.X (m (uLoc d)) (m (iLoc d)) (m (tuLoc d)) (m (tiLoc d))
          ⟨1024 * (L 1).val + 512 * (L 0).val + k.val, off_lt L k⟩ ⟨l.val, by have := l.isLt; omega⟩ := by
  unfold rawA rawGU
  exact pieceA_value_of (m (uLoc d)) (m (iLoc d)) (m (tuLoc d)) (m (tiLoc d)) L Gen.gathers_S100000x128_S512x128
    (Gen.k0_off1_inb L) (Gen.k0_off2_inb L) Gen.inb_S100000x128_S100000x128_0_0 g fr fsu rfl (h fsu) k l

/-- The right piece a tile's run leaves, read inside the piece. -/
theorem pieceB_value (L : grid0.Coords) (g : Buf (Elt Ideal) (xLoc d))
    (fsu : Buf (Elt Ideal) ((V d (cV L) (jV L)).loc cc0_scratch0))
    (fsi : Buf (Elt Ideal) ((V d (cV L) (jV L)).loc cc0_scratch1))
    (fr : Buf (Elt Ideal) ((V d (cV L) (jV L)).loc cc0_scratch2))
    (h : ListOK d L (Memref.whole cc0_scratch0) (uSl L) (m (uLoc d)))
    (h' : ListOK d L (Memref.whole cc0_scratch1) (iSl L) (m (iLoc d))) (k : Fin 512) (l : Fin 128) :
    ((xSlB L).view.writes (Elt Ideal) g [⟨Rect.whole S512x128, rawB m d L fsu fsi fr h h'⟩] : S16384x256.Idx → EReal)
        (ix2 (⟨1024 * (L 1).val + 512 * (L 0).val + k.val, off_lt L k⟩ : Fin 16384)
          (⟨128 + l.val, by have := l.isLt; omega⟩ : Fin 256))
      = Cert.Spec.X (m (uLoc d)) (m (iLoc d)) (m (tuLoc d)) (m (tiLoc d))
          ⟨1024 * (L 1).val + 512 * (L 0).val + k.val, off_lt L k⟩ ⟨128 + l.val, by have := l.isLt; omega⟩ := by
  unfold rawB rawGI
  exact pieceB_value_of (m (uLoc d)) (m (iLoc d)) (m (tuLoc d)) (m (tiLoc d)) L Gen.gathers_S100000x128_S512x128
    (Gen.k0_off1_inb L) (Gen.k0_off3_inb L) Gen.inb_S100000x128_S100000x128_0_0 g fr (rawGU m d L fsu h) fsi rfl (h' fsi) k l

/-- Entry (off + k, l) of the big array lies in the tile's left piece, -/
theorem mem_pieceA (L : grid0.Coords) (k : Fin 512) (l : Fin 128) :
    (ix2 (⟨1024 * (L 1).val + 512 * (L 0).val + k.val, off_lt L k⟩ : Fin 16384)
      (⟨l.val, by have := l.isLt; omega⟩ : Fin 256) : S16384x256.Idx) ∈ (xSlA L).view.set := by
  have hs : (xSlA L).view.set = (Rect.unit (s := S16384x256) (k0_off2 L) S512x128.size (Gen.k0_off2_inb L)).set :=
    View.set_slice_whole main_v0_scv _
  rw [hs, Rect.mem_set_unit]
  intro a
  have e2 := Gen.k0_off2_eq L
  have := k.isLt
  have := l.isLt
  match a with
  | ⟨0, _⟩ =>
    have e := congrFun e2 0
    show k0_off2 L 0 ≤ 1024 * (L 1).val + 512 * (L 0).val + k.val
      ∧ 1024 * (L 1).val + 512 * (L 0).val + k.val < k0_off2 L 0 + 512
    rw [e]
    show 1024 * (L 1).val + 512 * (L 0).val ≤ 1024 * (L 1).val + 512 * (L 0).val + k.val
      ∧ 1024 * (L 1).val + 512 * (L 0).val + k.val < 1024 * (L 1).val + 512 * (L 0).val + 512
    omega
  | ⟨1, _⟩ =>
    have e := congrFun e2 1
    show k0_off2 L 1 ≤ l.val ∧ l.val < k0_off2 L 1 + 128
    rw [e]
    show 0 ≤ l.val ∧ l.val < 0 + 128
    omega

/-- and entry (off + k, 128 + l) in its right piece. -/
theorem mem_pieceB (L : grid0.Coords) (k : Fin 512) (l : Fin 128) :
    (ix2 (⟨1024 * (L 1).val + 512 * (L 0).val + k.val, off_lt L k⟩ : Fin 16384)
      (⟨128 + l.val, by have := l.isLt; omega⟩ : Fin 256) : S16384x256.Idx) ∈ (xSlB L).view.set := by
  have hs : (xSlB L).view.set = (Rect.unit (s := S16384x256) (k0_off3 L) S512x128.size (Gen.k0_off3_inb L)).set :=
    View.set_slice_whole main_v0_scv _
  rw [hs, Rect.mem_set_unit]
  intro a
  have e3 := Gen.k0_off3_eq L
  have := k.isLt
  have := l.isLt
  match a with
  | ⟨0, _⟩ =>
    have e := congrFun e3 0
    show k0_off3 L 0 ≤ 1024 * (L 1).val + 512 * (L 0).val + k.val
      ∧ 1024 * (L 1).val + 512 * (L 0).val + k.val < k0_off3 L 0 + 512
    rw [e]
    show 1024 * (L 1).val + 512 * (L 0).val ≤ 1024 * (L 1).val + 512 * (L 0).val + k.val
      ∧ 1024 * (L 1).val + 512 * (L 0).val + k.val < 1024 * (L 1).val + 512 * (L 0).val + 512
    omega
  | ⟨1, _⟩ =>
    have e := congrFun e3 1
    show k0_off3 L 1 ≤ 128 + l.val ∧ 128 + l.val < k0_off3 L 1 + 128
    rw [e]
    show 128 ≤ 128 + l.val ∧ 128 + l.val < 128 + 128
    omega

/-- The tile with coordinates c (which half) and s (which of the sixteen). -/
def tileAt (c : Fin 2) (s : Fin 16) : grid0.Coords := fun a => match a with | ⟨0, _⟩ => c | ⟨1, _⟩ => s

/-- THE GATHERED ARRAY: an array that agrees, on every tile's two pieces, with what that tile's run leaves there is the
    specification's gathered rows, entry by entry. -/
theorem gathered_eq_X (A : Buf (Elt Ideal) (xLoc d))
    (hA : ∀ L : grid0.Coords,
      (∃ fsu fr h, ∀ i ∈ (xSlA L).view.set,
        A i = (xSlA L).view.writes (Elt Ideal) (m (xLoc d)) [⟨Rect.whole _, rawA m d L fsu fr h⟩] i)
      ∧ (∃ fsu fsi fr h h', ∀ i ∈ (xSlB L).view.set,
        A i = (xSlB L).view.writes (Elt Ideal) (m (xLoc d)) [⟨Rect.whole _, rawB m d L fsu fsi fr h h'⟩] i))
    (r : Fin 16384) (l : Fin 256) :
    (A : S16384x256.Idx → EReal) (ix2 r l) = Cert.Spec.X (m (uLoc d)) (m (iLoc d)) (m (tuLoc d)) (m (tiLoc d)) r l := by
  refine array_eq_X (m (uLoc d)) (m (iLoc d)) (m (tuLoc d)) (m (tiLoc d)) A ?_ ?_ r l
  · intro c s k l'
    obtain ⟨⟨fsu, fr, h, hA1⟩, -⟩ := hA (tileAt c s)
    exact (hA1 _ (mem_pieceA (tileAt c s) k l')).trans (pieceA_value m d (tileAt c s) (m (xLoc d)) fsu fr h k l')
  · intro c s k l'
    obtain ⟨-, ⟨fsu, fsi, fr, h, h', hA2⟩⟩ := hA (tileAt c s)
    exact (hA2 _ (mem_pieceB (tileAt c s) k l')).trans (pieceB_value m d (tileAt c s) (m (xLoc d)) fsu fsi fr h h' k l')

end AtTile

end Cert.KernelIdeal.KVal

end
-- ==== Proof.KValDot.lean ====
/-
  The three matrix products of the dense layers, each read at one entry.

  A product accumulated into the zero array is, at an entry, the sum over the one contracted coordinate of the
  products of the two operands' entries. The first two layers contract the left operand's columns with the right
  operand's rows: entry (q, j) is Σ_l A[q, l] · B[l, j]. The last layer contracts the left operand's ROWS with the
  right operand's COLUMNS: entry (u, q) is Σ_k A[k, u] · B[q, k], the weight column first in each product.
-/
import proofs.«201248_g17051020165207_cont_7to1_1438_30_alg».proof.Proof.Gen.KernelIdeal.Skeleton
import Idealize.ShloMosaic.Lib.ValueIdx
import Idealize.ShloMosaic.PureOps.Ideal.Laws

noncomputable section

open scoped BigOperators

namespace Cert.KernelIdeal.KVal

open Idealize.ShloMosaic Idealize.ShloMosaic.ValueIdx Cert.KernelIdeal

/-- The first layer's product at entry (q, j): the sum over the 256 gathered coordinates. -/
theorem dot1_apply (A : FVec Ideal S4096x256 .f32) (B : FVec Ideal S256x128 .f32) (q : Fin 4096) (j : Fin 128) :
    matmul dot_S4096x256_S256x128_S4096x128_1_0_0_1_n_n none A B (constant (F := Ideal) S4096x128 .f32 0x00000000#32) (ix2 q j)
      = ∑ l : Fin 256, A (ix2 q l) * B (ix2 l j) := by
  show FloatOps.matmul _ none A B (constant (F := Ideal) S4096x128 .f32 0x00000000#32) (ix2 q j) = _
  rw [Ideal.matmul_constant_zero_apply,
    ← Equiv.sum_comp (contrEquiv1 dot_S4096x256_S256x128_S4096x128_1_0_0_1_n_n 256 rfl rfl).symm]
  refine Finset.sum_congr rfl fun c _ => ?_
  have cv := contrEquiv1_symm_val dot_S4096x256_S256x128_S4096x128_1_0_0_1_n_n 256 rfl rfl c
  have hl : dot_S4096x256_S256x128_S4096x128_1_0_0_1_n_n.lhsIdx (ix2 q j)
      ((contrEquiv1 dot_S4096x256_S256x128_S4096x128_1_0_0_1_n_n 256 rfl rfl).symm c) = ix2 q c := by
    funext ax; apply Fin.ext
    match ax with
    | ⟨0, _⟩ => rfl
    | ⟨1, _⟩ => exact (DotDims.lhsIdx_val_of_single dot_S4096x256_S256x128_S4096x128_1_0_0_1_n_n (cl := (1 : Fin 2)) rfl _ _).trans cv
  have hr : dot_S4096x256_S256x128_S4096x128_1_0_0_1_n_n.rhsIdx (ix2 q j)
      ((contrEquiv1 dot_S4096x256_S256x128_S4096x128_1_0_0_1_n_n 256 rfl rfl).symm c) = ix2 c j := by
    funext ax; apply Fin.ext
    match ax with
    | ⟨0, _⟩ => exact (DotDims.rhsIdx_val_of_single dot_S4096x256_S256x128_S4096x128_1_0_0_1_n_n (cr := (0 : Fin 2)) rfl _ _).trans cv
    | ⟨1, _⟩ => rfl
  rw [hl, hr]

/-- The second layer's product at entry (q, k): the sum over the 128 hidden coordinates. -/
theorem dot2_apply (A : FVec Ideal S4096x128 .f32) (B : FVec Ideal S128x64 .f32) (q : Fin 4096) (k : Fin 64) :
    matmul dot_S4096x128_S128x64_S4096x64_1_0_0_1_n_n none A B (constant (F := Ideal) S4096x64 .f32 0x00000000#32) (ix2 q k)
      = ∑ j : Fin 128, A (ix2 q j) * B (ix2 j k) := by
  show FloatOps.matmul _ none A B (constant (F := Ideal) S4096x64 .f32 0x00000000#32) (ix2 q k) = _
  rw [Ideal.matmul_constant_zero_apply,
    ← Equiv.sum_comp (contrEquiv1 dot_S4096x128_S128x64_S4096x64_1_0_0_1_n_n 128 rfl rfl).symm]
  refine Finset.sum_congr rfl fun c _ => ?_
  have cv := contrEquiv1_symm_val dot_S4096x128_S128x64_S4096x64_1_0_0_1_n_n 128 rfl rfl c
  have hl : dot_S4096x128_S128x64_S4096x64_1_0_0_1_n_n.lhsIdx (ix2 q k)
      ((contrEquiv1 dot_S4096x128_S128x64_S4096x64_1_0_0_1_n_n 128 rfl rfl).symm c) = ix2 q c := by
    funext ax; apply Fin.ext
    match ax with
    | ⟨0, _⟩ => rfl
    | ⟨1, _⟩ => exact (DotDims.lhsIdx_val_of_single dot_S4096x128_S128x64_S4096x64_1_0_0_1_n_n (cl := (1 : Fin 2)) rfl _ _).trans cv
  have hr : dot_S4096x128_S128x64_S4096x64_1_0_0_1_n_n.rhsIdx (ix2 q k)
      ((contrEquiv1 dot_S4096x128_S128x64_S4096x64_1_0_0_1_n_n 128 rfl rfl).symm c) = ix2 c k := by
    funext ax; apply Fin.ext
    match ax with
    | ⟨0, _⟩ => exact (DotDims.rhsIdx_val_of_single dot_S4096x128_S128x64_S4096x64_1_0_0_1_n_n (cr := (0 : Fin 2)) rfl _ _).trans cv
    | ⟨1, _⟩ => rfl
  rw [hl, hr]

/-- The last layer's product at entry (u, q): the weight column's entry k times row q's entry k, summed over the 64 hidden coordinates. -/
theorem dot3_apply (A : FVec Ideal S64x1 .f32) (B : FVec Ideal S4096x64 .f32) (u : Fin 1) (q : Fin 4096) :
    matmul dot_S64x1_S4096x64_S1x4096_0_1_1_0_n_n none A B (constant (F := Ideal) S1x4096 .f32 0x00000000#32) (ix2 u q)
      = ∑ k : Fin 64, A (ix2 k u) * B (ix2 q k) := by
  show FloatOps.matmul _ none A B (constant (F := Ideal) S1x4096 .f32 0x00000000#32) (ix2 u q) = _
  rw [Ideal.matmul_constant_zero_apply,
    ← Equiv.sum_comp (contrEquiv1 dot_S64x1_S4096x64_S1x4096_0_1_1_0_n_n 64 rfl rfl).symm]
  refine Finset.sum_congr rfl fun c _ => ?_
  have cv := contrEquiv1_symm_val dot_S64x1_S4096x64_S1x4096_0_1_1_0_n_n 64 rfl rfl c
  have hl : dot_S64x1_S4096x64_S1x4096_0_1_1_0_n_n.lhsIdx (ix2 u q)
      ((contrEquiv1 dot_S64x1_S4096x64_S1x4096_0_1_1_0_n_n 64 rfl rfl).symm c) = ix2 c u := by
    funext ax; apply Fin.ext
    match ax with
    | ⟨0, _⟩ => exact (DotDims.lhsIdx_val_of_single dot_S64x1_S4096x64_S1x4096_0_1_1_0_n_n (cl := (0 : Fin 2)) rfl _ _).trans cv
    | ⟨1, _⟩ => rfl
  have hr : dot_S64x1_S4096x64_S1x4096_0_1_1_0_n_n.rhsIdx (ix2 u q)
      ((contrEquiv1 dot_S64x1_S4096x64_S1x4096_0_1_1_0_n_n 64 rfl rfl).symm c) = ix2 q c := by
    funext ax; apply Fin.ext
    match ax with
    | ⟨0, _⟩ => rfl
    | ⟨1, _⟩ => exact (DotDims.rhsIdx_val_of_single dot_S64x1_S4096x64_S1x4096_0_1_1_0_n_n (cr := (1 : Fin 2)) rfl _ _).trans cv
  rw [hl, hr]

end Cert.KernelIdeal.KVal

end
-- ==== Proof.KValPay.lean ====
/-
  The dense layers' value at one batch row.

  Each rectified layer is, at an entry, the larger of zero and a sum over the contracted coordinate plus that
  column's bias: the bias vector is first viewed as a single row and that row is repeated down all 4096 rows, so at
  (q, j) it reads the vector's entry j. The last layer multiplies the weight column on the left of each hidden
  entry, adds the one bias entry to every score, and the row of 4096 scores is finally viewed with two leading
  axes of extent one: at (0, 0, q) it reads score q.
-/
import proofs.«201248_g17051020165207_cont_7to1_1438_30_alg».proof.Proof.KValDot
import Idealize.ShloMosaic.Lib.ValueLayout

noncomputable section

open scoped BigOperators

namespace Cert.KernelIdeal.KVal

open Idealize.ShloMosaic Idealize.ShloMosaic.ValueIdx Cert.KernelIdeal

/-- The zero word, as the scalar the rectifications compare against, is the extended real 0. -/
theorem zero_scalar : (Scalar.ofBits (F := Ideal) .f32 0x00000000#32 : Ideal .f32) = 0 := Ideal.ofBits_zero_f32

/-- A bias vector of n entries, viewed as one row and repeated down 4096 rows, reads its entry j at (q, j). -/
theorem bias_row_apply {n : Nat} (c : FVec Ideal ⟨1, ![n]⟩ .f32) (h1 : (⟨1, ![n]⟩ : Shape).ShapeCasts ⟨2, ![1, n]⟩)
    (hb : (⟨2, ![1, n]⟩ : Shape).Broadcasts ⟨2, ![4096, n]⟩) (q : Fin 4096) (j : Fin n) :
    broadcastTo ⟨2, ![4096, n]⟩ (shapeCast ⟨2, ![1, n]⟩ c h1) hb (ix2 q j) = c (ix1 j) :=
  (broadcastTo_1b_ab_apply _ hb q j).trans (shapeCast_a_1a_apply c h1 (0 : Fin 1) j)

/-- The first rectified layer at (q, j). -/
theorem relu1_apply (x : FVec Ideal S4096x256 .f32) (w : FVec Ideal S256x128 .f32) (c : FVec Ideal S128 .f32)
    (h0 : S4096x256.ShapeCasts S4096x256) (h1 : S128.ShapeCasts S1x128) (hb : S1x128.Broadcasts S4096x128)
    (q : Fin 4096) (j : Fin 128) :
    maximumf (addf (matmul dot_S4096x256_S256x128_S4096x128_1_0_0_1_n_n none (shapeCast S4096x256 x h0) w
        (constant (F := Ideal) S4096x128 .f32 0x00000000#32)) (broadcastTo S4096x128 (shapeCast S1x128 c h1) hb))
      (broadcast S4096x128 (Scalar.ofBits (F := Ideal) .f32 0x00000000#32)) (ix2 q j)
      = max ((∑ l : Fin 256, x (ix2 q l) * w (ix2 l j)) + c (ix1 j)) 0 := by
  rw [maximumf_apply, addf_apply, broadcast_apply, zero_scalar, shapeCast_self, dot1_apply]
  exact congrArg (fun b => max ((∑ l : Fin 256, x (ix2 q l) * w (ix2 l j)) + b) 0) (bias_row_apply c h1 hb q j)

/-- The second rectified layer at (q, k), over whatever the first layer left. -/
theorem relu2_apply (a : FVec Ideal S4096x128 .f32) (w : FVec Ideal S128x64 .f32) (c : FVec Ideal S64 .f32)
    (h1 : S64.ShapeCasts S1x64) (hb : S1x64.Broadcasts S4096x64) (q : Fin 4096) (k : Fin 64) :
    maximumf (addf (matmul dot_S4096x128_S128x64_S4096x64_1_0_0_1_n_n none a w
        (constant (F := Ideal) S4096x64 .f32 0x00000000#32)) (broadcastTo S4096x64 (shapeCast S1x64 c h1) hb))
      (broadcast S4096x64 (Scalar.ofBits (F := Ideal) .f32 0x00000000#32)) (ix2 q k)
      = max ((∑ j : Fin 128, a (ix2 q j) * w (ix2 j k)) + c (ix1 k)) 0 := by
  rw [maximumf_apply, addf_apply, broadcast_apply, zero_scalar, dot2_apply]
  exact congrArg (fun b => max ((∑ j : Fin 128, a (ix2 q j) * w (ix2 j k)) + b) 0) (bias_row_apply c h1 hb q k)

/-- The one entry of the last bias, read at position 0. -/
theorem extract_one (c : FVec Ideal S1 .f32) (hp : ∀ a, (![0] : Fin 1 → Nat) a < S1.size a) :
    extractAt ![0] c hp = c (ix1 (0 : Fin 1)) :=
  congrArg c (funext fun a => match a with | ⟨0, _⟩ => rfl)

/-- The score row, viewed with two leading unit axes, at (0, 0, q), over whatever the second layer left. -/
theorem last_apply (w : FVec Ideal S64x1 .f32) (b : FVec Ideal S4096x64 .f32) (c : FVec Ideal S1 .f32)
    (hp : ∀ a, (![0] : Fin 1 → Nat) a < S1.size a) (hc : S1x4096.ShapeCasts S1x1x4096) (q : Fin 4096) :
    shapeCast S1x1x4096 (addf (matmul dot_S64x1_S4096x64_S1x4096_0_1_1_0_n_n none w b
        (constant (F := Ideal) S1x4096 .f32 0x00000000#32)) (broadcast S1x4096 (extractAt ![0] c hp))) hc
      (ix3 (0 : Fin 1) (0 : Fin 1) q)
      = (∑ k : Fin 64, w (ix2 k (0 : Fin 1)) * b (ix2 q k)) + c (ix1 (0 : Fin 1)) := by
  refine (shapeCast_ab_1ab_apply _ hc (0 : Fin 1) (0 : Fin 1) q).trans ?_
  rw [addf_apply, broadcast_apply, dot3_apply, extract_one]

/-- THE PAYLOAD AT ROW q: the three layers composed. -/
theorem pay_at (x0 : Vec Ideal S4096x256 .f32) (w1 : Vec Ideal S256x128 .f32) (c1 : Vec Ideal S128 .f32)
    (w2 : Vec Ideal S128x64 .f32) (c2 : Vec Ideal S64 .f32) (w3 : Vec Ideal S64x1 .f32) (c3 : Vec Ideal S1 .f32)
    (q : Fin 4096) :
    Cert.KernelIdeal.Gen.k1_pay1 (F := Ideal) x0 w1 c1 w2 c2 w3 c3 (ix3 (0 : Fin 1) (0 : Fin 1) q)
      = (∑ k : Fin 64, w3 (ix2 k (0 : Fin 1)) *
          max ((∑ j : Fin 128, max ((∑ l : Fin 256, x0 (ix2 q l) * w1 (ix2 l j)) + c1 (ix1 j)) 0 * w2 (ix2 j k))
            + c2 (ix1 k)) 0) + c3 (ix1 (0 : Fin 1)) := by
  unfold Cert.KernelIdeal.Gen.k1_pay1
  refine (last_apply w3 _ c3 _ _ q).trans ?_
  refine congrArg (· + c3 (ix1 (0 : Fin 1))) (Finset.sum_congr rfl fun k _ => congrArg (w3 (ix2 k (0 : Fin 1)) * ·) ?_)
  refine (relu2_apply _ w2 c2 _ _ q k).trans ?_
  refine congrArg (fun s => max (s + c2 (ix1 k)) 0) (Finset.sum_congr rfl fun j _ => congrArg (· * w2 (ix2 j k)) ?_)
  exact relu1_apply x0 w1 c1 _ _ _ q j

end Cert.KernelIdeal.KVal

end
-- ==== Proof.KValScore.lean ====
/-
  The dense layers' value at a batch row is that row's score.

  Block t of the batch holds rows 4096·t … 4096·t + 4095. When the block's input rows are the gathered rows of
  those batch rows, the value the layers leave at entry q is the score of batch row 4096·t + q: the two agree
  term by term except that the last layer writes each product with the weight first, and multiplication of
  extended reals is commutative.
-/
import proofs.«201248_g17051020165207_cont_7to1_1438_30_alg».proof.Proof.KValPay
import proofs.«201248_g17051020165207_cont_7to1_1438_30_alg».proof.Proof.Spec

noncomputable section

open scoped BigOperators

namespace Cert.KernelIdeal.KVal

open Idealize.ShloMosaic Idealize.ShloMosaic.ValueIdx Cert.KernelIdeal

/-- The payload of block t at entry q is the score of batch row 4096·t + q, when the block's input is the gathered
    rows of the block's batch rows. -/
theorem pay_eq_score (uid iid : (⟨1, ![16384]⟩ : Shape).Idx → BitVec 32)
    (U I : (⟨2, ![100000, 128]⟩ : Shape).Idx → EReal)
    (x0 : Vec Ideal S4096x256 .f32) (w1 : Vec Ideal S256x128 .f32) (c1 : Vec Ideal S128 .f32)
    (w2 : Vec Ideal S128x64 .f32) (c2 : Vec Ideal S64 .f32) (w3 : Vec Ideal S64x1 .f32) (c3 : Vec Ideal S1 .f32)
    (t : Fin 4)
    (hx : ∀ (q : Fin 4096) (l : Fin 256), x0 (ix2 q l)
      = Cert.Spec.X uid iid U I ⟨4096 * t.val + q.val, by have := t.isLt; have := q.isLt; omega⟩ l)
    (q : Fin 4096) :
    Cert.KernelIdeal.Gen.k1_pay1 (F := Ideal) x0 w1 c1 w2 c2 w3 c3 (ix3 (0 : Fin 1) (0 : Fin 1) q)
      = Cert.Spec.score uid iid U I w1 c1 w2 c2 w3 c3
          ⟨4096 * t.val + q.val, by have := t.isLt; have := q.isLt; omega⟩ := by
  refine (pay_at x0 w1 c1 w2 c2 w3 c3 q).trans ?_
  unfold Cert.Spec.score Cert.Spec.H2 Cert.Spec.H1
  refine congrArg (· + c3 (ix1 (0 : Fin 1))) (Finset.sum_congr rfl fun k _ => ?_)
  refine (mul_comm _ _).trans (congrArg (· * w3 (ix2 k (0 : Fin 1))) ?_)
  refine congrArg (fun s => max (s + c2 (ix1 k)) 0) (Finset.sum_congr rfl fun j _ => congrArg (· * w2 (ix2 j k)) ?_)
  exact congrArg (fun s => max (s + c1 (ix1 j)) 0) (Finset.sum_congr rfl fun l _ => congrArg (· * w1 (ix2 l j)) (hx q l))

end Cert.KernelIdeal.KVal

end
-- ==== Proof.KValReshape.lean ====
/-
  The four blocks of 4096 scores, laid end to end.

  The dense layers leave a [4, 1, 4096] array: block t holds the scores of batch rows 4096·t … 4096·t + 4095. Read
  in row-major order at the flat shape [16384], position r is block r / 4096, entry r mod 4096. So if every block
  entry (t, 0, q) is the score of batch row 4096·t + q, the flat array is the score of every batch row.
-/
import proofs.«201248_g17051020165207_cont_7to1_1438_30_alg».proof.Proof.Gen.KernelIdeal.Skeleton
import proofs.«201248_g17051020165207_cont_7to1_1438_30_alg».proof.Proof.Spec
import Idealize.ShloMosaic.Lib.ValueIdx
import Idealize.ShloMosaic.Lib.Pipeline.Value
import Idealize.ShloMosaic.Lib.StableHlo

noncomputable section

open scoped BigOperators

namespace Cert.KernelIdeal.KVal

open Idealize.ShloMosaic Idealize.ShloMosaic.ValueIdx Cert.KernelIdeal

/-- The flat view of the [4, 1, 4096] array at position r: block r / 4096, entry r mod 4096. -/
theorem reshape_read {α : Type} (v : S4x1x4096.Idx → α) (h : S4x1x4096.ShapeCasts S16384) (r : Fin 16384) :
    shapeCast S16384 v h (ix1 r)
      = v (ix3 (⟨r.val / 4096, by have := r.isLt; omega⟩ : Fin 4) (0 : Fin 1)
          (⟨r.val % 4096, Nat.mod_lt _ (by decide)⟩ : Fin 4096)) := by
  refine shapeCast_apply v h _ _ ?_
  rw [Shape.rowMajor_val_three, Shape.rowMajor_val_one]
  show (r.val / 4096 * 1 + 0) * 4096 + r.val % 4096 = r.val
  have := Nat.div_add_mod r.val 4096
  omega

section

variable (uid iid : (⟨1, ![16384]⟩ : Shape).Idx → BitVec 32)
  (U I : (⟨2, ![100000, 128]⟩ : Shape).Idx → EReal)
  (W1 : (⟨2, ![256, 128]⟩ : Shape).Idx → EReal) (b1 : (⟨1, ![128]⟩ : Shape).Idx → EReal)
  (W2 : (⟨2, ![128, 64]⟩ : Shape).Idx → EReal) (b2 : (⟨1, ![64]⟩ : Shape).Idx → EReal)
  (W3 : (⟨2, ![64, 1]⟩ : Shape).Idx → EReal) (b3 : (⟨1, ![1]⟩ : Shape).Idx → EReal)

/-- If block t's entry q is the score of batch row 4096·t + q, for every t and q, the flat array is the whole
    score array. -/
theorem reshape_eq_G (v : S4x1x4096.Idx → EReal) (h : S4x1x4096.ShapeCasts S16384)
    (hv : ∀ (t : Fin 4) (q : Fin 4096), v (ix3 t (0 : Fin 1) q)
      = Cert.Spec.score uid iid U I W1 b1 W2 b2 W3 b3 ⟨4096 * t.val + q.val, by have := t.isLt; have := q.isLt; omega⟩) :
    shapeCast S16384 v h = Cert.Spec.G uid iid U I W1 b1 W2 b2 W3 b3 := by
  funext i
  obtain ⟨r, rfl⟩ : ∃ r : Fin 16384, i = ix1 r := ⟨i 0, eq_ix1 i⟩
  rw [reshape_read, hv, Cert.Spec.G_ix1]
  refine congrArg (Cert.Spec.score uid iid U I W1 b1 W2 b2 W3 b3) (Fin.ext ?_)
  show 4096 * (r.val / 4096) + r.val % 4096 = r.val
  exact Nat.div_add_mod r.val 4096

/-- What the host reshape of the dense layers' [4, 1, 4096] result leaves in its flat result array, read at position
    r: from any contents F of the buffers before it, block r / 4096, entry r mod 4096 of the operand. -/
theorem reshape_result_read (h : S4x1x4096.ShapeCasts S16384)
    (hx : main_v1.space ≠ .host ∧ (Proc.devRef (τ := τ) .tc main_v1).isScoped = false)
    (hy : main_v2.space ≠ .host ∧ (Proc.devRef (τ := τ) .tc main_v2).isScoped = false)
    (F : Valuation τ sig (Elt Ideal)) (r : Fin 16384) :
    ((StableHlo.reshape main_v1 main_v2 rfl h hx hy : HloOp τ sig (Elt Ideal)).result F (Proc.devRef .tc main_v2)
        : S16384.Idx → EReal) (ix1 r)
      = (F (Proc.devRef .tc main_v1) : S4x1x4096.Idx → EReal)
          (ix3 (⟨r.val / 4096, by have := r.isLt; omega⟩ : Fin 4) (0 : Fin 1)
            (⟨r.val % 4096, Nat.mod_lt _ (by decide)⟩ : Fin 4096)) := by
  rw [StableHlo.reshape_result]
  exact reshape_read (F (Proc.devRef .tc main_v1) : S4x1x4096.Idx → EReal) h r

/-- The whole flat result array after the host reshape, when every block entry before it is its batch row's score. -/
theorem reshape_result_eq_G (h : S4x1x4096.ShapeCasts S16384)
    (hx : main_v1.space ≠ .host ∧ (Proc.devRef (τ := τ) .tc main_v1).isScoped = false)
    (hy : main_v2.space ≠ .host ∧ (Proc.devRef (τ := τ) .tc main_v2).isScoped = false)
    (F : Valuation τ sig (Elt Ideal))
    (hv : ∀ (t : Fin 4) (q : Fin 4096), (F (Proc.devRef .tc main_v1) : S4x1x4096.Idx → EReal) (ix3 t (0 : Fin 1) q)
      = Cert.Spec.score uid iid U I W1 b1 W2 b2 W3 b3 ⟨4096 * t.val + q.val, by have := t.isLt; have := q.isLt; omega⟩) :
    ((StableHlo.reshape main_v1 main_v2 rfl h hx hy : HloOp τ sig (Elt Ideal)).result F (Proc.devRef .tc main_v2)
        : S16384.Idx → EReal) = Cert.Spec.G uid iid U I W1 b1 W2 b2 W3 b3 := by
  rw [StableHlo.reshape_result]
  exact reshape_eq_G uid iid U I W1 b1 W2 b2 W3 b3 (F (Proc.devRef .tc main_v1) : S4x1x4096.Idx → EReal) h hv

end

end Cert.KernelIdeal.KVal

end
-- ==== Proof.lean ====
/-
  The certificate's five claims.

  Both kernel programs — the one read at the word-level instance and its idealization — are one program text: the
  SparseCore call gathers, for every batch row, the user table's row and the item table's row its two id words name
  into one [16384, 256] array; a pallas_call over four blocks of 4096 rows computes the three dense layers; a reshape
  lays the [4, 1, 4096] result out as [16384]. Their runs are one theorem, generic in the float instance
  (`Sc.run_main`), stated with two predicates on what each tile leaves of the gathered array. With the trivial predicates
  it gives the two frames. With "the piece holds the rows the tile's words name" it gives, at the ideal instance, the
  value: the gathered array is the specification's `X`, each block's payload is the specification's score of its rows,
  and the reshape reads block `r / 4096`, entry `r mod 4096`. The reference's run ends at the same specification `G`.
  The precondition is used once on each side: every id word names a table row, so the kernel's gathers are served and
  the reference's out-of-range mask is all true. No sum is rearranged; the last layer's products are commuted.
-/
import proofs.«201248_g17051020165207_cont_7to1_1438_30_alg».proof.Defs
import proofs.«201248_g17051020165207_cont_7to1_1438_30_alg».proof.Proof.Gen.Kernel
import proofs.«201248_g17051020165207_cont_7to1_1438_30_alg».proof.Proof.Gen.KernelIdeal
import proofs.«201248_g17051020165207_cont_7to1_1438_30_alg».proof.Proof.Gen.ReferenceIdeal
import proofs.«201248_g17051020165207_cont_7to1_1438_30_alg».proof.Proof.Gen.Pre_input_domain
import proofs.«201248_g17051020165207_cont_7to1_1438_30_alg».proof.Proof.ScMain
import proofs.«201248_g17051020165207_cont_7to1_1438_30_alg».proof.Proof.ScBMain
import proofs.«201248_g17051020165207_cont_7to1_1438_30_alg».proof.Proof.RefSpec
import proofs.«201248_g17051020165207_cont_7to1_1438_30_alg».proof.Proof.RefPreIds
import proofs.«201248_g17051020165207_cont_7to1_1438_30_alg».proof.Proof.KValPiece
import proofs.«201248_g17051020165207_cont_7to1_1438_30_alg».proof.Proof.KValScore
import proofs.«201248_g17051020165207_cont_7to1_1438_30_alg».proof.Proof.KValReshape
import Idealize.ShloMosaic.Adequacy
import Idealize.ShloMosaic.Init

noncomputable section

namespace Cert.Proof

open Idealize.ShloMosaic Idealize.ShloMosaic.TcCoe Idealize.SL.Sem Idealize.ShloMosaic.ValueIdx

/-! ## The precondition: every id word names a table row -/

theorem preOK_bits (m : (ℓ : Loc Cert.Kernel.nD Cert.Kernel.τ Cert.Kernel.sig) → Buf (Elt Bits) ℓ) (h : Cert.Pre_Kernel m) :
    Cert.Kernel.Sc.PreOK m := fun d => Cert.RefPreIds.ids_in_range (F := Bits) _ _ _ _ _ _ _ _ _ _ (h d)

theorem preOK_ideal (m : (ℓ : Loc Cert.KernelIdeal.nD Cert.KernelIdeal.τ Cert.KernelIdeal.sig) → Buf (Elt Ideal) ℓ) (h : Cert.Pre_KernelIdeal m) :
    Cert.KernelIdeal.Sc.PreOK m := fun d => Cert.RefPreIds.ids_in_range (F := Ideal) _ _ _ _ _ _ _ _ _ _ (h d)

/-! ## The frames -/

theorem frame_k : Cert.frame_Kernel := fun m g hpre =>
  (θ_run Cert.Kernel.defs _ _).mono (fun _ h c => (h c).2)
    (Cert.Kernel.Sc.run_main (F := Bits) m g (fun _ _ _ => True) (fun _ _ _ => True) (preOK_bits m hpre)
      (fun _ _ => ⟨fun _ _ _ => trivial, fun _ _ _ _ _ => trivial⟩) ⟨fun _ _ _ _ _ _ => trivial, fun _ _ _ _ _ _ => trivial⟩)

theorem frame_ki : Cert.frame_KernelIdeal := fun m g hpre =>
  (θ_run Cert.KernelIdeal.defs _ _).mono (fun _ h c => (h c).2)
    (Cert.KernelIdeal.Sc.run_main (F := Ideal) m g (fun _ _ _ => True) (fun _ _ _ => True) (preOK_ideal m hpre)
      (fun _ _ => ⟨fun _ _ _ => trivial, fun _ _ _ _ _ => trivial⟩) ⟨fun _ _ _ _ _ _ => trivial, fun _ _ _ _ _ _ => trivial⟩)

theorem frame_ri : Cert.frame_ReferenceIdeal := fun m g hpre =>
  (θ_run Cert.ReferenceIdeal.defs _ _).mono (fun _ h c => (h c).2) (Cert.ReferenceIdeal.RefRun.run_spec m g hpre)

/-! ## The value of the idealized kernel -/

section Value

open Cert.KernelIdeal Cert.KernelIdeal.Gen Cert.KernelIdeal.Sc

variable (m : (ℓ : Loc nD τ sig) → Buf (Elt Ideal) ℓ)

/-- A tile's first piece holds, on the piece, what the first copy-out carried; -/
def GAv (d : Dev nD) (L : grid0.Coords) (f : Buf (Elt Ideal) (xLoc d)) : Prop :=
  ∃ fsu fr h, ∀ i ∈ (xSlA L).view.set, f i = (xSlA L).view.writes (Elt Ideal) (m (xLoc d)) [⟨Rect.whole S512x128, rawA m d L fsu fr h⟩] i
/-- its second what the second carried. -/
def GBv (d : Dev nD) (L : grid0.Coords) (f : Buf (Elt Ideal) (xLoc d)) : Prop :=
  ∃ fsu fsi fr h h', ∀ i ∈ (xSlB L).view.set, f i = (xSlB L).view.writes (Elt Ideal) (m (xLoc d)) [⟨Rect.whole S512x128, rawB m d L fsu fsi fr h h'⟩] i

theorem leaves_v : Leaves m (GAv m) (GBv m) := fun d L =>
  ⟨fun fsu fr h => ⟨fsu, fr, h, fun _ _ => rfl⟩, fun fsu fsi fr h h' => ⟨fsu, fsi, fr, h, h', fun _ _ => rfl⟩⟩

theorem local_v : Local (GAv m) (GBv m) :=
  ⟨fun d L f f' e ⟨fsu, fr, h, hf⟩ => ⟨fsu, fr, h, fun i hi => (e i hi).trans (hf i hi)⟩,
   fun d L f f' e ⟨fsu, fsi, fr, h, h', hf⟩ => ⟨fsu, fsi, fr, h, h', fun i hi => (e i hi).trans (hf i hi)⟩⟩

/-- Every grid point is a tile's. -/
theorem coords_eq (L : grid0.Coords) : L = Lp (L 0, L 1) :=
  funext fun a => match a with | ⟨0, _⟩ => rfl | ⟨1, _⟩ => rfl

/-- The result array named by the run, at a gathered array whose pieces hold the gathered rows, is the specification. -/
theorem result_eq_G (d : Dev nD) (g : Buf (Elt Ideal) (xLoc d)) (hg : ∀ t : Tile, GAv m d (Lp t) g ∧ GBv m d (Lp t) g) :
    (Rv m d g : S16384.Idx → EReal)
      = Cert.Spec.G (m (aLoc main_arg0 d)) (m (aLoc main_arg1 d)) (m (aLoc main_arg2 d)) (m (aLoc main_arg3 d)) (m (aLoc main_arg4 d)) (m (aLoc main_arg5 d))
          (m (aLoc main_arg6 d)) (m (aLoc main_arg7 d)) (m (aLoc main_arg8 d)) (m (aLoc main_arg9 d)) := by
  have hX : ∀ (r : Fin 16384) (l : Fin 256), (g : S16384x256.Idx → EReal) (ix2 r l)
      = Cert.Spec.X (m (uLoc d)) (m (iLoc d)) (m (tuLoc d)) (m (tiLoc d)) r l :=
    Cert.KernelIdeal.KVal.gathered_eq_X m d g (fun L => by rw [coords_eq L]; exact hg (L 0, L 1))
  unfold Rv
  refine Cert.KernelIdeal.KVal.reshape_result_eq_G _ _ _ _ _ _ _ _ _ _ _ _ _ _ (fun t q => ?_)
  rw [show Fv m d (TcRegion.out1 (Vof m d g) d) v1' = TcRegion.out1 (Vof m d g) d from Function.update_self _ _ _]
  rw [TcRegion.out1_apply, Vof_v0, Vof_ne m d g d main_arg4 (by decide), Vof_ne m d g d main_arg5 (by decide), Vof_ne m d g d main_arg6 (by decide),
    Vof_ne m d g d main_arg7 (by decide), Vof_ne m d g d main_arg8 (by decide), Vof_ne m d g d main_arg9 (by decide)]
  exact Cert.KernelIdeal.KVal.pay_eq_score _ _ _ _ _ _ _ _ _ _ _ t (fun q' l => hX _ l) q

end Value

/-! ## The claims -/

theorem preserves : Cert.preserves_Kernel_KernelIdeal := trivial

theorem algebraic : Cert.algebraic_KernelIdeal_ReferenceIdeal := by
  intro m g m' g' hpre hagree
  refine ⟨fun c => Cert.Spec.G (m (Cert.KernelIdeal.Sc.aLoc Cert.KernelIdeal.main_arg0 c)) (m (Cert.KernelIdeal.Sc.aLoc Cert.KernelIdeal.main_arg1 c))
    (m (Cert.KernelIdeal.Sc.aLoc Cert.KernelIdeal.main_arg2 c)) (m (Cert.KernelIdeal.Sc.aLoc Cert.KernelIdeal.main_arg3 c)) (m (Cert.KernelIdeal.Sc.aLoc Cert.KernelIdeal.main_arg4 c))
    (m (Cert.KernelIdeal.Sc.aLoc Cert.KernelIdeal.main_arg5 c)) (m (Cert.KernelIdeal.Sc.aLoc Cert.KernelIdeal.main_arg6 c)) (m (Cert.KernelIdeal.Sc.aLoc Cert.KernelIdeal.main_arg7 c))
    (m (Cert.KernelIdeal.Sc.aLoc Cert.KernelIdeal.main_arg8 c)) (m (Cert.KernelIdeal.Sc.aLoc Cert.KernelIdeal.main_arg9 c)), ?_, ?_⟩
  · refine (θ_run Cert.KernelIdeal.defs _ _).mono (fun r h c => ?_)
      (Cert.KernelIdeal.Sc.run_main (F := Ideal) m g (GAv m) (GBv m) (preOK_ideal m hpre) (leaves_v m) (local_v m))
    obtain ⟨⟨gg, hgg, e⟩, rest⟩ := h c
    exact ⟨e.trans (result_eq_G m c gg hgg), rest⟩
  · have hpre' : Cert.Pre_ReferenceIdeal m' := fun c => by
      have h := hpre c
      obtain ⟨e0, e1, e2, e3, e4, e5, e6, e7, e8, e9⟩ := hagree c
      rw [e0, e1, e2, e3, e4, e5, e6, e7, e8, e9]
      exact h
    refine (θ_run Cert.ReferenceIdeal.defs _ _).mono (fun r h c => ?_) (Cert.ReferenceIdeal.RefRun.run_spec m' g' hpre')
    obtain ⟨e0, e1, e2, e3, e4, e5, e6, e7, e8, e9⟩ := hagree c
    refine ⟨(h c).1.trans ?_, (h c).2⟩
    rw [e0, e1, e2, e3, e4, e5, e6, e7, e8, e9]

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
